-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S1024x1024 .f32 .bf16
  ∧ IdealRules.truncf_extf.Statement Cert.KernelIdeal.S512x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) (main_arg2 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Kernel.lean ====
abbrev S8192x1024 : Shape := ⟨2, ![8192, 1024]⟩
abbrev S8192x8192 : Shape := ⟨2, ![8192, 8192]⟩
abbrev S8192x1 : Shape := ⟨2, ![8192, 1]⟩
abbrev S1024x1024 : Shape := ⟨2, ![1024, 1024]⟩
abbrev S512x1024 : Shape := ⟨2, ![512, 1024]⟩
abbrev S1024x512 : Shape := ⟨2, ![1024, 512]⟩
abbrev S1024x1 : Shape := ⟨2, ![1024, 1]⟩
abbrev S1024 : Shape := ⟨1, ![1024]⟩

abbrev nBuf : Space → Nat
  | .hbm => 8
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .bf16⟩
  | .hbm, ⟨4, _⟩ => ⟨S8192x8192, .f32⟩
  | .hbm, ⟨5, _⟩ => ⟨S8192x1, .f32⟩
  | .hbm, ⟨6, _⟩ => ⟨S8192x1024, .f32⟩
  | .hbm, ⟨7, _⟩ => ⟨S8192x8192, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1024x512, .f32⟩
  | .local _ .vmem, ⟨5, _⟩ => ⟨S1024x512, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1, .f32⟩
  | .local _ .vmem, ⟨15, _⟩ => ⟨S1024x1, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v38 : BitVec 1 := Scalar.cmpi .eq arg1 c15_i32
  let v39 : BitVec 32 := Scalar.extui v38
  let c0_i32_24 : BitVec 32 := 0#32
  let v40 : BitVec 1 := Scalar.cmpi .ne v39 c0_i32_24
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_12 : BitVec 32 := 0#32
  let v22 : BitVec 1 := Scalar.cmpi .ne v21 c0_i32_12
  v22

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S512x1024_S512x1024_0_0 : ∀ a, (![0, 0] : Fin 2 → Nat) a + S512x1024.size a ≤ S512x1024.size a
  h_S512x1024 : 0 < S512x1024.numel
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  dot_S1024x1024_S512x1024_S1024x512_1_1_0_0_n_n_wf : DotDims.WF S1024x1024 S512x1024 S1024x512 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x8192.size a
  hwx0_2 : ∀ i : grid0.Coords, EltTy.bits .f32 = 32 ∨ (Rect.block (s := S8192x8192) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x1024.size a
  hwx1_2 : ∀ i : grid1.Coords, EltTy.bits .bf16 = 32 ∨ (Rect.block (s := S8192x1024) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .f32 = 32 ∨ (Rect.block (s := S8192x1024) S1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S8192x8192.size a
  hwx1_4 : ∀ i : grid1.Coords, EltTy.bits .f32 = 32 ∨ (Rect.block (s := S8192x8192) S1024x1024.size (cc1_transform_4 i) (hinb1_4 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1024x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S1024x1024.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2_1) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun _ => false | ⟨_ + 5, h⟩ => absurd h (Nat.not_lt.2 (Nat.le_add_left _ _))

class Facts : Prop extends Facts₀ where
  halias1_4 : Pipeline.Aliased win1 0 4

variable [Facts]
-- ==== ReferenceIdeal.lean ====
abbrev S8192x1024 : Shape := ⟨2, ![8192, 1024]⟩
abbrev S1024x8192 : Shape := ⟨2, ![1024, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x8192, .f32⟩
  | .hbm, ⟨4, _⟩ => ⟨S8192x8192, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192x1, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x8192, .f32⟩
  | .hbm, ⟨18, _⟩ => ⟨S8192x8192, .f32⟩
  | .hbm, ⟨19, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  transposes_S8192x1024_S1024x8192_1_0 : S8192x1024.Transposes [1, 0] S1024x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.KDefs.lean ====
/-
  The two kernels' per-point data, as functions of the buffers a region finds.

  Region 0 visits the grid point t = 16·i + j (query tile i, key block j). Its carried state is the running
  row maximum m, the running sum l, and the two bf16 halves of the query tile; at j = 0 the state restarts
  from (−∞, 0, split of the query tile), and every point folds one key block in. Region 1 visits
  t = 8·i + j and carries the context accumulator, restarted from 0 at j = 0.
-/
import proofs.«167355_j84250078478576_2_alg».proof.Proof.Gen.KernelIdeal.Launch
import proofs.«167355_j84250078478576_2_alg».proof.Proof.Gen.KernelIdeal.Skeleton
import proofs.«167355_j84250078478576_2_alg».proof.Proof.Gen.KernelIdeal.Points

noncomputable section

namespace Cert.KernelIdeal.Hand

open Cert.KernelIdeal Cert.KernelIdeal.Gen
open Idealize.ShloMosaic Idealize.ShloMosaic.TcCoe Idealize.SL.Sem

variable {F : FTy → Type} [FloatOps F]

/-- The buffers of every core as a region finds them. -/
abbrev Entry (F : FTy → Type) : Type := (c : Dev nD) → (b : Ref sig .tc) → Buf (Elt F) ((c : Thread nD τ).loc b)

variable (V : Entry F)

/-- Region 0: window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 1: window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Region 0's carried state: running maximum, running sum, and the two halves of the query tile. -/
abbrev St0 (F : FTy → Type) : Type := Vec F S1024x1 .f32 × Vec F S1024x1 .f32 × Vec F S1024x1024 .bf16 × Vec F S1024x1024 .bf16

/-- The state a query tile starts from: maximum −∞, sum 0, the tile split in two. -/
def init0 (x0 : Vec F S1024x1024 .f32) : St0 F := (k0_pay4, k0_pay5, k0_pay6 x0, k0_pay7 x0)

/-- One key block folded into the state. -/
def step0 (x1 : Vec F S512x1024 .f32) (s : St0 F) : St0 F :=
  (k0_pay2 (k0_pay9 x1 s.2.2.1 s.2.2.1 s.2.2.2 s.1), k0_pay1 (k0_pay10 x1 s.2.2.1 s.2.2.1 s.2.2.2 s.1 s.1 s.2.1), s.2.2.1, s.2.2.2)

/-- The raw scores of a key block against the state's query halves. -/
def scores0 (x1 : Vec F S512x1024 .f32) (s : St0 F) : Vec F S1024x512 .f32 := k0_pay8 x1 s.2.2.1 s.2.2.1 s.2.2.2

/-- Region 0's carried state after point `n`. -/
def st0 (c : Dev nD) : (n : ℕ) → n < cfg0.N → St0 F
  | 0, hn => step0 (iblk0 V c 1 ⟨0, hn⟩) (init0 (iblk0 V c 0 ⟨0, hn⟩))
  | n + 1, hn => step0 (iblk0 V c 1 ⟨n + 1, hn⟩)
      (if (n + 1) % 16 = 0 then init0 (iblk0 V c 0 ⟨n + 1, hn⟩) else st0 c n (Nat.lt_of_succ_lt hn))

/-- The state point `n` starts from: a fresh one at a tile's first key block, else what the point before left. -/
def in0 (c : Dev nD) (n : ℕ) (hn : n < cfg0.N) : St0 F :=
  if n % 16 = 0 then init0 (iblk0 V c 0 ⟨n, hn⟩) else st0 V c (n - 1) (Nat.lt_of_le_of_lt (Nat.sub_le _ _) hn)

theorem st0_eq (c : Dev nD) (n : ℕ) (hn : n < cfg0.N) : st0 V c n hn = step0 (iblk0 V c 1 ⟨n, hn⟩) (in0 V c n hn) := by
  cases n with
  | zero => rfl
  | succ n => rfl

/-- Region 1's accumulator after point `n`. -/
def st1 (c : Dev nD) : (n : ℕ) → n < cfg1.N → Vec F S1024x1024 .f32
  | 0, hn => k1_pay3 (iblk1 V c 0 ⟨0, hn⟩) (iblk1 V c 1 ⟨0, hn⟩) k1_pay1 (iblk1 V c 2 ⟨0, hn⟩)
  | n + 1, hn => k1_pay3 (iblk1 V c 0 ⟨n + 1, hn⟩) (iblk1 V c 1 ⟨n + 1, hn⟩)
      (if (n + 1) % 8 = 0 then k1_pay1 else st1 c n (Nat.lt_of_succ_lt hn)) (iblk1 V c 2 ⟨n + 1, hn⟩)

/-- The accumulator point `n` starts from. -/
def in1 (c : Dev nD) (n : ℕ) (hn : n < cfg1.N) : Vec F S1024x1024 .f32 :=
  if n % 8 = 0 then k1_pay1 else st1 V c (n - 1) (Nat.lt_of_le_of_lt (Nat.sub_le _ _) hn)

theorem st1_eq (c : Dev nD) (n : ℕ) (hn : n < cfg1.N) :
    st1 V c n hn = k1_pay3 (iblk1 V c 0 ⟨n, hn⟩) (iblk1 V c 1 ⟨n, hn⟩) (in1 V c n hn) (iblk1 V c 2 ⟨n, hn⟩) := by
  cases n with
  | zero => rfl
  | succ n => rfl

end Cert.KernelIdeal.Hand

end
-- ==== Proof.RegionsRun.lean ====
/-
  The whole run of the two-kernel attention program, given each kernel's per-point behaviour.

  @main is: a host cast of v, the score kernel (region 0), a host copy of the raw scores into the attention
  buffer, the normalising kernel (region 1). Given, for each kernel, proof data whose arrays are the buffers as
  the region finds them, the body's behaviour at every grid point, and an invariant that starts from and returns
  to "every scoped buffer at some contents", every weakly fair execution terminates and every unscoped buffer
  ends at the contents `W4`: the launch memory, then the cast, then region 0's arrays at what its write-backs
  leave, then the copy, then region 1's arrays at what its write-backs leave.
-/
import proofs.«167355_j84250078478576_2_alg».proof.Proof.Gen.KernelIdeal.Launch
import proofs.«167355_j84250078478576_2_alg».proof.Proof.Gen.KernelIdeal.Skeleton
import proofs.«167355_j84250078478576_2_alg».proof.Proof.Gen.KernelIdeal.Points
import proofs.«167355_j84250078478576_2_alg».proof.Proof.KDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the run needs of the score kernel: proof data at any entry contents `V` whose arrays are `V`'s, full
    shares, nothing owed, the body's behaviour at every point, and an invariant that starts from and returns to
    "every scoped buffer at some contents, the generator register at some state". -/
structure Kit0 (F : FTy → Type) [FloatOps F] where
  dat : (V : Entry F) → (c : Dev nD) → Dat τ (Elt F) Unit ℕ (UR sig nD τ) ℕ cfg0 c
  hA : ∀ (V : Entry F) c w, (dat V c).A w = V c (Pipeline.arrRef spec0 w)
  hq : ∀ (V : Entry F) c w, (dat V c).q w = fullShare
  howed : ∀ (V : Entry F) c t, (dat V c).owed t = 0
  hrec : ∀ (V : Entry F) c t, (dat V c).recorded t = Set.univ
  hbody : ∀ (V : Entry F) c, BodyObligation (dat V c) (defs₀ (F := F)) Variants.none () Set.univ
  hin : ∀ (V : Entry F) c, (Pipeline.ΦA spec0 c : sProp (MT nD τ sig Unit (Elt F) ℕ (UR sig nD τ) ℕ)) ⊢ (dat V c).Φ 0
  hout : ∀ (V : Entry F) c, (dat V c).Φ (Fin.last cfg0.N) ⊢ (Pipeline.ΦA spec0 c : sProp (MT nD τ sig Unit (Elt F) ℕ (UR sig nD τ) ℕ))

/-- The same for the normalising kernel. -/
structure Kit1 (F : FTy → Type) [FloatOps F] where
  dat : (V : Entry F) → (c : Dev nD) → Dat τ (Elt F) Unit ℕ (UR sig nD τ) ℕ cfg1 c
  hA : ∀ (V : Entry F) c w, (dat V c).A w = V c (Pipeline.arrRef spec1 w)
  hq : ∀ (V : Entry F) c w, (dat V c).q w = fullShare
  howed : ∀ (V : Entry F) c t, (dat V c).owed t = 0
  hrec : ∀ (V : Entry F) c t, (dat V c).recorded t = Set.univ
  hbody : ∀ (V : Entry F) c, BodyObligation (dat V c) (defs₀ (F := F)) Variants.none () Set.univ
  hin : ∀ (V : Entry F) c, (Pipeline.ΦA spec1 c : sProp (MT nD τ sig Unit (Elt F) ℕ (UR sig nD τ) ℕ)) ⊢ (dat V c).Φ 0
  hout : ∀ (V : Entry F) c, (dat V c).Φ (Fin.last cfg1.N) ⊢ (Pipeline.ΦA spec1 c : sProp (MT nD τ sig Unit (Elt F) ℕ (UR sig nD τ) ℕ))

section Run

variable (m : (ℓ : Loc nD τ sig) → Buf (Elt F) ℓ) (ρ : Dev nD → PrngReg) (K0 : Kit0 F) (K1 : Kit1 F)

/-! ## The buffer contents at each boundary of @main -/

/-- Core `c`'s buffers at launch. -/
abbrev W0 : Dev nD → Valuation τ sig (Elt F) := fun c b => (s₀ m ρ).mem ((c : Dev nD), b)
/-- After the cast of v (region 0's entry). -/
abbrev W1 : Dev nD → Valuation τ sig (Elt F) := fun c => StableHlo.after hostOps0 (W0 m ρ c)
abbrev V1 : Entry F := fun c b => W1 m ρ c b
/-- After region 0: its arrays at what the pipeline leaves, every other buffer as entered. -/
def W2 (c : Dev nD) : Valuation τ sig (Elt F) :=
  Pipeline.withArrays spec0 c (W1 m ρ c) fun w => (K0.dat (V1 m ρ) c).arrAt w cfg0.N
theorem W2_arr (c : Dev nD) (w : Fin cfg0.W) :
    W2 m ρ K0 c (Proc.devRef .tc (Pipeline.arrRef spec0 w)) = (K0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ K0 c (Proc.devRef .tc b) = W1 m ρ c (Proc.devRef .tc b) := by
  unfold W2; exact Pipeline.withArrays_of_ne spec0 c _ _ b hb
abbrev V2 : Entry F := fun c b => W2 m ρ K0 c b
theorem hF0 (c : Dev nD) (w : Fin cfg0.W) : (K0.dat (V1 m ρ) c).arrAt w cfg0.N = V2 m ρ K0 c (Pipeline.arrRef spec0 w) :=
  (W2_arr m ρ K0 c w).symm
theorem hrest0 (c : Dev nD) : ∀ b, b ∉ Finset.univ.image (Pipeline.arrRef spec0) → V2 m ρ K0 c b = V1 m ρ c b :=
  fun b hb => W2_of_ne m ρ K0 c b fun w e => hb (Finset.mem_image.mpr ⟨w, Finset.mem_univ _, e⟩)

/-- After the copy of the raw scores (region 1's entry). -/
abbrev W3 : Dev nD → Valuation τ sig (Elt F) := fun c => StableHlo.after hostOps1 (W2 m ρ K0 c)
abbrev V3 : Entry F := fun c b => W3 m ρ K0 c b
/-- After region 1. -/
def W4 (c : Dev nD) : Valuation τ sig (Elt F) :=
  Pipeline.withArrays spec1 c (W3 m ρ K0 c) fun w => (K1.dat (V3 m ρ K0) c).arrAt w cfg1.N
theorem W4_arr (c : Dev nD) (w : Fin cfg1.W) :
    W4 m ρ K0 K1 c (Proc.devRef .tc (Pipeline.arrRef spec1 w)) = (K1.dat (V3 m ρ K0) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ K0 K1 c (Proc.devRef .tc b) = W3 m ρ K0 c (Proc.devRef .tc b) := by
  unfold W4; exact Pipeline.withArrays_of_ne spec1 c _ _ b hb
abbrev V4 : Entry F := fun c b => W4 m ρ K0 K1 c b
theorem hF1 (c : Dev nD) (w : Fin cfg1.W) : (K1.dat (V3 m ρ K0) c).arrAt w cfg1.N = V4 m ρ K0 K1 c (Pipeline.arrRef spec1 w) :=
  (W4_arr m ρ K0 K1 c w).symm
theorem hrest1 (c : Dev nD) : ∀ b, b ∉ Finset.univ.image (Pipeline.arrRef spec1) → V4 m ρ K0 K1 c b = V3 m ρ K0 c b :=
  fun b hb => W4_of_ne m ρ K0 K1 c b fun w e => hb (Finset.mem_image.mpr ⟨w, Finset.mem_univ _, e⟩)

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => K0.dat (V1 m ρ) c
  | ⟨1, _⟩ => fun c => K1.dat (V3 m ρ K0) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ K0 K1 c) ∗ ∃ r, prngReg c r)

/-! ## The regions as segments -/

set_option backward.isDefEq.respectTransparency.types false in
/-- Region 0 (the score kernel): entered from every unscoped buffer at `W1`, left at `W2`. -/
def reg0 : Pipeline.RegionSeg (pcfgs (F := F)) adm (pdats m ρ K0 K1) () defs₀ 𝒱₀ L lv 0 where
  win := launch0.win.to₀
  block_pos := launch0.block_pos
  stage_whole := launch0.stage_whole
  K := PEmpty
  osem k := k.elim
  ho := Pipeline.OwnSemFacts.none _
  hbody c := (K0.hbody (V1 m ρ) c).loose
  hwaits := Pipeline.hwaits_of_owed_zero _ _ _ _ L lv 0 fun c t => K0.howed (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ K0 c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ K0 K1) launch0.win launch0.arr_whole c
      ((pdats m ρ K0 K1 0 c).share_full fun w => K0.hq (V1 m ρ) c w) (V1 m ρ c) fun w => K0.hA (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ K0 K1 0 c).owed 0 = 0 from K0.howed (V1 m ρ) c 0]
      icases HO with ⟨%W, HO⟩; iexists W; isplitr
      · ipureintro; exact fun x _ => Or.inl (by rw [show (pdats m ρ K0 K1 0 c).recorded 0 = Set.univ from K0.hrec (V1 m ρ) c 0]; exact Set.mem_univ x)
      iexact HO
    isplitl [Hp]; · iexact Hp
    iexact Hrest
  hin c := by
    rw [show (pdats m ρ K0 K1 0 c).Φ 0 = (K0.dat (V1 m ρ) c).Φ 0 from rfl]
    have h1 := K0.hin (V1 m ρ) c
    iintro ⟨Hp, -, Hr⟩
    iapply h1
    iapply (show (iprop(Pipeline.scopedRest spec0 c ∗ ∃ r, prngReg c r) : sProp 𝕄) ⊢ Pipeline.ΦA spec0 c from by unfold Pipeline.ΦA; exact .rfl)
    isplitl [Hr]; · iexact Hr
    iexact Hp
  hout c := by
    rw [Pipeline.ownSems0_none, show (pdats m ρ K0 K1 0 c).Φ (Fin.last (Pipeline.pin (pcfgs (F := F)) adm 0).N) = (K0.dat (V1 m ρ) c).Φ (Fin.last cfg0.N) from rfl]
    have h2 := K0.hout (V1 m ρ) c
    have h3 : (Pipeline.ΦA spec0 c : sProp 𝕄) ⊢ iprop(Pipeline.scopedRest spec0 c ∗ ∃ r, prngReg c r) := by unfold Pipeline.ΦA; exact .rfl
    iintro H
    ihave H2 := h2 $$ H
    ihave H3 := h3 $$ H2
    icases H3 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ K0 K1) ((pdats m ρ K0 K1 0 c).share_full fun w => K0.hq (V1 m ρ) c w)
      (V1 m ρ c) (V2 m ρ K0 c) ((pdats m ρ K0 K1 0 c).arrAt · cfg0.N) (hF0 m ρ K0 c) (hrest0 m ρ K0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ K0 K1 0 c).owed (Fin.last (Pipeline.pin (pcfgs (F := F)) adm 0).N) = 0 from K0.howed (V1 m ρ) c _]
    icases HO with ⟨%W, -, HO⟩; iexists W; iexact HO

set_option backward.isDefEq.respectTransparency.types false in
/-- Region 1 (the normalising kernel): entered from every unscoped buffer at `W3`, left at `W4`. -/
def reg1 : Pipeline.RegionSeg (pcfgs (F := F)) adm (pdats m ρ K0 K1) () defs₀ 𝒱₀ L lv 1 where
  win := launch1.win.to₀
  block_pos := launch1.block_pos
  stage_whole := launch1.stage_whole
  K := PEmpty
  osem k := k.elim
  ho := Pipeline.OwnSemFacts.none _
  hbody c := (K1.hbody (V3 m ρ K0) c).loose
  hwaits := Pipeline.hwaits_of_owed_zero _ _ _ _ L lv 1 fun c t => K1.howed (V3 m ρ K0) c t
  pre c := iprop(StableHlo.held (c : Thread nD τ) (Pipeline.ucRefs τ sig) (W3 m ρ K0 c) ∗ R c)
  post c := iprop(Tₙ m ρ K0 K1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ K0 c)
  hentry c := by
    rw [Pipeline.ownSems0_none]
    have hsplit := Pipeline.arrays_of_unscopedBufs (p := 1) (pcfgs (F := F)) adm (pdats m ρ K0 K1) launch1.win launch1.arr_whole c
      ((pdats m ρ K0 K1 1 c).share_full fun w => K1.hq (V3 m ρ K0) c w) (V3 m ρ K0 c) fun w => K1.hA (V3 m ρ K0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ K0 K1 1 c).owed 0 = 0 from K1.howed (V3 m ρ K0) c 0]
      icases HO with ⟨%W, HO⟩; iexists W; isplitr
      · ipureintro; exact fun x _ => Or.inl (by rw [show (pdats m ρ K0 K1 1 c).recorded 0 = Set.univ from K1.hrec (V3 m ρ K0) c 0]; exact Set.mem_univ x)
      iexact HO
    isplitl [Hp]; · iexact Hp
    iexact Hrest
  hin c := by
    rw [show (pdats m ρ K0 K1 1 c).Φ 0 = (K1.dat (V3 m ρ K0) c).Φ 0 from rfl]
    have h1 := K1.hin (V3 m ρ K0) c
    iintro ⟨Hp, -, Hr⟩
    iapply h1
    iapply (show (iprop(Pipeline.scopedRest spec1 c ∗ ∃ r, prngReg c r) : sProp 𝕄) ⊢ Pipeline.ΦA spec1 c from by unfold Pipeline.ΦA; exact .rfl)
    isplitl [Hr]; · iexact Hr
    iexact Hp
  hout c := by
    rw [Pipeline.ownSems0_none, show (pdats m ρ K0 K1 1 c).Φ (Fin.last (Pipeline.pin (pcfgs (F := F)) adm 1).N) = (K1.dat (V3 m ρ K0) c).Φ (Fin.last cfg1.N) from rfl]
    have h2 := K1.hout (V3 m ρ K0) c
    have h3 : (Pipeline.ΦA spec1 c : sProp 𝕄) ⊢ iprop(Pipeline.scopedRest spec1 c ∗ ∃ r, prngReg c r) := by unfold Pipeline.ΦA; exact .rfl
    iintro H
    ihave H2 := h2 $$ H
    ihave H3 := h3 $$ H2
    icases H3 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ K0 K1) ((pdats m ρ K0 K1 1 c).share_full fun w => K1.hq (V3 m ρ K0) c w)
      (V3 m ρ K0 c) (V4 m ρ K0 K1 c) ((pdats m ρ K0 K1 1 c).arrAt · cfg1.N) (hF1 m ρ K0 K1 c) (hrest1 m ρ K0 K1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m ρ K0 K1 1 c).owed (Fin.last (Pipeline.pin (pcfgs (F := F)) adm 1).N) = 0 from K1.howed (V3 m ρ K0) c _]
    icases HO with ⟨%W, -, HO⟩; iexists W; iexact HO

/-! ## @main as segments, and the launch -/

abbrev segs : List (Pipeline.Seg (pcfgs (F := F)) adm (pdats m ρ K0 K1) () defs₀ 𝒱₀ L lv) :=
  [ .host (hseg hostOps0 hostOps0_sub hostOps0_fresh (W0 m ρ)),
    .region (reg0 m ρ K0 K1),
    .host (hseg hostOps1 hostOps1_sub hostOps1_fresh (W2 m ρ K0)),
    .region (reg1 m ρ K0 K1) ]

theorem main_run (c : Dev nD) : main (F := F) c = Pipeline.Seg.run (segs m ρ K0 K1) :=
  (main_chain c).trans (by chain_rfl)

set_option backward.isDefEq.respectTransparency.types false in
/-- THE RUN: from any memory with zero counters every weakly fair execution of @main terminates, nothing faulting,
    with every unscoped buffer of every core at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ K0 K1 c b) :=
  Pipeline.θ_run_regions_kit (pcfgs (F := F)) adm (pdats m ρ K0 K1) () cellOf_inj emb₁ defs₀ 𝒱₀ L lv m ρ main
    (segs m ρ K0 K1)
    (fun c Q => by rw [main_run m ρ K0 K1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ K0 K1)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ K0 K1 c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ K0 K1 c) s')
      isplitl [Hh] <;> iassumption)
    (hQ := fun s h => h)

end Run

end Cert.KernelIdeal.Hand

end
-- ==== Proof.ValEntry.lean ====
/-
  The buffers at the boundaries of @main, read back to the launch memory and to what each kernel's write-backs leave.

  No host operation and no region writes an argument, so the arguments end as launched. The score kernel finds q and
  k as launched; the normalising kernel finds the raw scores and the row statistics as the score kernel's write-backs
  left them, and v cast to bf16. The two results are what the normalising kernel's write-backs leave.
-/
import proofs.«167355_j84250078478576_2_alg».proof.Proof.RegionsRun
import proofs.«167355_j84250078478576_2_alg».proof.Proof.Gen.KernelIdeal.Regions
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg) (K0 : Kit0 F) (K1 : Kit1 F)

/-! ## Through the host stretches -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

theorem W3_of (c : Dev nD) (r : Ref sig .tc) (h : r ∉ hostOps1_W) : W3 m ρ K0 c (Proc.devRef .tc r) = W2 m ρ K0 c (Proc.devRef .tc r) :=
  StableHlo.after_of_writes_sub hostOps1 _ hostOps1_writes h

/-! ## What the score kernel finds -/

theorem V1_arg0 (c : Dev nD) : V1 m ρ c main_arg0 = m ((c : Thread nD τ).loc main_arg0) := W1_of m ρ c main_arg0 (by decide)
theorem V1_arg1 (c : Dev nD) : V1 m ρ c main_arg1 = m ((c : Thread nD τ).loc main_arg1) := W1_of m ρ c main_arg1 (by decide)
theorem V1_arg2 (c : Dev nD) : V1 m ρ c main_arg2 = m ((c : Thread nD τ).loc main_arg2) := W1_of m ρ c main_arg2 (by decide)
/-- The cast of v. -/
theorem V1_v0 (c : Dev nD) : V1 m ρ c main_v0 = truncf .bf16 (m ((c : Thread nD τ).loc main_arg2)) Facts₀.bitsLt_bf16_f32 := by
  show StableHlo.after hostOps0 (W0 m ρ c) (Proc.devRef .tc main_v0) = _
  after_results

/-! ## What the normalising kernel finds -/

/-- The raw scores, as the score kernel's write-backs left them. -/
theorem V3_scores (c : Dev nD) : V3 m ρ K0 c main_v1_0 = (K0.dat (V1 m ρ) c).arrAt 2 cfg0.N :=
  (W3_of m ρ K0 c main_v1_0 (by decide)).trans (W2_arr m ρ K0 c 2)
/-- The row statistics. -/
theorem V3_lse (c : Dev nD) : V3 m ρ K0 c main_v1_1 = (K0.dat (V1 m ρ) c).arrAt 3 cfg0.N :=
  (W3_of m ρ K0 c main_v1_1 (by decide)).trans (W2_arr m ρ K0 c 3)
/-- The cast of v, untouched by the score kernel. -/
theorem V3_v0 (c : Dev nD) : V3 m ρ K0 c main_v0 = truncf .bf16 (m ((c : Thread nD τ).loc main_arg2)) Facts₀.bitsLt_bf16_f32 :=
  (W3_of m ρ K0 c main_v0 (by decide)).trans ((W2_of_ne m ρ K0 c main_v0 (by decide)).trans (V1_v0 m ρ c))

/-! ## The end -/

theorem W4_ctx (c : Dev nD) : W4 m ρ K0 K1 c (Proc.devRef .tc main_v2_0) = (K1.dat (V3 m ρ K0) c).arrAt 3 cfg1.N := W4_arr m ρ K0 K1 c 3
theorem W4_attn (c : Dev nD) : W4 m ρ K0 K1 c (Proc.devRef .tc main_v2_1) = (K1.dat (V3 m ρ K0) c).arrAt 4 cfg1.N := W4_arr m ρ K0 K1 c 4

theorem W4_arg0 (c : Dev nD) : W4 m ρ K0 K1 c (Proc.devRef .tc main_arg0) = m ((c : Thread nD τ).loc main_arg0) :=
  calc W4 m ρ K0 K1 c (Proc.devRef .tc main_arg0)
    _ = W3 m ρ K0 c (Proc.devRef .tc main_arg0) := W4_of_ne m ρ K0 K1 c main_arg0 (by decide)
    _ = W2 m ρ K0 c (Proc.devRef .tc main_arg0) := W3_of m ρ K0 c main_arg0 (by decide)
    _ = W1 m ρ c (Proc.devRef .tc main_arg0) := (W2_arr m ρ K0 c 0).trans (((K0.dat (V1 m ρ) c).arrAt_in 0 rfl _).trans (K0.hA (V1 m ρ) c 0))
    _ = m ((c : Thread nD τ).loc main_arg0) := V1_arg0 m ρ c

theorem W4_arg1 (c : Dev nD) : W4 m ρ K0 K1 c (Proc.devRef .tc main_arg1) = m ((c : Thread nD τ).loc main_arg1) :=
  calc W4 m ρ K0 K1 c (Proc.devRef .tc main_arg1)
    _ = W3 m ρ K0 c (Proc.devRef .tc main_arg1) := W4_of_ne m ρ K0 K1 c main_arg1 (by decide)
    _ = W2 m ρ K0 c (Proc.devRef .tc main_arg1) := W3_of m ρ K0 c main_arg1 (by decide)
    _ = W1 m ρ c (Proc.devRef .tc main_arg1) := (W2_arr m ρ K0 c 1).trans (((K0.dat (V1 m ρ) c).arrAt_in 1 rfl _).trans (K0.hA (V1 m ρ) c 1))
    _ = m ((c : Thread nD τ).loc main_arg1) := V1_arg1 m ρ c

theorem W4_arg2 (c : Dev nD) : W4 m ρ K0 K1 c (Proc.devRef .tc main_arg2) = m ((c : Thread nD τ).loc main_arg2) :=
  calc W4 m ρ K0 K1 c (Proc.devRef .tc main_arg2)
    _ = W3 m ρ K0 c (Proc.devRef .tc main_arg2) := W4_of_ne m ρ K0 K1 c main_arg2 (by decide)
    _ = W2 m ρ K0 c (Proc.devRef .tc main_arg2) := W3_of m ρ K0 c main_arg2 (by decide)
    _ = W1 m ρ c (Proc.devRef .tc main_arg2) := W2_of_ne m ρ K0 c main_arg2 (by decide)
    _ = m ((c : Thread nD τ).loc main_arg2) := V1_arg2 m ρ c

/-- THE RUN, READ: the two results at what the normalising kernel's write-backs leave, the arguments as launched. -/
theorem run_read : θ_run defs (onTc (τ := τ) (main (F := F))) ⟨m, fun _ => 0, ρ⟩ (fun r => ∀ c : Dev nD,
      r.2.mem ((c.tc : Thread nD τ).loc main_v2_0) = (K1.dat (V3 m ρ K0) c).arrAt 3 cfg1.N
      ∧ r.2.mem ((c.tc : Thread nD τ).loc main_v2_1) = (K1.dat (V3 m ρ K0) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v2_0 (by decide))).trans (W4_ctx m ρ K0 K1 c),
     (h c _ (mem_uc main_v2_1 (by decide))).trans (W4_attn m ρ K0 K1 c),
     (h c _ (mem_uc main_arg0 (by decide))).trans (W4_arg0 m ρ K0 K1 c),
     (h c _ (mem_uc main_arg1 (by decide))).trans (W4_arg1 m ρ K0 K1 c),
     (h c _ (mem_uc main_arg2 (by decide))).trans (W4_arg2 m ρ K0 K1 c)⟩)
    (run_all m ρ K0 K1)

end Cert.KernelIdeal.Hand

end
-- ==== Proof.KitsV.lean ====
/-
  The kernels' kits with what their outputs hold named: beside what the run needs, what each output window's
  staging buffer holds after the body at a point, in terms of the blocks the point reads and the carried state.
-/
import proofs.«167355_j84250078478576_2_alg».proof.Proof.RegionsRun

noncomputable section

namespace Cert.KernelIdeal.Hand

open Cert.KernelIdeal Cert.KernelIdeal.Gen
open Idealize.ShloMosaic Idealize.ShloMosaic.TcCoe Idealize.SL.Sem

/-- The score kernel: the score block is the key block against the point's query halves; the statistics block
    (consulted only at a tile's last key block) is maximum + log sum of the state after the point. -/
structure Kit0V (F : FTy → Type) [FloatOps F] extends Kit0 F where
  after2 : ∀ (V : Entry F) c (t : Fin cfg0.N), (dat V c).after 2 t = scores0 (iblk0 V c 1 t) (in0 V c t.val t.isLt)
  after3 : ∀ (V : Entry F) c (t : Fin cfg0.N), (dat V c).after 3 t = k0_pay3 (st0 V c t.val t.isLt).1 (st0 V c t.val t.isLt).2.1

/-- The normalising kernel: the attention block is exp (score − statistic); the context block (consulted only at a
    tile's last key block) is the accumulator after the point. -/
structure Kit1V (F : FTy → Type) [FloatOps F] extends Kit1 F where
  after3 : ∀ (V : Entry F) c (t : Fin cfg1.N), (dat V c).after 3 t = st1 V c t.val t.isLt
  after4 : ∀ (V : Entry F) c (t : Fin cfg1.N), (dat V c).after 4 t = k1_pay2 (iblk1 V c 0 t) (iblk1 V c 1 t)

end Cert.KernelIdeal.Hand

end
-- ==== Proof.BlockReads.lean ====
/-
  Where each window's block sits.

  The score kernel visits t = 16·i + j: the query tile is rows 1024·i … of q, the key block rows 512·j … of k,
  the score block is rows 1024·i …, columns 512·j … of the score matrix, the statistics block rows 1024·i … of
  the column of statistics. The normalising kernel visits t = 8·i + j with 1024 × 1024 blocks at (i, j) of the
  score and attention matrices, rows 1024·i … of the statistics and of the context, rows 1024·j … of v.
  An element of a block sits at block index × block size + its coordinate inside the block.
-/
import proofs.«167355_j84250078478576_2_alg».proof.Proof.KDefs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable {F : FTy → Type} [FloatOps F]

/-! ## The index maps, decided over the grids -/

theorem idx0 : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = t.val % 16
    ∧ win0_3.index t (0 : Fin 2) = t.val / 16 ∧ win0_3.index t (1 : Fin 2) = 0 :=
  (by decide +kernel : ∀ t : Fin grid0.N, _)

theorem idx1 : ∀ t : Fin cfg1.N,
    win1_0.index t (0 : Fin 2) = t.val / 8 ∧ win1_0.index t (1 : Fin 2) = t.val % 8
    ∧ win1_1.index t (0 : Fin 2) = t.val / 8 ∧ win1_1.index t (1 : Fin 2) = 0
    ∧ win1_2.index t (0 : Fin 2) = t.val % 8 ∧ win1_2.index t (1 : Fin 2) = 0
    ∧ win1_3.index t (0 : Fin 2) = t.val / 8 ∧ win1_3.index t (1 : Fin 2) = 0
    ∧ win1_4.index t (0 : Fin 2) = t.val / 8 ∧ win1_4.index t (1 : Fin 2) = t.val % 8 :=
  (by decide +kernel : ∀ t : Fin grid1.N, _)

variable (V : Entry F)

/-! ## The input blocks read at coordinates -/

/-- The query tile at point t: rows 1024·(t/16) … of q. -/
theorem iblk0_q (c : Dev nD) (t : Fin cfg0.N) (y : S1024x1024.Idx) (i : S8192x1024.Idx)
    (h0 : (i 0).val = t.val / 16 * 1024 + (y 0).val) (h1 : (i 1).val = (y 1).val) :
    iblk0 V c 0 t y = V c main_arg0 i := by
  obtain ⟨e0, e1, -⟩ := idx0 t
  show V c main_arg0 (((cfg0.win 0).blk t).view.emb y) = V c main_arg0 i
  refine congrArg _ (funext fun a => Fin.ext ?_)
  match a with
  | ⟨0, _⟩ => show win0_0.index t (0 : Fin 2) * 1024 + 1 * (y 0).val = (i 0).val; omega
  | ⟨1, _⟩ => show win0_0.index t (1 : Fin 2) * 1024 + 1 * (y 1).val = (i 1).val; omega

/-- The key block at point t: rows 512·(t%16) … of k. -/
theorem iblk0_k (c : Dev nD) (t : Fin cfg0.N) (y : S512x1024.Idx) (i : S8192x1024.Idx)
    (h0 : (i 0).val = t.val % 16 * 512 + (y 0).val) (h1 : (i 1).val = (y 1).val) :
    iblk0 V c 1 t y = V c main_arg1 i := by
  obtain ⟨-, -, e0, e1, -⟩ := idx0 t
  show V c main_arg1 (((cfg0.win 1).blk t).view.emb y) = V c main_arg1 i
  refine congrArg _ (funext fun a => Fin.ext ?_)
  match a with
  | ⟨0, _⟩ => show win0_1.index t (0 : Fin 2) * 512 + 1 * (y 0).val = (i 0).val; omega
  | ⟨1, _⟩ => show win0_1.index t (1 : Fin 2) * 1024 + 1 * (y 1).val = (i 1).val; omega

/-- The score block at point t of the normalising kernel: rows 1024·(t/8) …, columns 1024·(t%8) …. -/
theorem iblk1_s (c : Dev nD) (t : Fin cfg1.N) (y : S1024x1024.Idx) (i : S8192x8192.Idx)
    (h0 : (i 0).val = t.val / 8 * 1024 + (y 0).val) (h1 : (i 1).val = t.val % 8 * 1024 + (y 1).val) :
    iblk1 V c 0 t y = V c main_v1_0 i := by
  obtain ⟨e0, e1, -⟩ := idx1 t
  show V c main_v1_0 (((cfg1.win 0).blk t).view.emb y) = V c main_v1_0 i
  refine congrArg _ (funext fun a => Fin.ext ?_)
  match a with
  | ⟨0, _⟩ => show win1_0.index t (0 : Fin 2) * 1024 + 1 * (y 0).val = (i 0).val; omega
  | ⟨1, _⟩ => show win1_0.index t (1 : Fin 2) * 1024 + 1 * (y 1).val = (i 1).val; omega

/-- The statistics block: rows 1024·(t/8) …. -/
theorem iblk1_lse (c : Dev nD) (t : Fin cfg1.N) (y : S1024x1.Idx) (i : S8192x1.Idx)
    (h0 : (i 0).val = t.val / 8 * 1024 + (y 0).val) (h1 : (i 1).val = (y 1).val) :
    iblk1 V c 1 t y = V c main_v1_1 i := by
  obtain ⟨-, -, e0, e1, -⟩ := idx1 t
  show V c main_v1_1 (((cfg1.win 1).blk t).view.emb y) = V c main_v1_1 i
  refine congrArg _ (funext fun a => Fin.ext ?_)
  match a with
  | ⟨0, _⟩ => show win1_1.index t (0 : Fin 2) * 1024 + 1 * (y 0).val = (i 0).val; omega
  | ⟨1, _⟩ => show win1_1.index t (1 : Fin 2) * 1 + 1 * (y 1).val = (i 1).val; omega

/-- The value block: rows 1024·(t%8) … of the cast of v. -/
theorem iblk1_v (c : Dev nD) (t : Fin cfg1.N) (y : S1024x1024.Idx) (i : S8192x1024.Idx)
    (h0 : (i 0).val = t.val % 8 * 1024 + (y 0).val) (h1 : (i 1).val = (y 1).val) :
    iblk1 V c 2 t y = V c main_v0 i := by
  obtain ⟨-, -, -, -, e0, e1, -⟩ := idx1 t
  show V c main_v0 (((cfg1.win 2).blk t).view.emb y) = V c main_v0 i
  refine congrArg _ (funext fun a => Fin.ext ?_)
  match a with
  | ⟨0, _⟩ => show win1_2.index t (0 : Fin 2) * 1024 + 1 * (y 0).val = (i 0).val; omega
  | ⟨1, _⟩ => show win1_2.index t (1 : Fin 2) * 1024 + 1 * (y 1).val = (i 1).val; omega

/-! ## The output blocks: membership and covers -/

theorem mem_blk0_2 (t : Fin cfg0.N) (i : S8192x8192.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v1_0).slice (win0_2.rect t)).set ↔ _
  rw [View.set_slice_whole, Rect.mem_set_unit]
  exact Iff.rfl

theorem mem_blk0_3 (t : Fin cfg0.N) (i : S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v1_1).slice (win0_3.rect t)).set ↔ _
  rw [View.set_slice_whole, Rect.mem_set_unit]
  exact Iff.rfl

theorem mem_blk1_3 (t : Fin cfg1.N) (i : S8192x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v2_0).slice (win1_3.rect t)).set ↔ _
  rw [View.set_slice_whole, Rect.mem_set_unit]
  exact Iff.rfl

theorem mem_blk1_4 (t : Fin cfg1.N) (i : S8192x8192.Idx) :
    i ∈ ((cfg1.win 4).blk t).view.set ↔ ∀ a : Fin 2, win1_4.index t a * S1024x1024.size a ≤ (i a).val ∧ (i a).val < win1_4.index t a * S1024x1024.size a + S1024x1024.size a := by
  show i ∈ ((View.whole main_v2_1).slice (win1_4.rect t)).set ↔ _
  rw [View.set_slice_whole, Rect.mem_set_unit]
  exact Iff.rfl

/-- Every entry of the score matrix is in the block of the point (row tile, key block) that holds it. -/
theorem cover0_2 (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  have hN : cfg0.N = 128 := N_0
  refine ⟨⟨(i 0).val / 1024 * 16 + (i 1).val / 512, by omega⟩, flush0_2 _, ?_⟩
  rw [mem_blk0_2]
  obtain ⟨-, -, -, -, e0, e1, -⟩ := idx0 ⟨(i 0).val / 1024 * 16 + (i 1).val / 512, by omega⟩
  intro a
  match a with
  | ⟨0, _⟩ => show win0_2.index _ (0 : Fin 2) * 1024 ≤ (i 0).val ∧ (i 0).val < win0_2.index _ (0 : Fin 2) * 1024 + 1024; simp only at e0; omega
  | ⟨1, _⟩ => show win0_2.index _ (1 : Fin 2) * 512 ≤ (i 1).val ∧ (i 1).val < win0_2.index _ (1 : Fin 2) * 512 + 512; simp only at e1; omega

/-- Every row's statistic is in the block written back at its tile's last key block. -/
theorem cover0_3 (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  have hN : cfg0.N = 128 := N_0
  refine ⟨⟨(i 0).val / 1024 * 16 + 15, by omega⟩, (flush0_3 _).mpr (by show ((i 0).val / 1024 * 16 + 15) % 16 = 15; omega), ?_⟩
  rw [mem_blk0_3]
  obtain ⟨-, -, -, -, -, -, e0, e1⟩ := idx0 ⟨(i 0).val / 1024 * 16 + 15, by omega⟩
  intro a
  match a with
  | ⟨0, _⟩ => show win0_3.index _ (0 : Fin 2) * 1024 ≤ (i 0).val ∧ (i 0).val < win0_3.index _ (0 : Fin 2) * 1024 + 1024; simp only at e0; omega
  | ⟨1, _⟩ => show win0_3.index _ (1 : Fin 2) * 1 ≤ (i 1).val ∧ (i 1).val < win0_3.index _ (1 : Fin 2) * 1 + 1; simp only at e1; omega

theorem cover1_4 (i : S8192x8192.Idx) : ∃ t : Fin cfg1.N, (cfg1.win 4).flush t = true ∧ i ∈ ((cfg1.win 4).blk t).view.set := by
  have hi0 : (i 0).val < 8192 := (i 0).isLt
  have hi1 : (i 1).val < 8192 := (i 1).isLt
  have hN : cfg1.N = 64 := N_1
  refine ⟨⟨(i 0).val / 1024 * 8 + (i 1).val / 1024, by omega⟩, flush1_4 _, ?_⟩
  rw [mem_blk1_4]
  obtain ⟨-, -, -, -, -, -, -, -, e0, e1⟩ := idx1 ⟨(i 0).val / 1024 * 8 + (i 1).val / 1024, by omega⟩
  intro a
  match a with
  | ⟨0, _⟩ => show win1_4.index _ (0 : Fin 2) * 1024 ≤ (i 0).val ∧ (i 0).val < win1_4.index _ (0 : Fin 2) * 1024 + 1024; simp only at e0; omega
  | ⟨1, _⟩ => show win1_4.index _ (1 : Fin 2) * 1024 ≤ (i 1).val ∧ (i 1).val < win1_4.index _ (1 : Fin 2) * 1024 + 1024; simp only at e1; omega

theorem cover1_3 (i : S8192x1024.Idx) : ∃ t : Fin cfg1.N, (cfg1.win 3).flush t = true ∧ i ∈ ((cfg1.win 3).blk t).view.set := by
  have hi0 : (i 0).val < 8192 := (i 0).isLt
  have hi1 : (i 1).val < 1024 := (i 1).isLt
  have hN : cfg1.N = 64 := N_1
  refine ⟨⟨(i 0).val / 1024 * 8 + 7, by omega⟩, (flush1_3 _).mpr (by show ((i 0).val / 1024 * 8 + 7) % 8 = 7; omega), ?_⟩
  rw [mem_blk1_3]
  obtain ⟨-, -, -, -, -, -, e0, e1, -⟩ := idx1 ⟨(i 0).val / 1024 * 8 + 7, by omega⟩
  intro a
  match a with
  | ⟨0, _⟩ => show win1_3.index _ (0 : Fin 2) * 1024 ≤ (i 0).val ∧ (i 0).val < win1_3.index _ (0 : Fin 2) * 1024 + 1024; simp only at e0; omega
  | ⟨1, _⟩ => show win1_3.index _ (1 : Fin 2) * 1024 ≤ (i 1).val ∧ (i 1).val < win1_3.index _ (1 : Fin 2) * 1024 + 1024; simp only at e1; omega

end Cert.KernelIdeal.Hand

end
-- ==== Proof.AttnSpec.lean ====
/-
  Dense attention over the reals, as one specification both programs are read against.

  For query rows q[r, ·], key rows k[j, ·] and value rows v[j, ·] the score is the inner product
  s(r, j) = Σ_d q[r, d] · k[j, d]; a row's weights are the softmax of its scores, written with the row's
  maximum M(r) = max_j s(r, j) subtracted, exp(s(r, j) − M(r)) / Σ_j' exp(s(r, j') − M(r)); and the context
  row is the weighted sum of the value rows, Σ_j weight(r, j) · v[j, e].

  Arrays of extended reals whose entries are finite are read through their real parts (`re`), and the
  results are stated as arrays of extended reals that are coercions of these reals (`attnArr`, `ctxArr`).
-/
import Mathlib
import Idealize.ShloMosaic.Lib.ValueIdx

noncomputable section

namespace Cert.Attn

open Idealize.ShloMosaic

/-- The score of query row `r` against key row `j`: their inner product over the 1024 features. -/
def score (q k : Fin 8192 → Fin 1024 → ℝ) (r j : Fin 8192) : ℝ := ∑ d : Fin 1024, q r d * k j d

/-- The largest score of query row `r`. -/
def rowMax (q k : Fin 8192 → Fin 1024 → ℝ) (r : Fin 8192) : ℝ :=
  Finset.univ.sup' Finset.univ_nonempty (fun j : Fin 8192 => score q k r j)

/-- The softmax denominator of query row `r`: the sum of the shifted exponentials, at least 1. -/
def rowSum (q k : Fin 8192 → Fin 1024 → ℝ) (r : Fin 8192) : ℝ :=
  ∑ j : Fin 8192, Real.exp (score q k r j - rowMax q k r)

/-- The attention weight of key `j` for query `r`. -/
def attn (q k : Fin 8192 → Fin 1024 → ℝ) (r j : Fin 8192) : ℝ :=
  Real.exp (score q k r j - rowMax q k r) / rowSum q k r

/-- The context: each query's weighted sum of the value rows. -/
def ctx (q k v : Fin 8192 → Fin 1024 → ℝ) (r : Fin 8192) (e : Fin 1024) : ℝ :=
  ∑ j : Fin 8192, attn q k r j * v j e

/-- The real parts of an [a, b] array of extended reals. -/
def re {a b : ℕ} (x : (⟨2, ![a, b]⟩ : Shape).Idx → EReal) (r : Fin a) (d : Fin b) : ℝ :=
  (x (ValueIdx.ix2 r d)).toReal

/-- The attention matrix as an [8192, 8192] array of extended reals. -/
def attnArr (q k : (⟨2, ![8192, 1024]⟩ : Shape).Idx → EReal) : (⟨2, ![8192, 8192]⟩ : Shape).Idx → EReal :=
  fun i => ((attn (re q) (re k) (i 0) (i 1) : ℝ) : EReal)

/-- The context as an [8192, 1024] array of extended reals. -/
def ctxArr (q k v : (⟨2, ![8192, 1024]⟩ : Shape).Idx → EReal) : (⟨2, ![8192, 1024]⟩ : Shape).Idx → EReal :=
  fun i => ((ctx (re q) (re k) (re v) (i 0) (i 1) : ℝ) : EReal)

/-- Every entry of an array of extended reals is a real number. -/
def Finite {s : Shape} (x : s.Idx → EReal) : Prop := ∀ i, ∃ y : ℝ, x i = (y : EReal)

theorem Finite.eq_re {a b : ℕ} {x : (⟨2, ![a, b]⟩ : Shape).Idx → EReal} (h : Finite x) (r : Fin a) (d : Fin b) :
    x (ValueIdx.ix2 r d) = ((re x r d : ℝ) : EReal) := by
  obtain ⟨y, hy⟩ := h (ValueIdx.ix2 r d)
  unfold re; rw [hy]; rfl

end Cert.Attn

end
-- ==== Proof.LibDotNT.lean ====
/-
  A product of an M×K matrix with the TRANSPOSE of an N×K matrix, read at an entry.

  With the contraction taken over the last axis of both operands, entry (p, q) of the result is the sum over k of
  l (p, k) · r (q, k). Over the extended reals, with exact operations, this holds of the matrix unit's product into a
  zero accumulator and of the host's general dot product alike, for all extents M, K, N: there is no rounding and no
  order of summation left in either.
-/
import Idealize.ShloMosaic.PureOps.Ideal.Laws
import Idealize.ShloMosaic.Lib.ValueIdx

open scoped BigOperators

noncomputable section

namespace Cert.Lib.DotNT

open Idealize.ShloMosaic Idealize.ShloMosaic.ValueIdx

variable {M K N : Nat}

/-- The left operand is read at the result's row … -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- … and at the contraction position; -/
theorem lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- the right operand at the result's column, as ITS row, … -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- … and at the contraction position. -/
theorem rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- The sum over the one-axis contraction shape, as a sum over `Fin K` of the operands at (p, k) and (q, k). -/
theorem sum_contr {φ₁ φ₂ : FTy} (l : FVec Ideal (⟨2, ![M, K]⟩ : Shape) φ₁) (r : FVec Ideal (⟨2, ![N, K]⟩ : Shape) φ₂)
    (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

/-- The matrix unit's product into a zero accumulator, at entry (p, q). -/
theorem matmul_zero_apply {φ₁ φ₂ : FTy} (prec : Option ContractPrecision)
    (l : FVec Ideal (⟨2, ![M, K]⟩ : Shape) φ₁) (r : FVec Ideal (⟨2, ![N, K]⟩ : Shape) φ₂) (p : Fin M) (q : Fin N) :
    FloatOps.matmul (DotDims.transposedRhs M K N) prec l r (constant (⟨2, ![M, N]⟩ : Shape) .f32 0x00000000#32) (ix2 p q)
      = ∑ k : Fin K, l (ix2 p k) * r (ix2 q k) :=
  (Ideal.matmul_constant_zero_apply _ prec l r (ix2 p q)).trans (sum_contr l r p q)

/-- The host's general dot product, at entry (p, q). -/
theorem dotGeneral_apply {φ₁ φ₂ : FTy} (prec : Option ContractPrecision) (sched : HostSchedule)
    (l : FVec Ideal (⟨2, ![M, K]⟩ : Shape) φ₁) (r : FVec Ideal (⟨2, ![N, K]⟩ : Shape) φ₂) (p : Fin M) (q : Fin N) :
    FloatOps.dotGeneral (DotDims.transposedRhs M K N) prec sched l r (ix2 p q) = ∑ k : Fin K, l (ix2 p k) * r (ix2 q k) :=
  (Ideal.dotGeneral_apply _ prec sched l r (ix2 p q)).trans (sum_contr l r p q)

end Cert.Lib.DotNT

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.LibRowReads.lean ====
/-
  Reductions along the LAST axis of a matrix, read at an index given by coordinates, over arbitrary extents and at the
  ideal values; and one layout read:
  • a `[1, 1, a]` array cast to `[a]`;
  • a `vector.multi_reduction` over axis 1 of an `[a, b]` matrix, at row `p`: for `add` the sum along the row, for
    `maximumf` the fold of `max` along the row from the accumulator's value.
  The column forms (axis 0) are in LibColumnReads; these are the row forms.
-/
import Idealize.ShloMosaic.Lib.ValueIdx
import Idealize.ShloMosaic.Lib.ValueLayout
import Idealize.ShloMosaic.Lib.Pipeline.Value
import Idealize.ShloMosaic.PureOps.Ideal.Laws

namespace Cert.LibRowReads

open Idealize.ShloMosaic Idealize.ShloMosaic.ValueIdx

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

/-- Row `p` of an `[a, b]` matrix with column `k` put back is `(p, k)`. -/
theorem lift_row {a b : ℕ} (h : (⟨2, ![a, b]⟩ : Shape).Reduces [1] (⟨1, ![a]⟩ : Shape)) (p : Fin a) (k : Fin b) :
    h.lift (ix1 p) k = ix2 p k := by
  funext c; apply Fin.ext
  fin_cases c <;> rfl

/-- A float sum along the rows' entries of an `[a, b]` matrix, at row `p`, is the sum of that row. -/
theorem rowSum_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction (F := Ideal) .add [1] ⟨1, ![a]⟩ v acc h hφ hacc (ix1 p) = ∑ k : Fin b, v (ix2 p k) := by
  rw [Ideal.multiReduction_add_single]
  exact Finset.sum_congr rfl fun k _ => congrArg v (lift_row h p k)

/-- A float maximum along a row of an `[a, b]` matrix, at row `p`, is the fold of `max` along that row from the
    accumulator's value. -/
theorem rowMax_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction (F := Ideal) .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (fun f => Finset.fold max (Ideal.ofBits φ acc) f (Finset.univ : Finset (Fin b)))
    (funext fun k => congrArg v (lift_row h p k))

end Cert.LibRowReads
-- ==== Proof.LibColumnReads.lean ====
/-
  Layout operations and reductions along the FIRST axis of a matrix, read at an index given by coordinates, over
  arbitrary extents and (for the reductions) at the ideal values:
  • a vector [a] cast to a column [a, 1], and a column [a, 1] broadcast to [a, b];
  • a `vector.multi_reduction` over axis 0 of an [a, b] matrix, at column `t`: for `add` the sum over the rows, for
    `maximumf` the fold of `max` over the rows from the accumulator's value;
  • the host's one-operand reduce with a maximum body over the MIDDLE axis of an [a, n, b] array, at (p, q): the fold of
    `max` over that axis from the initial value.
  The row forms ([a] to [1, a], [1, b] to [a, b]) are the library's (Lib/ValueLayout.lean); these are the column forms.
-/
import Idealize.ShloMosaic.Lib.ValueIdx
import Idealize.ShloMosaic.Lib.ValueLayout
import Idealize.ShloMosaic.Lib.Pipeline.Value
import Idealize.ShloMosaic.PureOps.Ideal.Laws

namespace Cert.LibColumnReads

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `t` of an `[a, b]` matrix with row `k` put back is `(k, t)`. -/
theorem lift_ix1 {a b : ℕ} (h : (⟨2, ![a, b]⟩ : Shape).Reduces [0] (⟨1, ![b]⟩ : Shape)) (t : Fin b) (k : Fin a) :
    h.lift (ix1 t) k = ix2 k t := by
  funext c; apply Fin.ext
  fin_cases c <;> rfl

/-- A float sum over the rows of an `[a, b]` matrix, at column `t`, is the sum of that column. -/
theorem colSum_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (t : Fin b) :
    multiReduction (F := Ideal) .add [0] ⟨1, ![b]⟩ v acc h hφ hacc (ix1 t) = ∑ k : Fin a, v (ix2 k t) := by
  rw [Ideal.multiReduction_add_single]
  exact Finset.sum_congr rfl fun k _ => congrArg v (lift_ix1 h t k)

/-- A float maximum over the rows of an `[a, b]` matrix, at column `t`, is the fold of `max` down that column from the
    accumulator's value. -/
theorem colMax_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.maximumf.neutral φ hφ)
    (t : Fin b) :
    multiReduction (F := Ideal) .maximumf [0] ⟨1, ![b]⟩ v acc h hφ hacc (ix1 t)
      = (Finset.univ : Finset (Fin a)).fold max (Ideal.ofBits φ acc) (fun k => v (ix2 k t)) := by
  rw [Ideal.multiReduction_maximumf_single]
  exact congrArg (fun f => Finset.fold max (Ideal.ofBits φ acc) f (Finset.univ : Finset (Fin a)))
    (funext fun k => congrArg v (lift_ix1 h t k))

/-- Position `(p, q)` of an `[a, n, b]` array with middle coordinate `k` put back is `(p, k, q)`. -/
theorem lift_mid {a n b : ℕ} (h : (⟨3, ![a, n, b]⟩ : Shape).Reduces [1] (⟨2, ![a, b]⟩ : Shape)) (p : Fin a) (q : Fin b)
    (k : Fin n) : h.lift (ix2 p q) k = ix3 p k q := by
  funext c; apply Fin.ext
  fin_cases c <;> rfl

/-- The host's reduce with a maximum body over the middle axis of an `[a, n, b]` array, at `(p, q)`, is the fold of
    `max` over that axis from the initial value. -/
theorem hostMidMax_apply {φ : FTy} {a n b : ℕ} {u : Shape} (x : FVec Ideal ⟨3, ![a, n, b]⟩ φ) (init : FVec Ideal u φ)
    (h' : (⟨3, ![a, n, b]⟩ : Shape).ReducesTo [1] (⟨2, ![a, b]⟩ : Shape))
    (h : (⟨3, ![a, n, b]⟩ : Shape).Reduces [1] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p k q)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_mid h p q k))

end Cert.LibColumnReads
-- ==== Proof.PayloadReads.lean ====
/-
  The values the attention kernel stores, read at one entry, over the extended reals with exact operations.

  A change of float format is the identity and a cast of a shape to itself changes nothing, so the stored
  high part of a block is the block and the stored low part is x − x entry by entry. The three matrix
  products into zero accumulators are sums over the 1024 features; the running maximum is the maximum of the
  carried one and the fold of max along the 512 scores of the row; the running denominator is the carried one
  rescaled by exp(old maximum − new maximum) plus the row's sum of exp(score − new maximum); the stored
  log-sum-exp is m + log l. In the second pass a weight is exp(score − log-sum-exp) and the context block
  gains the product of the weights with the value block, a sum over the 1024 keys of the block.
-/
import proofs.«167355_j84250078478576_2_alg».proof.Proof.Gen.KernelIdeal.Skeleton
import proofs.«167355_j84250078478576_2_alg».proof.Proof.AttnSpec
import proofs.«167355_j84250078478576_2_alg».proof.Proof.LibDotNT
import proofs.«167355_j84250078478576_2_alg».proof.Proof.LibPlainDot
import proofs.«167355_j84250078478576_2_alg».proof.Proof.LibRowReads
import proofs.«167355_j84250078478576_2_alg».proof.Proof.LibColumnReads

open scoped BigOperators

noncomputable section

namespace Cert.KernelIdeal.PayRead

open Idealize.ShloMosaic Cert.KernelIdeal Cert.KernelIdeal.Gen Idealize.ShloMosaic.ValueIdx

/-! ## Format changes and casts that do nothing -/

/-- The stored high part of a block is the block. -/
theorem pay6_eq (x : FVec Ideal S1024x1024 .f32) : k0_pay6 (F := Ideal) x = x := by
  unfold k0_pay6
  exact shapeCast_self _ _

/-- The stored low part of a block is x − x, entry by entry. -/
theorem pay7_apply (x : FVec Ideal S1024x1024 .f32) (p : Fin 1024) (d : Fin 1024) :
    k0_pay7 (F := Ideal) x (ix2 p d) = x (ix2 p d) - x (ix2 p d) := by
  unfold k0_pay7
  exact congrFun (shapeCast_self _ _) (ix2 p d)

/-- The running maximum starts at −∞. -/
theorem pay4_apply (p : Fin 1024) : k0_pay4 (F := Ideal) (ix2 p (0 : Fin 1)) = (⊥ : EReal) := by
  unfold k0_pay4
  refine (congrFun (shapeCast_self _ _) (ix2 p (0 : Fin 1))).trans ?_
  show Ideal.ofBits .f32 0xFF800000#32 = ⊥
  simp [Ideal.ofBits, Ideal.ieee]

/-- The running denominator starts at 0. -/
theorem pay5_apply (p : Fin 1024) : k0_pay5 (F := Ideal) (ix2 p (0 : Fin 1)) = (0 : EReal) := by
  unfold k0_pay5
  refine (congrFun (shapeCast_self _ _) (ix2 p (0 : Fin 1))).trans ?_
  exact Ideal.ofBits_zero_f32

/-- The denominator is stored as it is. -/
theorem pay1_eq (x : FVec Ideal S1024x1 .f32) : k0_pay1 (F := Ideal) x = x := by
  unfold k0_pay1
  exact shapeCast_self _ _

/-- The maximum is stored as it is. -/
theorem pay2_eq (x : FVec Ideal S1024x1 .f32) : k0_pay2 (F := Ideal) x = x := by
  unfold k0_pay2
  exact shapeCast_self _ _

/-- The stored log-sum-exp of a row is m + log l. -/
theorem pay3_apply (m l : FVec Ideal S1024x1 .f32) (p : Fin 1024) :
    k0_pay3 (F := Ideal) m l (ix2 p (0 : Fin 1)) = m (ix2 p (0 : Fin 1)) + Ideal.log (l (ix2 p (0 : Fin 1))) := by
  unfold k0_pay3
  rfl

/-! ## The scores -/

/-- The pattern of −∞ is the extended real −∞. -/
theorem ofBits_neg_inf : Ideal.ofBits .f32 0xFF800000#32 = (⊥ : EReal) := by
  simp [Ideal.ofBits, Ideal.ieee]

/-- A score as the kernel forms it: the high queries against the high keys, the high queries against the
    low keys (x − x entry by entry), and the low queries against the high keys, each a sum over the 1024
    features. -/
theorem pay8_apply (x1 : FVec Ideal S512x1024 .f32) (qh qh' ql : FVec Ideal S1024x1024 .bf16)
    (p : Fin 1024) (j : Fin 512) :
    k0_pay8 (F := Ideal) x1 qh qh' ql (ix2 p j)
      = (∑ d : Fin 1024, qh (ix2 p d) * x1 (ix2 j d))
        + (∑ d : Fin 1024, qh' (ix2 p d) * (x1 (ix2 j d) - x1 (ix2 j d)))
        + (∑ d : Fin 1024, ql (ix2 p d) * x1 (ix2 j d)) := by
  unfold k0_pay8
  refine congrArg₂ (· + ·) (congrArg₂ (· + ·) ?_ ?_) ?_
  · exact Cert.Lib.DotNT.matmul_zero_apply (M := 1024) (K := 1024) (N := 512) none qh
      (truncf .bf16 x1 bitsLt_bf16_f32) p j
  · exact Cert.Lib.DotNT.matmul_zero_apply (M := 1024) (K := 1024) (N := 512) none qh'
      (truncf .bf16 (subf x1 x1) bitsLt_bf16_f32) p j
  · exact Cert.Lib.DotNT.matmul_zero_apply (M := 1024) (K := 1024) (N := 512) none ql
      (truncf .bf16 x1 bitsLt_bf16_f32) p j

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- With finite entries x − x vanishes, so the low parts contribute nothing and the score is the inner
    product of the query row with the key row. -/
theorem scores_finite (x0 : FVec Ideal S1024x1024 .f32) (x1 : FVec Ideal S512x1024 .f32)
    (h0 : Cert.Attn.Finite x0) (h1 : Cert.Attn.Finite x1) (p : Fin 1024) (j : Fin 512) :
    k0_pay8 (F := Ideal) x1 (k0_pay6 (F := Ideal) x0) (k0_pay6 (F := Ideal) x0) (k0_pay7 (F := Ideal) x0) (ix2 p j)
      = ((∑ d : Fin 1024, (x0 (ix2 p d)).toReal * (x1 (ix2 j d)).toReal : ℝ) : EReal) := by
  refine (pay8_apply x1 (k0_pay6 (F := Ideal) x0) (k0_pay6 (F := Ideal) x0) (k0_pay7 (F := Ideal) x0) p j).trans ?_
  have s1 : (∑ d : Fin 1024, k0_pay6 (F := Ideal) x0 (ix2 p d) * x1 (ix2 j d))
      = ((∑ d : Fin 1024, (x0 (ix2 p d)).toReal * (x1 (ix2 j d)).toReal : ℝ) : EReal) := by
    rw [coe_sum]
    refine Finset.sum_congr rfl fun d _ => ?_
    obtain ⟨a, ha⟩ := h0 (ix2 p d)
    obtain ⟨b, hb⟩ := h1 (ix2 j d)
    rw [pay6_eq, ha, hb, EReal.coe_mul]
    rfl
  have s2 : (∑ d : Fin 1024, k0_pay6 (F := Ideal) x0 (ix2 p d) * (x1 (ix2 j d) - x1 (ix2 j d))) = 0 :=
    Finset.sum_eq_zero fun d _ => by
      obtain ⟨b, hb⟩ := h1 (ix2 j d)
      rw [hb, ← EReal.coe_sub, sub_self, EReal.coe_zero, mul_zero]
  have s3 : (∑ d : Fin 1024, k0_pay7 (F := Ideal) x0 (ix2 p d) * x1 (ix2 j d)) = 0 :=
    Finset.sum_eq_zero fun d _ => by
      obtain ⟨a, ha⟩ := h0 (ix2 p d)
      rw [pay7_apply, ha, ← EReal.coe_sub, sub_self, EReal.coe_zero, zero_mul]
  rw [s1, s2, s3, add_zero, add_zero]

/-! ## The running maximum and denominator -/

/-- The new maximum of a row: the carried one against the fold of max along the row's 512 scores from −∞. -/
theorem pay9_apply (x1 : FVec Ideal S512x1024 .f32) (qh qh' ql : FVec Ideal S1024x1024 .bf16)
    (m : FVec Ideal S1024x1 .f32) (p : Fin 1024) :
    k0_pay9 (F := Ideal) x1 qh qh' ql m (ix2 p (0 : Fin 1))
      = max (m (ix2 p (0 : Fin 1)))
          ((Finset.univ : Finset (Fin 512)).fold max (⊥ : EReal)
            (fun j => k0_pay8 (F := Ideal) x1 qh qh' ql (ix2 p j))) := by
  unfold k0_pay9
  refine congrArg (max (m (ix2 p (0 : Fin 1)))) ?_
  refine (Cert.LibColumnReads.shapeCast_a_a1_apply _ _ p (0 : Fin 1)).trans ?_
  refine (Cert.LibRowReads.rowMax_apply (k0_pay8 (F := Ideal) x1 qh qh' ql) 0xFF800000#32
    reduces_S1024x512_S1024 (.inl rfl) rfl p).trans ?_
  exact congrArg (fun b => Finset.fold max b (fun j => k0_pay8 (F := Ideal) x1 qh qh' ql (ix2 p j))
    (Finset.univ : Finset (Fin 512))) ofBits_neg_inf

/-- The new denominator of a row: the carried one rescaled from the old maximum to the new, plus the row's
    sum of the exponentials of the scores less the new maximum. -/
theorem pay10_apply (x1 : FVec Ideal S512x1024 .f32) (qh qh' ql : FVec Ideal S1024x1024 .bf16)
    (m m' l : FVec Ideal S1024x1 .f32) (p : Fin 1024) :
    k0_pay10 (F := Ideal) x1 qh qh' ql m m' l (ix2 p (0 : Fin 1))
      = Ideal.exp (m' (ix2 p (0 : Fin 1)) - k0_pay9 (F := Ideal) x1 qh qh' ql m (ix2 p (0 : Fin 1)))
            * l (ix2 p (0 : Fin 1))
        + ∑ j : Fin 512, Ideal.exp (k0_pay8 (F := Ideal) x1 qh qh' ql (ix2 p j)
            - k0_pay9 (F := Ideal) x1 qh qh' ql m (ix2 p (0 : Fin 1))) := by
  unfold k0_pay10
  refine congrArg (Ideal.exp (m' (ix2 p (0 : Fin 1)) - k0_pay9 (F := Ideal) x1 qh qh' ql m (ix2 p (0 : Fin 1)))
      * l (ix2 p (0 : Fin 1)) + ·) ?_
  refine (Cert.LibColumnReads.shapeCast_a_a1_apply _ _ p (0 : Fin 1)).trans ?_
  refine (Cert.LibRowReads.rowSum_apply _ 0x00000000#32 reduces_S1024x512_S1024 (.inl rfl) rfl p).trans ?_
  refine Finset.sum_congr rfl fun j _ => ?_
  exact congrArg (fun t => Ideal.exp (k0_pay8 (F := Ideal) x1 qh qh' ql (ix2 p j) - t))
    (Cert.LibColumnReads.broadcastTo_a1_ab_apply _ _ p j)

/-! ## The second pass -/

/-- The context accumulator starts at 0. -/
theorem k1_pay1_apply (p e : Fin 1024) : k1_pay1 (F := Ideal) (ix2 p e) = (0 : EReal) := by
  unfold k1_pay1
  refine (congrFun (shapeCast_self _ _) (ix2 p e)).trans ?_
  exact Ideal.ofBits_zero_f32

/-- A weight: the exponential of the score less the row's log-sum-exp. -/
theorem k1_pay2_apply (s : FVec Ideal S1024x1024 .f32) (lse : FVec Ideal S1024x1 .f32) (p c : Fin 1024) :
    k1_pay2 (F := Ideal) s lse (ix2 p c) = Ideal.exp (s (ix2 p c) - lse (ix2 p (0 : Fin 1))) := by
  unfold k1_pay2
  refine congrArg Ideal.exp (congrArg₂ (· - ·) (congrFun (shapeCast_self s _) (ix2 p c)) ?_)
  refine (Cert.LibColumnReads.broadcastTo_a1_ab_apply _ _ p c).trans ?_
  exact congrFun (shapeCast_self lse _) (ix2 p (0 : Fin 1))

/-- The context block gains the weights' product with the value block: a sum over the block's 1024 keys. -/
theorem k1_pay3_apply (s : FVec Ideal S1024x1024 .f32) (lse : FVec Ideal S1024x1 .f32)
    (acc : FVec Ideal S1024x1024 .f32) (vb : FVec Ideal S1024x1024 .bf16) (p e : Fin 1024) :
    k1_pay3 (F := Ideal) s lse acc vb (ix2 p e)
      = acc (ix2 p e) + ∑ c : Fin 1024, k1_pay2 (F := Ideal) s lse (ix2 p c) * vb (ix2 c e) := by
  unfold k1_pay3
  refine (congrFun (shapeCast_self _ _) (ix2 p e)).trans ?_
  refine congrArg (acc (ix2 p e) + ·) ?_
  refine (Cert.Lib.PlainDot.matmul_zero_apply 1024 1024 1024 none _ _ (ix2 p e)).trans ?_
  refine Finset.sum_congr rfl fun c _ => ?_
  exact congrArg (k1_pay2 (F := Ideal) s lse (ix2 p c) * ·) (congrFun (shapeCast_self vb _) (ix2 c e))

end Cert.KernelIdeal.PayRead

end
-- ==== Proof.MidSpec.lean ====
/-
  What the score kernel hands the normalising kernel, as arrays of extended reals: the raw scores, and per row the
  logarithm of the softmax denominator shifted back by the row's maximum, M(r) + log Σ_j exp(s(r, j) − M(r)).
-/
import proofs.«167355_j84250078478576_2_alg».proof.Proof.AttnSpec
import Idealize.ShloMosaic.PureOps.Ideal

noncomputable section

namespace Cert.Attn

open Idealize.ShloMosaic

/-- The score matrix as an [8192, 8192] array of extended reals. -/
def scoreArr (q k : (⟨2, ![8192, 1024]⟩ : Shape).Idx → EReal) : (⟨2, ![8192, 8192]⟩ : Shape).Idx → EReal :=
  fun i => ((score (re q) (re k) (i 0) (i 1) : ℝ) : EReal)

/-- The row statistics as an [8192, 1] column: the row's maximum plus the logarithm of its softmax denominator. -/
def lseArr (q k : (⟨2, ![8192, 1024]⟩ : Shape).Idx → EReal) : (⟨2, ![8192, 1]⟩ : Shape).Idx → EReal :=
  fun i => ((rowMax (re q) (re k) (i 0) : ℝ) : EReal) + Ideal.log ((rowSum (re q) (re k) (i 0) : ℝ) : EReal)

/-- The softmax denominator is at least 1: the largest score contributes exp 0. -/
theorem one_le_rowSum (q k : Fin 8192 → Fin 1024 → ℝ) (r : Fin 8192) : 1 ≤ rowSum q k r := by
  unfold rowSum rowMax
  obtain ⟨j, -, he⟩ := Finset.exists_mem_eq_sup' Finset.univ_nonempty (fun j : Fin 8192 => score q k r j)
  calc (1 : ℝ) = Real.exp (score q k r j - Finset.univ.sup' Finset.univ_nonempty (fun j : Fin 8192 => score q k r j)) := by
        rw [he, sub_self, Real.exp_zero]
    _ ≤ _ := Finset.single_le_sum (f := fun j' : Fin 8192 => Real.exp (score q k r j' - Finset.univ.sup' Finset.univ_nonempty (fun j : Fin 8192 => score q k r j)))
        (fun j' _ => (Real.exp_pos _).le) (Finset.mem_univ j)

end Cert.Attn

end
-- ==== Proof.LibOnlineSoftmax.lean ====
/-
  The streaming form of the softmax normaliser, over the extended reals.

  A finite family of real scores is read in consecutive blocks. A running pair (m, l) starts at (⊥, 0); a
  block B replaces it by m' = max m (max over B, taken from ⊥) and
  l' = exp (m − m') · l + Σ_{j ∈ B} exp (s j − m'), with the extended reals' conventions exp ⊥ = 0 and
  ⊥ − x = ⊥. After any number of blocks the pair is the closed form (largest score seen, sum over the scores
  seen of exp (s j − largest)); once a block has been read both are real, the sum is at least 1, and
  exp (s j − (m + log l)) = exp (s j − m) / l.

  The scores are indexed by the natural numbers (block b of width w is the columns w·b, …, w·b + w − 1), and
  a family indexed by Fin n is read through its extension by zero.
-/
import Mathlib
import Idealize.ShloMosaic.PureOps.Ideal

noncomputable section

namespace Cert.LibOnlineSoftmax

open Idealize.ShloMosaic

/-! ### Coerced reals -/

/-- A real number minus itself is zero in the extended reals. -/
theorem coe_sub_self (x : ℝ) : ((x : ℝ) : EReal) - ((x : ℝ) : EReal) = 0 := by
  rw [← EReal.coe_sub, sub_self, EReal.coe_zero]

/-- Zero times a real number is zero in the extended reals. -/
theorem zero_mul_coe (x : ℝ) : (0 : EReal) * ((x : ℝ) : EReal) = 0 := zero_mul _

/-- A finite sum of coerced reals is the coerced sum. -/
theorem coe_sum {ι : Type*} (t : Finset ι) (f : ι → ℝ) :
    ∑ i ∈ t, ((f i : ℝ) : EReal) = ((∑ i ∈ t, f i : ℝ) : EReal) := by
  classical
  refine Finset.induction_on t ?_ ?_
  · simp
  · intro a t ha ih
    rw [Finset.sum_insert ha, Finset.sum_insert ha, ih, EReal.coe_add]

/-- The quotient of two coerced reals with a nonzero divisor is the coerced quotient. -/
theorem div_coe_coe (a b : ℝ) (hb : b ≠ 0) : Ideal.div ((a : ℝ) : EReal) ((b : ℝ) : EReal) = ((a / b : ℝ) : EReal) := by
  rw [Ideal.div_coe hb, ← EReal.coe_mul]
  congr 1
  rw [mul_one_div]

/-- With l > 0, exp (x − (m + log l)) = exp (x − m) / l. -/
theorem exp_sub_lse (x m l : ℝ) (hl : 0 < l) :
    Ideal.exp (((x : ℝ) : EReal) - (((m : ℝ) : EReal) + Ideal.log ((l : ℝ) : EReal)))
      = ((Real.exp (x - m) / l : ℝ) : EReal) := by
  rw [Ideal.log_coe, if_neg (not_le.2 hl), ← EReal.coe_add, ← EReal.coe_sub, Ideal.exp_coe]
  congr 1
  rw [show x - (m + Real.log l) = (x - m) - Real.log l by ring, Real.exp_sub, Real.exp_log hl]

/-! ### Maxima -/

/-- The fold of max from ⊥ is the supremum. -/
theorem fold_max_bot {ι : Type*} (t : Finset ι) (f : ι → EReal) : t.fold max ⊥ f = t.sup f :=
  le_antisymm ((Finset.fold_max_le _).2 ⟨bot_le, fun _ hx => Finset.le_sup hx⟩)
    (Finset.sup_le fun x hx => (Finset.le_fold_max _).2 (Or.inr ⟨x, hx, le_rfl⟩))

/-- Over a nonempty finite set the supremum of coerced reals is the coerced maximum. -/
theorem sup_coe {ι : Type*} (t : Finset ι) (H : t.Nonempty) (f : ι → ℝ) :
    t.sup (fun i => ((f i : ℝ) : EReal)) = ((t.sup' H f : ℝ) : EReal) := by
  apply le_antisymm
  · exact Finset.sup_le fun i hi => EReal.coe_le_coe_iff.2 (Finset.le_sup' f hi)
  · obtain ⟨i, hi, he⟩ := Finset.exists_mem_eq_sup' H f
    rw [he]
    exact Finset.le_sup (f := fun i => ((f i : ℝ) : EReal)) hi

/-- The fold of max from ⊥ over a nonempty finite set of coerced reals is the coerced maximum. -/
theorem fold_max_coe {ι : Type*} (t : Finset ι) (H : t.Nonempty) (f : ι → ℝ) :
    t.fold max ⊥ (fun i => ((f i : ℝ) : EReal)) = ((t.sup' H f : ℝ) : EReal) := by
  rw [fold_max_bot, sup_coe t H f]

/-- The shifted exponentials over a nonempty finite set sum to at least 1: the largest score contributes exp 0. -/
theorem one_le_sum_exp {ι : Type*} (t : Finset ι) (H : t.Nonempty) (f : ι → ℝ) :
    1 ≤ ∑ i ∈ t, Real.exp (f i - t.sup' H f) := by
  obtain ⟨i, hi, he⟩ := Finset.exists_mem_eq_sup' H f
  calc (1 : ℝ) = Real.exp (f i - t.sup' H f) := by rw [he, sub_self, Real.exp_zero]
    _ ≤ ∑ j ∈ t, Real.exp (f j - t.sup' H f) :=
      Finset.single_le_sum (f := fun j => Real.exp (f j - t.sup' H f)) (fun j _ => (Real.exp_pos _).le) hi

/-! ### The closed form of the running pair -/

/-- The largest of the first n scores as an extended real; ⊥ when n = 0. -/
def prefMax (s : ℕ → ℝ) (n : ℕ) : EReal := (Finset.range n).sup fun c => ((s c : ℝ) : EReal)

/-- The sum over the first n scores of exp (s c − largest of the first n); 0 when n = 0. -/
def prefSum (s : ℕ → ℝ) (n : ℕ) : EReal :=
  ∑ c ∈ Finset.range n, Ideal.exp (((s c : ℝ) : EReal) - prefMax s n)

theorem prefMax_zero (s : ℕ → ℝ) : prefMax s 0 = ⊥ := by
  unfold prefMax; rw [Finset.range_zero, Finset.sup_empty]

theorem prefSum_zero (s : ℕ → ℝ) : prefSum s 0 = 0 := by
  unfold prefSum; rw [Finset.range_zero, Finset.sum_empty]

/-- Once a score has been read the running maximum is the real maximum of the scores read. -/
theorem prefMax_coe (s : ℕ → ℝ) {n : ℕ} (H : (Finset.range n).Nonempty) :
    prefMax s n = (((Finset.range n).sup' H s : ℝ) : EReal) := sup_coe _ H s

/-- Once a score has been read the running sum is the real sum of the shifted exponentials of the scores read. -/
theorem prefSum_coe (s : ℕ → ℝ) {n : ℕ} (H : (Finset.range n).Nonempty) :
    prefSum s n = ((∑ c ∈ Finset.range n, Real.exp (s c - (Finset.range n).sup' H s) : ℝ) : EReal) := by
  unfold prefSum
  rw [prefMax_coe s H, ← coe_sum]
  refine Finset.sum_congr rfl fun c _ => ?_
  rw [← EReal.coe_sub, Ideal.exp_coe]

/-- Once a score has been read the running sum is a real number that is at least 1. -/
theorem prefSum_pos (s : ℕ → ℝ) {n : ℕ} (H : (Finset.range n).Nonempty) :
    ∃ L : ℝ, 1 ≤ L ∧ prefSum s n = ((L : ℝ) : EReal) :=
  ⟨_, one_le_sum_exp _ H s, prefSum_coe s H⟩

/-- Reading k further scores replaces the running maximum by its maximum with theirs. -/
theorem prefMax_add (s : ℕ → ℝ) (n k : ℕ) :
    prefMax s (n + k)
      = max (prefMax s n) ((Finset.univ : Finset (Fin k)).fold max ⊥ fun j => ((s (n + j.val) : ℝ) : EReal)) := by
  rw [fold_max_bot]
  unfold prefMax
  apply le_antisymm
  · refine Finset.sup_le fun c hc => ?_
    rw [Finset.mem_range] at hc
    by_cases h : c < n
    · exact le_max_of_le_left (Finset.le_sup (f := fun c => ((s c : ℝ) : EReal)) (Finset.mem_range.2 h))
    · have hj : c - n < k := by omega
      have e : n + (c - n) = c := by omega
      have hle := Finset.le_sup (f := fun j : Fin k => ((s (n + j.val) : ℝ) : EReal)) (Finset.mem_univ (⟨c - n, hj⟩ : Fin k))
      dsimp only at hle
      rw [e] at hle
      exact le_max_of_le_right hle
  · refine max_le (Finset.sup_mono (Finset.range_mono (Nat.le_add_right n k))) (Finset.sup_le fun j _ => ?_)
    exact Finset.le_sup (f := fun c => ((s c : ℝ) : EReal)) (Finset.mem_range.2 (by have := j.isLt; omega))

/-- Reading k ≥ 1 further scores rescales the running sum to the new maximum and adds their shifted exponentials. -/
theorem prefSum_add (s : ℕ → ℝ) (n k : ℕ) (hk : 0 < k) :
    prefSum s (n + k)
      = Ideal.exp (prefMax s n - prefMax s (n + k)) * prefSum s n
        + ∑ j : Fin k, Ideal.exp (((s (n + j.val) : ℝ) : EReal) - prefMax s (n + k)) := by
  have Hnk : (Finset.range (n + k)).Nonempty := Finset.nonempty_range_iff.2 (by omega)
  have key : ∑ c ∈ Finset.range n, Ideal.exp (((s c : ℝ) : EReal) - prefMax s (n + k))
      = Ideal.exp (prefMax s n - prefMax s (n + k)) * prefSum s n := by
    rcases Nat.eq_zero_or_pos n with hn | hn
    · subst hn
      rw [prefSum_zero, mul_zero, Finset.range_zero, Finset.sum_empty]
    · have Hn : (Finset.range n).Nonempty := Finset.nonempty_range_iff.2 hn.ne'
      rw [prefMax_coe s Hnk, prefMax_coe s Hn, prefSum_coe s Hn]
      simp only [← EReal.coe_sub, Ideal.exp_coe]
      rw [coe_sum, ← EReal.coe_mul, Finset.mul_sum]
      refine congrArg _ (Finset.sum_congr rfl fun c _ => ?_)
      rw [← Real.exp_add]
      congr 1
      ring
  rw [← key]
  unfold prefSum
  rw [Finset.sum_range_add, Fin.sum_univ_eq_sum_range (fun x => Ideal.exp (((s (n + x) : ℝ) : EReal) - prefMax s (n + k))) k]

/-! ### The recurrence -/

/-- A pair of sequences that starts at (⊥, 0) and follows the block update for N blocks of width w is the closed
    form: after b blocks it is the maximum and the shifted sum of the first w·b scores. -/
theorem stream_eq (w : ℕ) (hw : 0 < w) (s : ℕ → ℝ) (N : ℕ) (m l : ℕ → EReal)
    (hm0 : m 0 = ⊥) (hl0 : l 0 = 0)
    (hm : ∀ b, b < N → m (b + 1)
      = max (m b) ((Finset.univ : Finset (Fin w)).fold max ⊥ fun j => ((s (w * b + j.val) : ℝ) : EReal)))
    (hl : ∀ b, b < N → l (b + 1)
      = Ideal.exp (m b - m (b + 1)) * l b + ∑ j : Fin w, Ideal.exp (((s (w * b + j.val) : ℝ) : EReal) - m (b + 1))) :
    ∀ b, b ≤ N → m b = prefMax s (w * b) ∧ l b = prefSum s (w * b) := by
  intro b
  induction b with
  | zero =>
    intro _
    rw [Nat.mul_zero, prefMax_zero, prefSum_zero]
    exact ⟨hm0, hl0⟩
  | succ b ih =>
    intro hb
    obtain ⟨e1, e2⟩ := ih (by omega)
    have hM : m (b + 1) = prefMax s (w * b + w) := by
      rw [hm b (by omega), e1, prefMax_add]
    rw [mul_add_one]
    refine ⟨hM, ?_⟩
    rw [hl b (by omega), hM, e1, e2, prefSum_add s (w * b) w hw]

/-! ### Scores indexed by Fin n -/

/-- A family over Fin n extended by zero to the natural numbers. -/
def ofFin {n : ℕ} (g : Fin n → ℝ) (c : ℕ) : ℝ := if h : c < n then g ⟨c, h⟩ else 0

theorem ofFin_val {n : ℕ} (g : Fin n → ℝ) (i : Fin n) : ofFin g i.val = g i := by
  unfold ofFin; rw [dif_pos i.isLt]

/-- Over all n columns the running maximum of the extension is the family's maximum. -/
theorem prefMax_ofFin {n : ℕ} (g : Fin n → ℝ) (H : (Finset.univ : Finset (Fin n)).Nonempty) :
    prefMax (ofFin g) n = ((Finset.univ.sup' H g : ℝ) : EReal) := by
  rw [← sup_coe Finset.univ H g]
  unfold prefMax
  apply le_antisymm
  · refine Finset.sup_le fun c hc => ?_
    rw [Finset.mem_range] at hc
    have hle := Finset.le_sup (f := fun i : Fin n => ((g i : ℝ) : EReal)) (Finset.mem_univ (⟨c, hc⟩ : Fin n))
    rw [← ofFin_val g ⟨c, hc⟩] at hle
    exact hle
  · refine Finset.sup_le fun i _ => ?_
    rw [← ofFin_val g i]
    exact Finset.le_sup (f := fun c => ((ofFin g c : ℝ) : EReal)) (Finset.mem_range.2 i.isLt)

/-- Over all n columns the running sum of the extension is the family's sum of shifted exponentials. -/
theorem prefSum_ofFin {n : ℕ} (g : Fin n → ℝ) (H : (Finset.univ : Finset (Fin n)).Nonempty) :
    prefSum (ofFin g) n = ((∑ i : Fin n, Real.exp (g i - Finset.univ.sup' H g) : ℝ) : EReal) := by
  unfold prefSum
  rw [prefMax_ofFin g H,
    ← Fin.sum_univ_eq_sum_range (fun c => Ideal.exp (((ofFin g c : ℝ) : EReal) - ((Finset.univ.sup' H g : ℝ) : EReal))) n,
    ← coe_sum]
  refine Finset.sum_congr rfl fun i _ => ?_
  rw [ofFin_val, ← EReal.coe_sub, Ideal.exp_coe]

/-- The streaming softmax over n = w·N columns read as N blocks of width w, block b being the columns
    col b j = w·b + j: a pair of sequences that starts at (⊥, 0) and follows the block update ends, after
    the N blocks, at the family's maximum and its sum of shifted exponentials. -/
theorem streaming_softmax {n w N : ℕ} (hw : 0 < w) (hn : w * N = n) (g : Fin n → ℝ)
    (H : (Finset.univ : Finset (Fin n)).Nonempty)
    (col : ℕ → Fin w → Fin n) (hcol : ∀ b, b < N → ∀ j : Fin w, (col b j).val = w * b + j.val)
    (m l : ℕ → EReal) (hm0 : m 0 = ⊥) (hl0 : l 0 = 0)
    (hm : ∀ b, b < N → m (b + 1)
      = max (m b) ((Finset.univ : Finset (Fin w)).fold max ⊥ fun j => ((g (col b j) : ℝ) : EReal)))
    (hl : ∀ b, b < N → l (b + 1)
      = Ideal.exp (m b - m (b + 1)) * l b + ∑ j : Fin w, Ideal.exp (((g (col b j) : ℝ) : EReal) - m (b + 1))) :
    m N = ((Finset.univ.sup' H g : ℝ) : EReal)
      ∧ l N = ((∑ i : Fin n, Real.exp (g i - Finset.univ.sup' H g) : ℝ) : EReal) := by
  have hg : ∀ b, b < N → ∀ j : Fin w, g (col b j) = ofFin g (w * b + j.val) := by
    intro b hb j
    rw [← hcol b hb j, ofFin_val]
  have h := stream_eq w hw (ofFin g) N m l hm0 hl0
    (fun b hb => by rw [hm b hb]; simp only [hg b hb])
    (fun b hb => by rw [hl b hb]; simp only [hg b hb]) N le_rfl
  rw [hn] at h
  exact ⟨h.1.trans (prefMax_ofFin g H), h.2.trans (prefSum_ofFin g H)⟩

/-- The same, with the conclusions a later stage uses: the final pair is real, the sum is at least 1, and each
    exp (g i − (m + log l)) is the softmax weight exp (g i − max) / Σ exp (g i' − max). -/
theorem streaming_softmax_weights {n w N : ℕ} (hw : 0 < w) (hn : w * N = n) (g : Fin n → ℝ)
    (H : (Finset.univ : Finset (Fin n)).Nonempty)
    (col : ℕ → Fin w → Fin n) (hcol : ∀ b, b < N → ∀ j : Fin w, (col b j).val = w * b + j.val)
    (m l : ℕ → EReal) (hm0 : m 0 = ⊥) (hl0 : l 0 = 0)
    (hm : ∀ b, b < N → m (b + 1)
      = max (m b) ((Finset.univ : Finset (Fin w)).fold max ⊥ fun j => ((g (col b j) : ℝ) : EReal)))
    (hl : ∀ b, b < N → l (b + 1)
      = Ideal.exp (m b - m (b + 1)) * l b + ∑ j : Fin w, Ideal.exp (((g (col b j) : ℝ) : EReal) - m (b + 1)))
    (i : Fin n) :
    Ideal.exp (((g i : ℝ) : EReal) - (m N + Ideal.log (l N)))
      = ((Real.exp (g i - Finset.univ.sup' H g) / ∑ i' : Fin n, Real.exp (g i' - Finset.univ.sup' H g) : ℝ) : EReal) := by
  obtain ⟨e1, e2⟩ := streaming_softmax hw hn g H col hcol m l hm0 hl0 hm hl
  rw [e1, e2]
  exact exp_sub_lse _ _ _ (lt_of_lt_of_le one_pos (one_le_sum_exp Finset.univ H g))

end Cert.LibOnlineSoftmax

end
-- ==== Proof.Val0.lean ====
/-
  What the score kernel's write-backs leave, at the ideal values.

  With finite q and k the two query halves are (q tile, 0), so a score block is the inner products of the tile's
  rows with the block's key rows; every point writes its block back, and the blocks tile the score matrix. Along a
  query tile the carried maximum and sum follow the streaming softmax update over the 16 key blocks of 512 columns,
  so after the last block they are the row's maximum M and Σ_j exp(s_j − M); the statistics block written there is
  M + log of that sum, and the tiles' blocks cover the column of statistics.
-/
import proofs.«167355_j84250078478576_2_alg».proof.Proof.KitsV
import proofs.«167355_j84250078478576_2_alg».proof.Proof.BlockReads
import proofs.«167355_j84250078478576_2_alg».proof.Proof.PayloadReads
import proofs.«167355_j84250078478576_2_alg».proof.Proof.MidSpec
import proofs.«167355_j84250078478576_2_alg».proof.Proof.LibOnlineSoftmax
import Idealize.ShloMosaic.Lib.Pipeline.Value

set_option maxRecDepth 16384

noncomputable section

namespace Cert.KernelIdeal.Hand

open Cert.KernelIdeal Cert.KernelIdeal.Gen Cert.KernelIdeal.PayRead
open Idealize.ShloMosaic Idealize.ShloMosaic.TcCoe Idealize.SL.Sem Idealize.ShloMosaic.ValueIdx
open Idealize.ShloMosaic.Pipeline (Dat)
open Cert.Attn

/-! ## One point, over variables -/

section Point

variable (x0 : FVec Ideal S1024x1024 .f32) (x1 : FVec Ideal S512x1024 .f32) (s : St0 Ideal)
  (hqh : s.2.2.1 = k0_pay6 (F := Ideal) x0) (hql : s.2.2.2 = k0_pay7 (F := Ideal) x0)
  (q k : (⟨2, ![8192, 1024]⟩ : Shape).Idx → EReal) (hq : Finite q) (hk : Finite k)
  (a b : ℕ)
  (hx0 : ∀ (p d : Fin 1024) (r : Fin 8192), r.val = a + p.val → x0 (ix2 p d) = q (ix2 r d))
  (hx1 : ∀ (jj : Fin 512) (d : Fin 1024) (col : Fin 8192), col.val = b + jj.val → x1 (ix2 jj d) = k (ix2 col d))
  (ha : a + 1024 ≤ 8192) (hb : b + 512 ≤ 8192)

include hq hx0 ha in
theorem finite_x0 : Finite x0 := fun i => by
  obtain ⟨p, d, rfl⟩ : ∃ (p : Fin 1024) (d : Fin 1024), i = ix2 p d := ⟨i 0, i 1, eq_ix2 i⟩
  rw [hx0 p d ⟨a + p.val, by have := p.isLt; omega⟩ rfl]
  exact hq _

include hk hx1 hb in
theorem finite_x1 : Finite x1 := fun i => by
  obtain ⟨jj, d, rfl⟩ : ∃ (jj : Fin 512) (d : Fin 1024), i = ix2 jj d := ⟨i 0, i 1, eq_ix2 i⟩
  rw [hx1 jj d ⟨b + jj.val, by have := jj.isLt; omega⟩ rfl]
  exact hk _

include hqh hql hq hk hx0 hx1 ha hb in
/-- A score of the block: the tile row's inner product with the block's key row. -/
theorem scores_vars (p : Fin 1024) (jj : Fin 512) (r col : Fin 8192) (hr : r.val = a + p.val) (hc : col.val = b + jj.val) :
    scores0 x1 s (ix2 p jj) = ((score (re q) (re k) r col : ℝ) : EReal) := by
  unfold scores0
  rw [hqh, hql]
  refine (scores_finite x0 x1 (finite_x0 x0 q hq a hx0 ha) (finite_x1 x1 k hk b hx1 hb) p jj).trans ?_
  refine congrArg _ ?_
  unfold score
  refine Finset.sum_congr rfl fun d _ => ?_
  unfold re
  rw [hx0 p d r hr, hx1 jj d col hc]

include hqh hql hq hk hx0 hx1 ha hb in
/-- The new maximum of a tile row: the carried one against the block's scores. -/
theorem step_max (p : Fin 1024) (r : Fin 8192) (hr : r.val = a + p.val) (colf : Fin 512 → Fin 8192) (hcol : ∀ jj, (colf jj).val = b + jj.val) :
    (step0 x1 s).1 (ix2 p (0 : Fin 1))
      = max (s.1 (ix2 p (0 : Fin 1))) ((Finset.univ : Finset (Fin 512)).fold max (⊥ : EReal) fun jj => ((score (re q) (re k) r (colf jj) : ℝ) : EReal)) := by
  have hs : ∀ jj : Fin 512, k0_pay8 (F := Ideal) x1 s.2.2.1 s.2.2.1 s.2.2.2 (ix2 p jj) = ((score (re q) (re k) r (colf jj) : ℝ) : EReal) :=
    fun jj => scores_vars x0 x1 s hqh hql q k hq hk a b hx0 hx1 ha hb p jj r (colf jj) hr (hcol jj)
  show k0_pay2 (F := Ideal) (k0_pay9 (F := Ideal) x1 s.2.2.1 s.2.2.1 s.2.2.2 s.1) (ix2 p (0 : Fin 1)) = _
  rw [pay2_eq, pay9_apply]
  simp only [hs]

include hqh hql hq hk hx0 hx1 ha hb in
/-- The new sum of a tile row: the carried one rescaled to the new maximum, plus the block's shifted exponentials. -/
theorem step_sum (p : Fin 1024) (r : Fin 8192) (hr : r.val = a + p.val) (colf : Fin 512 → Fin 8192) (hcol : ∀ jj, (colf jj).val = b + jj.val) :
    (step0 x1 s).2.1 (ix2 p (0 : Fin 1))
      = Ideal.exp (s.1 (ix2 p (0 : Fin 1)) - (step0 x1 s).1 (ix2 p (0 : Fin 1))) * s.2.1 (ix2 p (0 : Fin 1))
        + ∑ jj : Fin 512, Ideal.exp (((score (re q) (re k) r (colf jj) : ℝ) : EReal) - (step0 x1 s).1 (ix2 p (0 : Fin 1))) := by
  have hs : ∀ jj : Fin 512, k0_pay8 (F := Ideal) x1 s.2.2.1 s.2.2.1 s.2.2.2 (ix2 p jj) = ((score (re q) (re k) r (colf jj) : ℝ) : EReal) :=
    fun jj => scores_vars x0 x1 s hqh hql q k hq hk a b hx0 hx1 ha hb p jj r (colf jj) hr (hcol jj)
  have h1 : (step0 x1 s).1 (ix2 p (0 : Fin 1)) = k0_pay9 (F := Ideal) x1 s.2.2.1 s.2.2.1 s.2.2.2 s.1 (ix2 p (0 : Fin 1)) := by
    show k0_pay2 (F := Ideal) (k0_pay9 (F := Ideal) x1 s.2.2.1 s.2.2.1 s.2.2.2 s.1) (ix2 p (0 : Fin 1)) = _
    rw [pay2_eq]
  rw [h1]
  show k0_pay1 (F := Ideal) (k0_pay10 (F := Ideal) x1 s.2.2.1 s.2.2.1 s.2.2.2 s.1 s.1 s.2.1) (ix2 p (0 : Fin 1)) = _
  rw [pay1_eq, pay10_apply]
  simp only [hs]

end Point

/-! ## Along the grid -/

section Grid

variable (K0 : Kit0V Ideal) (V : Entry Ideal) (c : Dev nD)
  (q k : (⟨2, ![8192, 1024]⟩ : Shape).Idx → EReal)
  (hQ : V c main_arg0 = q) (hK : V c main_arg1 = k) (hq : Finite q) (hk : Finite k)

/-- The carried state depends on the point's number only. -/
theorem st0_congr (n n' : ℕ) (h : n = n') (hn : n < cfg0.N) (hn' : n' < cfg0.N) : st0 V c n hn = st0 V c n' hn' := by
  subst h; rfl

/-- Two points of one query tile read the same tile. -/
theorem iblk0_q_congr (t t' : Fin cfg0.N) (h : t.val / 16 = t'.val / 16) : iblk0 V c 0 t = iblk0 V c 0 t' := by
  funext y
  have e1 := iblk0_q V c t y (((cfg0.win 0).blk t).view.emb y) (by
      obtain ⟨e0, e1, -⟩ := idx0 t
      show win0_0.index t (0 : Fin 2) * 1024 + 1 * (y 0).val = _; omega) (by
      obtain ⟨e0, e1, -⟩ := idx0 t
      show win0_0.index t (1 : Fin 2) * 1024 + 1 * (y 1).val = _; omega)
  have e2 := iblk0_q V c t' y (((cfg0.win 0).blk t).view.emb y) (by
      obtain ⟨e0, e1, -⟩ := idx0 t
      show win0_0.index t (0 : Fin 2) * 1024 + 1 * (y 0).val = _; omega) (by
      obtain ⟨e0, e1, -⟩ := idx0 t
      show win0_0.index t (1 : Fin 2) * 1024 + 1 * (y 1).val = _; omega)
  exact e1.trans e2.symm

/-- The state a point starts from holds the halves of the point's own query tile. -/
theorem in0_halves : ∀ (n : ℕ) (hn : n < cfg0.N),
    (in0 V c n hn).2.2.1 = k0_pay6 (F := Ideal) (iblk0 V c 0 ⟨n, hn⟩) ∧ (in0 V c n hn).2.2.2 = k0_pay7 (F := Ideal) (iblk0 V c 0 ⟨n, hn⟩) := by
  intro n
  induction n with
  | zero => intro hn; exact ⟨rfl, rfl⟩
  | succ n ih =>
    intro hn
    unfold in0
    by_cases h : (n + 1) % 16 = 0
    · rw [if_pos h]; exact ⟨rfl, rfl⟩
    · rw [if_neg h]
      have hn' : n < cfg0.N := Nat.lt_of_succ_lt hn
      have hst : st0 V c (n + 1 - 1) (Nat.lt_of_le_of_lt (Nat.sub_le _ _) hn) = st0 V c n hn' := by
        simp only [Nat.add_sub_cancel]
      rw [hst, st0_eq]
      have hb : iblk0 V c 0 ⟨n, hn'⟩ = iblk0 V c 0 ⟨n + 1, hn⟩ := iblk0_q_congr V c _ _ (by show n / 16 = (n + 1) / 16; omega)
      rw [← hb]
      exact ih hn'

include hQ in
theorem x0_read (t : Fin cfg0.N) (p d : Fin 1024) (r : Fin 8192) (hr : r.val = t.val / 16 * 1024 + p.val) :
    (iblk0 V c 0 t : FVec Ideal S1024x1024 .f32) (ix2 p d) = q (ix2 r d) :=
  (iblk0_q V c t (ix2 p d) (ix2 r d) hr rfl).trans (congrFun hQ _)

include hK in
theorem x1_read (t : Fin cfg0.N) (jj : Fin 512) (d : Fin 1024) (col : Fin 8192) (hc : col.val = t.val % 16 * 512 + jj.val) :
    (iblk0 V c 1 t : FVec Ideal S512x1024 .f32) (ix2 jj d) = k (ix2 col d) :=
  (iblk0_k V c t (ix2 jj d) (ix2 col d) hc rfl).trans (congrFun hK _)

theorem tile_bound (t : Fin cfg0.N) : t.val / 16 * 1024 + 1024 ≤ 8192 ∧ t.val % 16 * 512 + 512 ≤ 8192 := by
  have hN : cfg0.N = 128 := N_0
  have := t.isLt
  omega

include hQ hK hq hk in
/-- WHAT POINT t WRITES BACK of the scores is block t of the score matrix. -/
theorem flushed0_2 (t : Fin cfg0.N) :
    (K0.dat V c).flushed 2 t = ((cfg0.win 2).blk t).view.read (Elt Ideal) (scoreArr q k) := by
  show (cfg0.win 2).cut (grid0.coords t) ((K0.dat V c).after 2 t) = _
  rw [K0.after2]
  funext y
  obtain ⟨p, jj, rfl⟩ : ∃ (p : Fin 1024) (jj : Fin 512), y = ix2 p jj := ⟨y 0, y 1, eq_ix2 y⟩
  obtain ⟨-, -, -, -, e0, e1, -⟩ := idx0 t
  show scores0 (iblk0 V c 1 t) (in0 V c t.val t.isLt) (ix2 p jj) = scoreArr q k (((cfg0.win 2).blk t).view.emb (ix2 p jj))
  unfold scoreArr
  exact scores_vars (iblk0 V c 0 t) (iblk0 V c 1 t) (in0 V c t.val t.isLt) (in0_halves V c t.val t.isLt).1 (in0_halves V c t.val t.isLt).2
    q k hq hk (t.val / 16 * 1024) (t.val % 16 * 512) (fun p d r hr => x0_read V c q hQ t p d r hr) (fun jj d col hc => x1_read V c k hK t jj d col hc)
    (tile_bound t).1 (tile_bound t).2 p jj _ _
    (by show win0_2.index t (0 : Fin 2) * 1024 + 1 * p.val = _; omega)
    (by show win0_2.index t (1 : Fin 2) * 512 + 1 * jj.val = _; omega)

include hQ hK hq hk in
/-- THE SCORE MATRIX after the score kernel. -/
theorem arr0_scores : (K0.dat V c).arrAt 2 cfg0.N = scoreArr q k :=
  (K0.dat V c).arrAt_eq_of_cover 2 (scoreArr q k) (fun t _ => flushed0_2 K0 V c q k hQ hK hq hk t) cover0_2

/-! ### The carried maximum and sum along a tile -/

/-- The key column of block b, position jj. -/
def colOf (b : ℕ) (jj : Fin 512) : Fin 8192 := ⟨(512 * b + jj.val) % 8192, Nat.mod_lt _ (by norm_num)⟩

theorem colOf_val (b : ℕ) (hb : b < 16) (jj : Fin 512) : (colOf b jj).val = 512 * b + jj.val := by
  unfold colOf; have := jj.isLt; simp only; omega

/-- The carried maximum of tile i, row p, before key block b (b < 16) and after the last (b = 16). -/
def mSeq (i : ℕ) (hi : i < 8) (p : Fin 1024) (b : ℕ) : EReal :=
  if hb : b < 16 then (in0 V c (16 * i + b) (by have hN : cfg0.N = 128 := N_0; omega)).1 (ix2 p (0 : Fin 1))
  else (st0 V c (16 * i + 15) (by have hN : cfg0.N = 128 := N_0; omega)).1 (ix2 p (0 : Fin 1))

/-- The carried sum, likewise. -/
def lSeq (i : ℕ) (hi : i < 8) (p : Fin 1024) (b : ℕ) : EReal :=
  if hb : b < 16 then (in0 V c (16 * i + b) (by have hN : cfg0.N = 128 := N_0; omega)).2.1 (ix2 p (0 : Fin 1))
  else (st0 V c (16 * i + 15) (by have hN : cfg0.N = 128 := N_0; omega)).2.1 (ix2 p (0 : Fin 1))

/-- Before block b + 1 (or after the last block) the state is what point 16·i + b left. -/
theorem seq_succ (i : ℕ) (hi : i < 8) (p : Fin 1024) (b : ℕ) (hb : b < 16) :
    mSeq V c i hi p (b + 1) = (st0 V c (16 * i + b) (by have hN : cfg0.N = 128 := N_0; omega)).1 (ix2 p (0 : Fin 1))
    ∧ lSeq V c i hi p (b + 1) = (st0 V c (16 * i + b) (by have hN : cfg0.N = 128 := N_0; omega)).2.1 (ix2 p (0 : Fin 1)) := by
  have hN : cfg0.N = 128 := N_0
  unfold mSeq lSeq
  by_cases h : b + 1 < 16
  · rw [dif_pos h, dif_pos h]
    have hin : in0 V c (16 * i + (b + 1)) (by omega) = st0 V c (16 * i + b) (by omega) := by
      unfold in0
      rw [if_neg (by omega)]
      simp only [show 16 * i + (b + 1) - 1 = 16 * i + b from by omega]
    rw [hin]; exact ⟨rfl, rfl⟩
  · rw [dif_neg h, dif_neg h]
    have hb15 : b = 15 := by omega
    subst hb15
    exact ⟨rfl, rfl⟩

include hQ hK hq hk in
/-- The carried pair follows the streaming update over the tile's 16 key blocks. -/
theorem seq_step (i : ℕ) (hi : i < 8) (p : Fin 1024) (r : Fin 8192) (hr : r.val = i * 1024 + p.val) (b : ℕ) (hb : b < 16) :
    mSeq V c i hi p (b + 1) = max (mSeq V c i hi p b)
        ((Finset.univ : Finset (Fin 512)).fold max (⊥ : EReal) fun jj => ((score (re q) (re k) r (colOf b jj) : ℝ) : EReal))
    ∧ lSeq V c i hi p (b + 1) = Ideal.exp (mSeq V c i hi p b - mSeq V c i hi p (b + 1)) * lSeq V c i hi p b
        + ∑ jj : Fin 512, Ideal.exp (((score (re q) (re k) r (colOf b jj) : ℝ) : EReal) - mSeq V c i hi p (b + 1)) := by
  have hN : cfg0.N = 128 := N_0
  have hlt : 16 * i + b < cfg0.N := by omega
  obtain ⟨em, el⟩ := seq_succ V c i hi p b hb
  have hmb : mSeq V c i hi p b = (in0 V c (16 * i + b) hlt).1 (ix2 p (0 : Fin 1)) := by unfold mSeq; rw [dif_pos hb]
  have hlb : lSeq V c i hi p b = (in0 V c (16 * i + b) hlt).2.1 (ix2 p (0 : Fin 1)) := by unfold lSeq; rw [dif_pos hb]
  have hdiv : (16 * i + b) / 16 = i := by omega
  have hmod : (16 * i + b) % 16 = b := by omega
  have hx0 : ∀ (p d : Fin 1024) (r : Fin 8192), r.val = i * 1024 + p.val → (iblk0 V c 0 ⟨16 * i + b, hlt⟩ : FVec Ideal S1024x1024 .f32) (ix2 p d) = q (ix2 r d) :=
    fun p d r hr => x0_read V c q hQ ⟨16 * i + b, hlt⟩ p d r (by show r.val = (16 * i + b) / 16 * 1024 + p.val; rw [hdiv]; exact hr)
  have hx1 : ∀ (jj : Fin 512) (d : Fin 1024) (col : Fin 8192), col.val = b * 512 + jj.val → (iblk0 V c 1 ⟨16 * i + b, hlt⟩ : FVec Ideal S512x1024 .f32) (ix2 jj d) = k (ix2 col d) :=
    fun jj d col hc => x1_read V c k hK ⟨16 * i + b, hlt⟩ jj d col (by show col.val = (16 * i + b) % 16 * 512 + jj.val; rw [hmod]; exact hc)
  have hcol : ∀ jj : Fin 512, (colOf b jj).val = b * 512 + jj.val := fun jj => by rw [colOf_val b hb jj]; omega
  have hh := in0_halves V c (16 * i + b) hlt
  rw [em, el, hmb, hlb, st0_eq]
  refine ⟨step_max _ _ _ hh.1 hh.2 q k hq hk (i * 1024) (b * 512) hx0 hx1 (by omega) (by omega) p r hr (colOf b) hcol, ?_⟩
  exact step_sum _ _ _ hh.1 hh.2 q k hq hk (i * 1024) (b * 512) hx0 hx1 (by omega) (by omega) p r hr (colOf b) hcol

theorem seq_zero (i : ℕ) (hi : i < 8) (p : Fin 1024) : mSeq V c i hi p 0 = ⊥ ∧ lSeq V c i hi p 0 = 0 := by
  have hN : cfg0.N = 128 := N_0
  unfold mSeq lSeq
  rw [dif_pos (by norm_num), dif_pos (by norm_num)]
  have hin : in0 V c (16 * i + 0) (by omega) = init0 (iblk0 V c 0 ⟨16 * i + 0, by omega⟩) := by
    unfold in0; rw [if_pos (by omega)]
  rw [hin]
  exact ⟨pay4_apply p, pay5_apply p⟩

include hQ hK hq hk in
/-- After a tile's last key block: the row's maximum and its softmax denominator. -/
theorem seq_last (i : ℕ) (hi : i < 8) (p : Fin 1024) (r : Fin 8192) (hr : r.val = i * 1024 + p.val) :
    mSeq V c i hi p 16 = ((rowMax (re q) (re k) r : ℝ) : EReal) ∧ lSeq V c i hi p 16 = ((rowSum (re q) (re k) r : ℝ) : EReal) :=
  Cert.LibOnlineSoftmax.streaming_softmax (n := 8192) (w := 512) (N := 16) (by norm_num) (by norm_num)
    (fun col : Fin 8192 => score (re q) (re k) r col) Finset.univ_nonempty
    colOf (fun b hb jj => colOf_val b hb jj)
    (mSeq V c i hi p) (lSeq V c i hi p) (seq_zero V c i hi p).1 (seq_zero V c i hi p).2
    (fun b hb => (seq_step V c q k hQ hK hq hk i hi p r hr b hb).1)
    (fun b hb => (seq_step V c q k hQ hK hq hk i hi p r hr b hb).2)

include hQ hK hq hk in
/-- WHAT A TILE'S LAST POINT WRITES BACK of the statistics is the tile's block of the column of statistics. -/
theorem flushed0_3 (t : Fin cfg0.N) (hf : (cfg0.win 3).flush t = true) :
    (K0.dat V c).flushed 3 t = ((cfg0.win 3).blk t).view.read (Elt Ideal) (lseArr q k) := by
  have hN : cfg0.N = 128 := N_0
  have ht15 : t.val % 16 = 15 := (flush0_3 t).mp hf
  have hi : t.val / 16 < 8 := by have := t.isLt; omega
  show (cfg0.win 3).cut (grid0.coords t) ((K0.dat V c).after 3 t) = _
  rw [K0.after3]
  funext y
  obtain ⟨p, z, rfl⟩ : ∃ (p : Fin 1024) (z : Fin 1), y = ix2 p z := ⟨y 0, y 1, eq_ix2 y⟩
  obtain rfl : z = 0 := Subsingleton.elim _ _
  obtain ⟨-, -, -, -, -, -, e0, e1⟩ := idx0 t
  show k0_pay3 (F := Ideal) (st0 V c t.val t.isLt).1 (st0 V c t.val t.isLt).2.1 (ix2 p (0 : Fin 1)) = lseArr q k (((cfg0.win 3).blk t).view.emb (ix2 p (0 : Fin 1)))
  rw [pay3_apply]
  have hr : ((((cfg0.win 3).blk t).view.emb (ix2 p (0 : Fin 1))) 0).val = t.val / 16 * 1024 + p.val := by
    show win0_3.index t (0 : Fin 2) * 1024 + 1 * p.val = _; omega
  obtain ⟨hm, hl⟩ := seq_last V c q k hQ hK hq hk (t.val / 16) hi p ((((cfg0.win 3).blk t).view.emb (ix2 p (0 : Fin 1))) 0) hr
  have ht : t.val = 16 * (t.val / 16) + 15 := by omega
  have hm' : mSeq V c (t.val / 16) hi p 16 = (st0 V c t.val t.isLt).1 (ix2 p (0 : Fin 1)) := by
    unfold mSeq; rw [dif_neg (by norm_num), st0_congr V c _ _ ht.symm _ t.isLt]
  have hl' : lSeq V c (t.val / 16) hi p 16 = (st0 V c t.val t.isLt).2.1 (ix2 p (0 : Fin 1)) := by
    unfold lSeq; rw [dif_neg (by norm_num), st0_congr V c _ _ ht.symm _ t.isLt]
  rw [← hm', ← hl', hm, hl]
  rfl

include hQ hK hq hk in
/-- THE COLUMN OF STATISTICS after the score kernel. -/
theorem arr0_lse : (K0.dat V c).arrAt 3 cfg0.N = lseArr q k :=
  (K0.dat V c).arrAt_eq_of_cover 3 (lseArr q k) (fun t hf => flushed0_3 K0 V c q k hQ hK hq hk t hf) cover0_3

end Grid

end Cert.KernelIdeal.Hand

end
-- ==== Proof.Val1.lean ====
/-
  What the normalising kernel leaves in its two arrays, over the extended reals.

  The kernel visits the point t = 8·i + j with the 1024 × 1024 block (i, j) of the score matrix, rows
  1024·i … of the column of row statistics and rows 1024·j … of the value matrix. When the score matrix holds
  the inner products s(r, c) and the statistic of row r is M(r) + log L(r), with M the row's maximum and
  L = Σ_c exp(s(r, c) − M(r)) ≥ 1, the weight the point stores at (p, c') is
  exp(s − (M + log L)) = exp(s − M) / L: the attention weight of row 1024·i + p and key 1024·j + c'. Every entry
  of the attention matrix lies in one point's block, so the matrix ends holding the attention weights.

  The context block of tile i starts from 0 at j = 0 and gains, at each j, the block's weights times the value
  rows 1024·j …; after the point j it holds the partial sums over the keys below 1024·(j + 1), and at j = 7,
  where it is written back, the whole sum over the 8192 keys: the context.
-/
import proofs.«167355_j84250078478576_2_alg».proof.Proof.KitsV
import proofs.«167355_j84250078478576_2_alg».proof.Proof.BlockReads
import proofs.«167355_j84250078478576_2_alg».proof.Proof.PayloadReads
import proofs.«167355_j84250078478576_2_alg».proof.Proof.MidSpec
import proofs.«167355_j84250078478576_2_alg».proof.Proof.LibOnlineSoftmax
import Idealize.ShloMosaic.Lib.Pipeline.Value

set_option maxRecDepth 16384

open scoped BigOperators

noncomputable section

namespace Cert.KernelIdeal.Hand

open Cert.KernelIdeal Cert.KernelIdeal.Gen
open Idealize.ShloMosaic Idealize.ShloMosaic.TcCoe Idealize.SL.Sem Idealize.ShloMosaic.ValueIdx
open Cert.Attn

/-! ## Rows and columns of the arrays under a point's blocks -/

/-- The array row under row p of the tile of point t. -/
def row1 (t : Fin cfg1.N) (p : Fin 1024) : Fin 8192 :=
  ⟨t.val / 8 * 1024 + p.val, by have := t.isLt; have hN : cfg1.N = 64 := N_1; have := p.isLt; omega⟩

/-- The key under column c of the block of point t. -/
def col1 (t : Fin cfg1.N) (cc : Fin 1024) : Fin 8192 :=
  ⟨t.val % 8 * 1024 + cc.val, by have := cc.isLt; omega⟩

/-- Entry (p, c) of the attention block of point t is entry (row, key) of the matrix. -/
theorem emb4 (t : Fin cfg1.N) (p cc : Fin 1024) :
    ((cfg1.win 4).blk t).view.emb (ix2 p cc) = ix2 (row1 t p) (col1 t cc) := by
  obtain ⟨-, -, -, -, -, -, -, -, e0, e1⟩ := idx1 t
  refine funext fun a => Fin.ext ?_
  match a with
  | ⟨0, _⟩ => show win1_4.index t (0 : Fin 2) * 1024 + 1 * p.val = t.val / 8 * 1024 + p.val; omega
  | ⟨1, _⟩ => show win1_4.index t (1 : Fin 2) * 1024 + 1 * cc.val = t.val % 8 * 1024 + cc.val; omega

/-- Entry (p, e) of the context block of point t is entry (row, e) of the context. -/
theorem emb3 (t : Fin cfg1.N) (p e : Fin 1024) :
    ((cfg1.win 3).blk t).view.emb (ix2 p e) = ix2 (row1 t p) e := by
  obtain ⟨-, -, -, -, -, -, e0, e1, -⟩ := idx1 t
  refine funext fun a => Fin.ext ?_
  match a with
  | ⟨0, _⟩ => show win1_3.index t (0 : Fin 2) * 1024 + 1 * p.val = t.val / 8 * 1024 + p.val; omega
  | ⟨1, _⟩ => show win1_3.index t (1 : Fin 2) * 1024 + 1 * e.val = e.val; omega

/-! ## A weight -/

/-- With the score s(r, j) and the row's statistic M(r) + log L(r), exp(score − statistic) is the attention
    weight of key j for row r. -/
theorem weight_eq (q k : Fin 8192 → Fin 1024 → ℝ) (s : FVec Ideal S1024x1024 .f32) (lse : FVec Ideal S1024x1 .f32)
    (p cc : Fin 1024) (r j : Fin 8192)
    (hs : s (ix2 p cc) = ((score q k r j : ℝ) : EReal))
    (hl : lse (ix2 p (0 : Fin 1)) = ((rowMax q k r : ℝ) : EReal) + Ideal.log ((rowSum q k r : ℝ) : EReal)) :
    k1_pay2 (F := Ideal) s lse (ix2 p cc) = ((attn q k r j : ℝ) : EReal) := by
  refine (PayRead.k1_pay2_apply s lse p cc).trans ?_
  rw [hs, hl]
  exact Cert.LibOnlineSoftmax.exp_sub_lse _ _ _ (lt_of_lt_of_le one_pos (one_le_rowSum q k r))

/-! ## Sums over the keys, block by block -/

/-- The sum of a family over the 8192 keys restricted to the keys below n. -/
def wsum (a : Fin 8192 → ℝ) (n : ℕ) : ℝ := ∑ x ∈ Finset.range n, if h : x < 8192 then a ⟨x, h⟩ else 0

theorem wsum_zero (a : Fin 8192 → ℝ) : wsum a 0 = 0 := by
  unfold wsum; rw [Finset.range_zero, Finset.sum_empty]

/-- The keys below 1024·(j + 1) are those below 1024·j and the 1024 keys of block j. -/
theorem wsum_block (a : Fin 8192 → ℝ) (j : ℕ) (col : Fin 1024 → Fin 8192)
    (hcol : ∀ cc, (col cc).val = j * 1024 + cc.val) :
    wsum a ((j + 1) * 1024) = wsum a (j * 1024) + ∑ cc : Fin 1024, a (col cc) := by
  unfold wsum
  rw [show (j + 1) * 1024 = j * 1024 + 1024 by omega, Finset.sum_range_add]
  refine congrArg (_ + ·) ?_
  rw [← Fin.sum_univ_eq_sum_range (fun x => if h : j * 1024 + x < 8192 then a ⟨j * 1024 + x, h⟩ else 0) 1024]
  refine Finset.sum_congr rfl fun cc _ => ?_
  have hc := hcol cc
  have hlt : j * 1024 + cc.val < 8192 := hc ▸ (col cc).isLt
  rw [dif_pos hlt]
  exact congrArg a (Fin.ext hc.symm)

/-- Below 8192 are all the keys. -/
theorem wsum_all (a : Fin 8192 → ℝ) : wsum a 8192 = ∑ j : Fin 8192, a j := by
  unfold wsum
  rw [← Fin.sum_univ_eq_sum_range (fun x => if h : x < 8192 then a ⟨x, h⟩ else 0) 8192]
  exact Finset.sum_congr rfl fun j _ => dif_pos j.isLt

/-! ## One step of the context accumulator -/

/-- With the accumulator's entry the real A, the weights of row r against the keys col c and the value entries
    real, the new entry is A plus the block's sum of weight times value. -/
theorem ctx_step (q k vr : Fin 8192 → Fin 1024 → ℝ) (s : FVec Ideal S1024x1024 .f32) (lse : FVec Ideal S1024x1 .f32)
    (acc : FVec Ideal S1024x1024 .f32) (vb : FVec Ideal S1024x1024 .bf16) (p e : Fin 1024) (r : Fin 8192)
    (col : Fin 1024 → Fin 8192) (A : ℝ)
    (hacc : acc (ix2 p e) = ((A : ℝ) : EReal))
    (hw : ∀ cc, k1_pay2 (F := Ideal) s lse (ix2 p cc) = ((attn q k r (col cc) : ℝ) : EReal))
    (hv : ∀ cc, vb (ix2 cc e) = ((vr (col cc) e : ℝ) : EReal)) :
    k1_pay3 (F := Ideal) s lse acc vb (ix2 p e)
      = ((A + ∑ cc : Fin 1024, attn q k r (col cc) * vr (col cc) e : ℝ) : EReal) := by
  refine (PayRead.k1_pay3_apply s lse acc vb p e).trans ?_
  rw [hacc, EReal.coe_add, PayRead.coe_sum]
  refine congrArg (_ + ·) (Finset.sum_congr rfl fun cc _ => ?_)
  rw [hw cc, hv cc, EReal.coe_mul]

section Arrays

variable (K1 : Kit1V Ideal) (V : Entry Ideal) (c : Dev nD)
variable (q k v : (⟨2, ![8192, 1024]⟩ : Shape).Idx → EReal)

/-- The score block of point t at (p, c). -/
theorem blk_score (hS : V c main_v1_0 = scoreArr q k) (t : Fin cfg1.N) (p cc : Fin 1024) :
    iblk1 V c 0 t (ix2 p cc) = ((score (re q) (re k) (row1 t p) (col1 t cc) : ℝ) : EReal) := by
  refine (iblk1_s V c t (ix2 p cc) (ix2 (row1 t p) (col1 t cc)) rfl rfl).trans ?_
  rw [hS]
  rfl

/-- The statistics block of point t at row p. -/
theorem blk_lse (hL : V c main_v1_1 = lseArr q k) (t : Fin cfg1.N) (p : Fin 1024) :
    iblk1 V c 1 t (ix2 p (0 : Fin 1))
      = ((rowMax (re q) (re k) (row1 t p) : ℝ) : EReal) + Ideal.log ((rowSum (re q) (re k) (row1 t p) : ℝ) : EReal) := by
  refine (iblk1_lse V c t (ix2 p (0 : Fin 1)) (ix2 (row1 t p) (0 : Fin 1)) rfl rfl).trans ?_
  rw [hL]
  rfl

/-- The weight point t stores at (p, c). -/
theorem blk_weight (hS : V c main_v1_0 = scoreArr q k) (hL : V c main_v1_1 = lseArr q k) (t : Fin cfg1.N)
    (p cc : Fin 1024) :
    k1_pay2 (F := Ideal) (iblk1 V c 0 t) (iblk1 V c 1 t) (ix2 p cc)
      = ((attn (re q) (re k) (row1 t p) (col1 t cc) : ℝ) : EReal) :=
  weight_eq (re q) (re k) (iblk1 V c 0 t) (iblk1 V c 1 t) p cc (row1 t p) (col1 t cc)
    (blk_score V c q k hS t p cc) (blk_lse V c q k hL t p)

/-- What point t writes back to the attention matrix is its block of the attention weights. -/
theorem flushed4_eq (hS : V c main_v1_0 = scoreArr q k) (hL : V c main_v1_1 = lseArr q k) (t : Fin cfg1.N) :
    (K1.dat V c).flushed 4 t = ((cfg1.win 4).blk t).view.read (Elt Ideal) (attnArr q k) := by
  show (cfg1.win 4).cut (grid1.coords t) ((K1.dat V c).after 4 t) = _
  rw [K1.after4]
  funext y
  obtain ⟨p, cc, rfl⟩ : ∃ (p : Fin 1024) (cc : Fin 1024), y = ix2 p cc := ⟨y 0, y 1, eq_ix2 y⟩
  show k1_pay2 (F := Ideal) (iblk1 V c 0 t) (iblk1 V c 1 t) (ix2 p cc)
    = attnArr q k (((cfg1.win 4).blk t).view.emb (ix2 p cc))
  rw [emb4 t p cc]
  exact blk_weight V c q k hS hL t p cc

/-- THE ATTENTION MATRIX after the run. -/
theorem arr1_attn (hS : V c main_v1_0 = scoreArr q k) (hL : V c main_v1_1 = lseArr q k) :
    (K1.dat V c).arrAt 4 cfg1.N = attnArr q k :=
  (K1.dat V c).arrAt_eq_of_cover 4 (attnArr q k) (fun t _ => flushed4_eq K1 V c q k hS hL t) cover1_4

/-- The summand of the context of row r at feature e: the weight of key j times the value entry. -/
def term (r : Fin 8192) (e : Fin 1024) (j : Fin 8192) : ℝ := attn (re q) (re k) r j * re v j e

/-- The value block of point t at (c, e). -/
theorem blk_v (hV : ∀ i, V c main_v0 i = v i) (hv : Finite v) (t : Fin cfg1.N) (cc e : Fin 1024) :
    iblk1 V c 2 t (ix2 cc e) = ((re v (col1 t cc) e : ℝ) : EReal) := by
  refine (iblk1_v V c t (ix2 cc e) (ix2 (col1 t cc) e) rfl rfl).trans ?_
  rw [hV]
  exact hv.eq_re (col1 t cc) e

theorem in1_reset (n : ℕ) (hn : n < cfg1.N) (h : n % 8 = 0) : in1 V c n hn = k1_pay1 (F := Ideal) := by
  unfold in1; rw [if_pos h]

theorem in1_carry (n : ℕ) (hn : n + 1 < cfg1.N) (h : ¬(n + 1) % 8 = 0) :
    in1 V c (n + 1) hn = st1 V c n (Nat.lt_of_succ_lt hn) := by
  unfold in1; rw [if_neg h]; rfl

/-- A point that starts from the partial sum over the keys before its block ends at the partial sum through it. -/
theorem st1_of_in1 (hS : V c main_v1_0 = scoreArr q k) (hL : V c main_v1_1 = lseArr q k)
    (hV : ∀ i, V c main_v0 i = v i) (hv : Finite v) (n : ℕ) (hn : n < cfg1.N) (p e : Fin 1024)
    (hin : in1 V c n hn (ix2 p e) = ((wsum (term q k v (row1 ⟨n, hn⟩ p) e) (n % 8 * 1024) : ℝ) : EReal)) :
    st1 V c n hn (ix2 p e) = ((wsum (term q k v (row1 ⟨n, hn⟩ p) e) ((n % 8 + 1) * 1024) : ℝ) : EReal) := by
  rw [st1_eq]
  refine (ctx_step (re q) (re k) (re v) _ _ _ _ p e (row1 ⟨n, hn⟩ p) (col1 ⟨n, hn⟩) _ hin
    (fun cc => blk_weight V c q k hS hL ⟨n, hn⟩ p cc) (fun cc => blk_v V c v hV hv ⟨n, hn⟩ cc e)).trans ?_
  refine congrArg (fun x : ℝ => (x : EReal)) ?_
  exact (wsum_block (term q k v (row1 ⟨n, hn⟩ p) e) (n % 8) (col1 ⟨n, hn⟩) (fun cc => rfl)).symm

/-- The accumulator after point n, at (p, e): the partial sum of the context of its row over the keys of the
    blocks the tile has visited. -/
theorem st1_apply (hS : V c main_v1_0 = scoreArr q k) (hL : V c main_v1_1 = lseArr q k)
    (hV : ∀ i, V c main_v0 i = v i) (hv : Finite v) (p e : Fin 1024) :
    ∀ (n : ℕ) (hn : n < cfg1.N),
      st1 V c n hn (ix2 p e) = ((wsum (term q k v (row1 ⟨n, hn⟩ p) e) ((n % 8 + 1) * 1024) : ℝ) : EReal) := by
  intro n
  induction n with
  | zero =>
    intro hn
    refine st1_of_in1 V c q k v hS hL hV hv 0 hn p e ?_
    rw [in1_reset V c 0 hn rfl, PayRead.k1_pay1_apply, Nat.zero_mod, Nat.zero_mul, wsum_zero, EReal.coe_zero]
  | succ n ih =>
    intro hn
    refine st1_of_in1 V c q k v hS hL hV hv (n + 1) hn p e ?_
    by_cases h : (n + 1) % 8 = 0
    · rw [in1_reset V c (n + 1) hn h, PayRead.k1_pay1_apply, h, Nat.zero_mul, wsum_zero, EReal.coe_zero]
    · have hr : row1 ⟨n, Nat.lt_of_succ_lt hn⟩ p = row1 ⟨n + 1, hn⟩ p :=
        Fin.ext (by show n / 8 * 1024 + p.val = (n + 1) / 8 * 1024 + p.val; omega)
      have hm : n % 8 + 1 = (n + 1) % 8 := by omega
      rw [in1_carry V c n hn h, ih (Nat.lt_of_succ_lt hn), hr, hm]

/-- What a tile's last point writes back to the context is its block of the context. -/
theorem flushed3_eq (hS : V c main_v1_0 = scoreArr q k) (hL : V c main_v1_1 = lseArr q k)
    (hV : ∀ i, V c main_v0 i = v i) (hv : Finite v) (t : Fin cfg1.N) (hf : (cfg1.win 3).flush t = true) :
    (K1.dat V c).flushed 3 t = ((cfg1.win 3).blk t).view.read (Elt Ideal) (ctxArr q k v) := by
  have h7 : t.val % 8 = 7 := (flush1_3 t).mp hf
  show (cfg1.win 3).cut (grid1.coords t) ((K1.dat V c).after 3 t) = _
  rw [K1.after3]
  funext y
  obtain ⟨p, e, rfl⟩ : ∃ (p : Fin 1024) (e : Fin 1024), y = ix2 p e := ⟨y 0, y 1, eq_ix2 y⟩
  show st1 V c t.val t.isLt (ix2 p e) = ctxArr q k v (((cfg1.win 3).blk t).view.emb (ix2 p e))
  rw [emb3 t p e, st1_apply V c q k v hS hL hV hv p e t.val t.isLt, h7]
  show ((wsum (term q k v (row1 t p) e) 8192 : ℝ) : EReal) = ((ctx (re q) (re k) (re v) (row1 t p) e : ℝ) : EReal)
  rw [wsum_all]
  rfl

/-- THE CONTEXT after the run. -/
theorem arr1_ctx (hS : V c main_v1_0 = scoreArr q k) (hL : V c main_v1_1 = lseArr q k)
    (hV : ∀ i, V c main_v0 i = v i) (hv : Finite v) :
    (K1.dat V c).arrAt 3 cfg1.N = ctxArr q k v :=
  (K1.dat V c).arrAt_eq_of_cover 3 (ctxArr q k v) (fun t hf => flushed3_eq K1 V c q k v hS hL hV hv t hf) cover1_3

end Arrays

end Cert.KernelIdeal.Hand

end
-- ==== Proof.KernelRun.lean ====
/-
  The two-kernel program computes attention, at the ideal values.

  From finite q, k, v: the score kernel leaves the score matrix and the column of row statistics; the normalising
  kernel, reading those and v (its bf16 cast is the identity at the ideal values), leaves the softmax weights
  and the context; the arguments end as launched.
-/
import proofs.«167355_j84250078478576_2_alg».proof.Proof.ValEntry
import proofs.«167355_j84250078478576_2_alg».proof.Proof.Val0
import proofs.«167355_j84250078478576_2_alg».proof.Proof.Val1

set_option maxRecDepth 16384

noncomputable section

namespace Cert.KernelIdeal.Hand

open Cert.KernelIdeal Cert.KernelIdeal.Gen
open Idealize.ShloMosaic Idealize.ShloMosaic.TcCoe Idealize.SL.Sem
open Cert.Attn

variable (K0 : Kit0V Ideal) (K1 : Kit1V Ideal)
variable (m : (ℓ : Loc nD τ sig) → Buf (Elt Ideal) ℓ) (ρ : Dev nD → PrngReg)
include K0 K1

/-- What the normalising kernel finds in the score buffer: the score matrix of the launched q and k. -/
theorem entry_scores (c : Dev nD) (hq : Finite (m ((c : Thread nD τ).loc main_arg0))) (hk : Finite (m ((c : Thread nD τ).loc main_arg1))) :
    V3 m ρ K0.toKit0 c main_v1_0 = scoreArr (m ((c : Thread nD τ).loc main_arg0)) (m ((c : Thread nD τ).loc main_arg1)) :=
  (V3_scores m ρ K0.toKit0 c).trans
    (arr0_scores K0 (V1 m ρ) c _ _ (V1_arg0 m ρ c) (V1_arg1 m ρ c) hq hk)

/-- And in the statistics buffer: the column of row statistics. -/
theorem entry_lse (c : Dev nD) (hq : Finite (m ((c : Thread nD τ).loc main_arg0))) (hk : Finite (m ((c : Thread nD τ).loc main_arg1))) :
    V3 m ρ K0.toKit0 c main_v1_1 = lseArr (m ((c : Thread nD τ).loc main_arg0)) (m ((c : Thread nD τ).loc main_arg1)) :=
  (V3_lse m ρ K0.toKit0 c).trans
    (arr0_lse K0 (V1 m ρ) c _ _ (V1_arg0 m ρ c) (V1_arg1 m ρ c) hq hk)

/-- And in the value buffer: v itself, the cast being the identity at the ideal values. -/
theorem entry_v (c : Dev nD) (i : S8192x1024.Idx) : V3 m ρ K0.toKit0 c main_v0 i = m ((c : Thread nD τ).loc main_arg2) i :=
  congrFun (V3_v0 m ρ K0.toKit0 c) i

set_option maxHeartbeats 2000000 in
/-- THE KERNEL'S RUN AT THE SPECIFICATION: from finite arguments every weakly fair execution terminates with the context
    and the attention weights of the launched arrays, the arguments unchanged. -/
theorem run_spec
    (h0 : ∀ c : Dev nD, Finite (m ((c : Thread nD τ).loc main_arg0)))
    (h1 : ∀ c : Dev nD, Finite (m ((c : Thread nD τ).loc main_arg1)))
    (h2 : ∀ c : Dev nD, Finite (m ((c : Thread nD τ).loc main_arg2))) :
    θ_run defs (onTc (τ := τ) (main (F := Ideal))) ⟨m, fun _ => 0, ρ⟩ (fun r => ∀ c : Dev nD,
      r.2.mem ((c.tc : Thread nD τ).loc main_v2_0) = ctxArr (m ((c.tc : Thread nD τ).loc main_arg0)) (m ((c.tc : Thread nD τ).loc main_arg1)) (m ((c.tc : Thread nD τ).loc main_arg2))
      ∧ r.2.mem ((c.tc : Thread nD τ).loc main_v2_1) = attnArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c).1.trans (arr1_ctx K1 (V3 m ρ K0.toKit0) c _ _ _ (entry_scores K0 K1 m ρ c (h0 c) (h1 c)) (entry_lse K0 K1 m ρ c (h0 c) (h1 c))
        (entry_v K0 K1 m ρ c) (h2 c)),
     (h c).2.1.trans (arr1_attn K1 (V3 m ρ K0.toKit0) c _ _ (entry_scores K0 K1 m ρ c (h0 c) (h1 c)) (entry_lse K0 K1 m ρ c (h0 c) (h1 c))),
     (h c).2.2⟩)
    (run_read m ρ K0.toKit0 K1.toKit1)

end Cert.KernelIdeal.Hand

end
-- ==== Proof.K0Runs.lean ====
/-
  Region 0's kernel body, run once per control case.

  The body at grid point t = 16·i + j branches twice on j: at j = 0 it restarts the carried state (row maximum −∞,
  row sum 0, the query tile split in two), and at j = 15 it stores the log-sum-exp m + log l into the fourth window.
  In between it folds one key block into the state and stores the block's raw scores. Here: the two conditions in
  closed form over the grid, where the fourth window is idle and not written back, and the body's triple in each of
  the three cases that occur — first key block, a middle one, the last — with every buffer's final contents written
  over the payloads of the printed program.
-/
import proofs.«167355_j84250078478576_2_alg».proof.Proof.KDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, decided over the grid -/

/-- The first branch is taken when the key-block coordinate is 0. -/
abbrev cond0_0 (i : grid0.Coords) : Prop := (Scalar.cmpi .ne (Scalar.extui (Scalar.cmpi .eq (BitVec.ofNat 32 (i 1).val) 0#32)) 0#32) = 1#1
/-- That is at the points t with t mod 16 = 0. -/
theorem hcond0_0 : ∀ t : Fin cfg0.N, cond0_0 (grid0.coords t) ↔ t.val % 16 = 0 :=
  (by decide +kernel : ∀ t : Fin grid0.N, cond0_0 (grid0.coords t) ↔ t.val % 16 = 0)

/-- The second branch is taken when the key-block coordinate is 15. -/
abbrev cond0_1 (i : grid0.Coords) : Prop := k0_cond2 i = 1#1
/-- That is at the points t with t mod 16 = 15. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last key block nothing is stored into the fourth window, -/
theorem idleAt0_3 : ∀ t : Fin cfg0.N, ¬cond0_1 (grid0.coords t) → cfg0.idle 3 (grid0.coords t) = true := by decide +kernel
/-- and its block is not written back there. -/
theorem noFlush0_3 : ∀ t : Fin cfg0.N, ¬cond0_1 (grid0.coords t) → (cfg0.win 3).flush t = false := by decide +kernel
/-- At the last key block it is stored into. -/
theorem liveAt0_3 : ∀ t : Fin cfg0.N, cond0_1 (grid0.coords t) → cfg0.idle 3 (grid0.coords t) = false := by decide +kernel

/-! ## The memrefs the body is called with -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
/-- The four scratch operands: the running maximum, the running sum, and the query tile's two halves. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1024 .bf16 := Memref.whole cc0_scratch2
abbrev scM0_3 : Memref sig .tc .vmem S1024x1024 .bf16 := Memref.whole cc0_scratch3

/-- The offsets of a whole-buffer access are zero on both axes. -/
theorem hz2 : (![0, 0] : Fin 2 → ℕ) = fun _ => 0 := by funext a; fin_cases a <;> rfl

/-! ## A whole-buffer store read back -/

/-- What a buffer reads after a list of stores whose last one is of the whole buffer: that store's value. -/
theorem read_wholeStore {Val : EltTy → Type} [∀ e, Nonempty (Val e)] {sig' : RefSig} {κ : Kind} {sp : Space} {S : Shape} {e : EltTy}
    (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons.mpr (Or.inl rfl), View.mem_set_unit_zero h inb y⟩)).trans
    (View.canon_cons_unit_zero h inb w L)

/-! ## The body's triple, case by case -/

set_option maxHeartbeats 1000000 in
/-- FIRST KEY BLOCK (the key-block coordinate is 0). Whatever the four scratch buffers hold, the body restarts the
    state from the query tile `x0`, folds the key block `x1` in, stores the block's scores, and leaves the fourth
    window as it found it. -/
theorem run0_A (c : Dev nD) (i : grid0.Coords)
    (arg2 : Memref sig .tc .vmem S1024x1024 .f32) (harg2 : arg2.IsWhole) (arg3 : Memref sig .tc .vmem S512x1024 .f32) (harg3 : arg3.IsWhole)
    (arg4 : Memref sig .tc .vmem S1024x512 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1024 .bf16) (harg8 : arg8.IsWhole) (arg9 : Memref sig .tc .vmem S1024x1024 .bf16) (harg9 : arg9.IsWhole)
    (hc0 : cond0_0 i) (hc1 : ¬cond0_1 i)
    (x0 : Vec F S1024x1024 .f32) (x1 : Vec F S512x1024 .f32) (xi3 : Vec F S1024x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xi3
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1
            ∗ owns (c : Thread nD τ) arg4 fullShare (scores0 x1 (init0 x0))
            ∗ owns (c : Thread nD τ) arg5 fullShare xi3
            ∗ owns (c : Thread nD τ) arg6 fullShare (step0 x1 (init0 x0)).1
            ∗ owns (c : Thread nD τ) arg7 fullShare (step0 x1 (init0 x0)).2.1
            ∗ owns (c : Thread nD τ) arg8 fullShare (step0 x1 (init0 x0)).2.2.1
            ∗ owns (c : Thread nD τ) arg9 fullShare (step0 x1 (init0 x0)).2.2.2) -∗ K ⟨⟩))
      ⊢ wp frame (wpE (defs₀ (F := F)) Variants.none c none) E (cc0__scores_lse_kernel i arg2 harg2 arg3 harg3 arg4 harg4 arg5 harg5 arg6 harg6 arg7 harg7 arg8 harg8 arg9 harg9) K := by
  simp only [cc0__scores_lse_kernel_eq_skeleton]; unfold cc0__scores_lse_kernel_skel
  simp only [k0_part1_eq_skeleton]; unfold k0_part1_skel
  unfold owns
  iintro ⟨⟨%f0, %hf0, H0⟩, ⟨%f1, %hf1, H1⟩, ⟨%d2, %f2, -, H2⟩, ⟨%f3, %hf3, H3⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (read_wholeStore (S := S1024x512) _ _ hz2 _ _ _).trans ?_
    sl_unfold_run_names
    simp only [View.readAt_eq_ld, harg2.read_unread, harg3.read_unread, harg6.read_unread, harg7.read_unread, harg8.read_unread, harg9.read_unread, View.ld_unit_zero (S := S1024x1024) hz2, View.ld_unit_zero (S := S512x1024) hz2, View.ld_unit_zero (S := S1024x1) hz2, View.readCov_cons_toLoadRect]
    rfl
  isplitl [H3]
  · iexists _; isplitr; · ipureintro; exact harg5.read_unread _
    iexact H3
  isplitl [HS0]
  · iexists _; isplitr
    swap; · iexact HS0
    ipureintro
    refine (read_wholeStore (S := S1024x1) _ _ hz2 _ _ _).trans ?_
    sl_unfold_run_names
    simp only [View.readAt_eq_ld, harg2.read_unread, harg3.read_unread, harg6.read_unread, harg7.read_unread, harg8.read_unread, harg9.read_unread, View.ld_unit_zero (S := S1024x1024) hz2, View.ld_unit_zero (S := S512x1024) hz2, View.ld_unit_zero (S := S1024x1) hz2, View.readCov_cons_toLoadRect]
    rfl
  isplitl [HS1]
  · iexists _; isplitr
    swap; · iexact HS1
    ipureintro
    refine (read_wholeStore (S := S1024x1) _ _ hz2 _ _ _).trans ?_
    sl_unfold_run_names
    simp only [View.readAt_eq_ld, harg2.read_unread, harg3.read_unread, harg6.read_unread, harg7.read_unread, harg8.read_unread, harg9.read_unread, View.ld_unit_zero (S := S1024x1024) hz2, View.ld_unit_zero (S := S512x1024) hz2, View.ld_unit_zero (S := S1024x1) hz2, View.readCov_cons_toLoadRect]
    rfl
  isplitl [HS2]
  · iexists _; isplitr
    swap; · iexact HS2
    ipureintro
    refine (read_wholeStore (S := S1024x1024) _ _ hz2 _ _ _).trans ?_
    sl_unfold_run_names
    simp only [View.readAt_eq_ld, harg2.read_unread, harg3.read_unread, harg6.read_unread, harg7.read_unread, harg8.read_unread, harg9.read_unread, View.ld_unit_zero (S := S1024x1024) hz2, View.ld_unit_zero (S := S512x1024) hz2, View.ld_unit_zero (S := S1024x1) hz2, View.readCov_cons_toLoadRect]
    rfl
  iexists _; isplitr
  swap; · iexact HS3
  ipureintro
  refine (read_wholeStore (S := S1024x1024) _ _ hz2 _ _ _).trans ?_
  sl_unfold_run_names
  simp only [View.readAt_eq_ld, harg2.read_unread, harg3.read_unread, harg6.read_unread, harg7.read_unread, harg8.read_unread, harg9.read_unread, View.ld_unit_zero (S := S1024x1024) hz2, View.ld_unit_zero (S := S512x1024) hz2, View.ld_unit_zero (S := S1024x1) hz2, View.readCov_cons_toLoadRect]
  rfl

set_option maxHeartbeats 1000000 in
/-- A MIDDLE KEY BLOCK (the key-block coordinate is neither 0 nor 15). From the state `s` the four scratch buffers
    carry, the body folds the key block `x1` in, stores the block's scores against `s`'s query halves, keeps the halves,
    and leaves the fourth window as it found it. -/
theorem run0_B (c : Dev nD) (i : grid0.Coords)
    (arg2 : Memref sig .tc .vmem S1024x1024 .f32) (harg2 : arg2.IsWhole) (arg3 : Memref sig .tc .vmem S512x1024 .f32) (harg3 : arg3.IsWhole)
    (arg4 : Memref sig .tc .vmem S1024x512 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1024 .bf16) (harg8 : arg8.IsWhole) (arg9 : Memref sig .tc .vmem S1024x1024 .bf16) (harg9 : arg9.IsWhole)
    (hc0 : ¬cond0_0 i) (hc1 : ¬cond0_1 i)
    (x0 : Vec F S1024x1024 .f32) (x1 : Vec F S512x1024 .f32) (s : St0 F) (xi3 : Vec F S1024x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xi3
        ∗ owns (c : Thread nD τ) arg6 fullShare s.1 ∗ owns (c : Thread nD τ) arg7 fullShare s.2.1
        ∗ owns (c : Thread nD τ) arg8 fullShare s.2.2.1 ∗ owns (c : Thread nD τ) arg9 fullShare s.2.2.2
        ∗ (iprop(owns (c : Thread nD τ) arg2 fullShare x0 ∗ owns (c : Thread nD τ) arg3 fullShare x1
            ∗ owns (c : Thread nD τ) arg4 fullShare (scores0 x1 s)
            ∗ owns (c : Thread nD τ) arg5 fullShare xi3
            ∗ owns (c : Thread nD τ) arg6 fullShare (step0 x1 s).1
            ∗ owns (c : Thread nD τ) arg7 fullShare (step0 x1 s).2.1
            ∗ owns (c : Thread nD τ) arg8 fullShare (step0 x1 s).2.2.1
            ∗ owns (c : Thread nD τ) arg9 fullShare (step0 x1 s).2.2.2) -∗ K ⟨⟩))
      ⊢ wp frame (wpE (defs₀ (F := F)) Variants.none c none) E (cc0__scores_lse_kernel i arg2 harg2 arg3 harg3 arg4 harg4 arg5 harg5 arg6 harg6 arg7 harg7 arg8 harg8 arg9 harg9) K := by
  simp only [cc0__scores_lse_kernel_eq_skeleton]; unfold cc0__scores_lse_kernel_skel
  simp only [k0_part1_eq_skeleton]; unfold k0_part1_skel
  unfold owns
  iintro ⟨⟨%f0, %hf0, H0⟩, ⟨%f1, %hf1, H1⟩, ⟨%d2, %f2, -, H2⟩, ⟨%f3, %hf3, H3⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg5.eq_unread hf3
  obtain rfl := harg6.eq_unread hfs0; obtain rfl := harg7.eq_unread hfs1; obtain rfl := harg8.eq_unread hfs2; obtain rfl := harg9.eq_unread hfs3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (read_wholeStore (S := S1024x512) _ _ hz2 _ _ _).trans ?_
    sl_unfold_run_names
    simp only [View.readAt_eq_ld, harg2.read_unread, harg3.read_unread, harg6.read_unread, harg7.read_unread, harg8.read_unread, harg9.read_unread, View.ld_unit_zero (S := S1024x1024) hz2, View.ld_unit_zero (S := S512x1024) hz2, View.ld_unit_zero (S := S1024x1) hz2, View.readCov_cons_toLoadRect]
    rfl
  isplitl [H3]
  · iexists _; isplitr; · ipureintro; exact harg5.read_unread _
    iexact H3
  isplitl [HS0]
  · iexists _; isplitr
    swap; · iexact HS0
    ipureintro
    refine (read_wholeStore (S := S1024x1) _ _ hz2 _ _ _).trans ?_
    sl_unfold_run_names
    simp only [View.readAt_eq_ld, harg2.read_unread, harg3.read_unread, harg6.read_unread, harg7.read_unread, harg8.read_unread, harg9.read_unread, View.ld_unit_zero (S := S1024x1024) hz2, View.ld_unit_zero (S := S512x1024) hz2, View.ld_unit_zero (S := S1024x1) hz2, View.readCov_cons_toLoadRect]
    rfl
  isplitl [HS1]
  · iexists _; isplitr
    swap; · iexact HS1
    ipureintro
    refine (read_wholeStore (S := S1024x1) _ _ hz2 _ _ _).trans ?_
    sl_unfold_run_names
    simp only [View.readAt_eq_ld, harg2.read_unread, harg3.read_unread, harg6.read_unread, harg7.read_unread, harg8.read_unread, harg9.read_unread, View.ld_unit_zero (S := S1024x1024) hz2, View.ld_unit_zero (S := S512x1024) hz2, View.ld_unit_zero (S := S1024x1) hz2, View.readCov_cons_toLoadRect]
    rfl
  isplitl [HS2]
  · iexists _; isplitr; · ipureintro; exact harg8.read_unread _
    iexact HS2
  iexists _; isplitr; · ipureintro; exact harg9.read_unread _
  iexact HS3

set_option maxHeartbeats 1000000 in
/-- THE LAST KEY BLOCK (the key-block coordinate is 15). As at a middle block, and then the fourth window receives
    the new maximum plus the logarithm of the new sum. -/
theorem run0_C (c : Dev nD) (i : grid0.Coords)
    (arg2 : Memref sig .tc .vmem S1024x1024 .f32) (harg2 : arg2.IsWhole) (arg3 : Memref sig .tc .vmem S512x1024 .f32) (harg3 : arg3.IsWhole)
    (arg4 : Memref sig .tc .vmem S1024x512 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1024 .bf16) (harg8 : arg8.IsWhole) (arg9 : Memref sig .tc .vmem S1024x1024 .bf16) (harg9 : arg9.IsWhole)
    (hc0 : ¬cond0_0 i) (hc1 : cond0_1 i)
    (x0 : Vec F S1024x1024 .f32) (x1 : Vec F S512x1024 .f32) (s : St0 F) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (∃ d, owns (c : Thread nD τ) arg5 fullShare d)
        ∗ owns (c : Thread nD τ) arg6 fullShare s.1 ∗ owns (c : Thread nD τ) arg7 fullShare s.2.1
        ∗ owns (c : Thread nD τ) arg8 fullShare s.2.2.1 ∗ owns (c : Thread nD τ) arg9 fullShare s.2.2.2
        ∗ (iprop(owns (c : Thread nD τ) arg2 fullShare x0 ∗ owns (c : Thread nD τ) arg3 fullShare x1
            ∗ owns (c : Thread nD τ) arg4 fullShare (scores0 x1 s)
            ∗ owns (c : Thread nD τ) arg5 fullShare (k0_pay3 (step0 x1 s).1 (step0 x1 s).2.1)
            ∗ owns (c : Thread nD τ) arg6 fullShare (step0 x1 s).1
            ∗ owns (c : Thread nD τ) arg7 fullShare (step0 x1 s).2.1
            ∗ owns (c : Thread nD τ) arg8 fullShare (step0 x1 s).2.2.1
            ∗ owns (c : Thread nD τ) arg9 fullShare (step0 x1 s).2.2.2) -∗ K ⟨⟩))
      ⊢ wp frame (wpE (defs₀ (F := F)) Variants.none c none) E (cc0__scores_lse_kernel i arg2 harg2 arg3 harg3 arg4 harg4 arg5 harg5 arg6 harg6 arg7 harg7 arg8 harg8 arg9 harg9) K := by
  simp only [cc0__scores_lse_kernel_eq_skeleton]; unfold cc0__scores_lse_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1
  obtain rfl := harg6.eq_unread hfs0; obtain rfl := harg7.eq_unread hfs1; obtain rfl := harg8.eq_unread hfs2; obtain rfl := harg9.eq_unread hfs3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (read_wholeStore (S := S1024x512) _ _ hz2 _ _ _).trans ?_
    sl_unfold_run_names
    simp only [View.readAt_eq_ld, harg2.read_unread, harg3.read_unread, harg6.read_unread, harg7.read_unread, harg8.read_unread, harg9.read_unread, View.ld_unit_zero (S := S1024x1024) hz2, View.ld_unit_zero (S := S512x1024) hz2, View.ld_unit_zero (S := S1024x1) hz2, View.readCov_cons_toLoadRect]
    rfl
  isplitl [H3]
  · iexists _; isplitr
    swap; · iexact H3
    ipureintro
    refine (read_wholeStore (S := S1024x1) _ _ hz2 _ _ _).trans ?_
    sl_unfold_run_names
    simp only [View.readAt_eq_ld, harg2.read_unread, harg3.read_unread, harg6.read_unread, harg7.read_unread, harg8.read_unread, harg9.read_unread, View.ld_unit_zero (S := S1024x1024) hz2, View.ld_unit_zero (S := S512x1024) hz2, View.ld_unit_zero (S := S1024x1) hz2, View.readCov_cons_toLoadRect]
    rfl
  isplitl [HS0]
  · iexists _; isplitr
    swap; · iexact HS0
    ipureintro
    refine (read_wholeStore (S := S1024x1) _ _ hz2 _ _ _).trans ?_
    sl_unfold_run_names
    simp only [View.readAt_eq_ld, harg2.read_unread, harg3.read_unread, harg6.read_unread, harg7.read_unread, harg8.read_unread, harg9.read_unread, View.ld_unit_zero (S := S1024x1024) hz2, View.ld_unit_zero (S := S512x1024) hz2, View.ld_unit_zero (S := S1024x1) hz2, View.readCov_cons_toLoadRect]
    rfl
  isplitl [HS1]
  · iexists _; isplitr
    swap; · iexact HS1
    ipureintro
    refine (read_wholeStore (S := S1024x1) _ _ hz2 _ _ _).trans ?_
    sl_unfold_run_names
    simp only [View.readAt_eq_ld, harg2.read_unread, harg3.read_unread, harg6.read_unread, harg7.read_unread, harg8.read_unread, harg9.read_unread, View.ld_unit_zero (S := S1024x1024) hz2, View.ld_unit_zero (S := S512x1024) hz2, View.ld_unit_zero (S := S1024x1) hz2, View.readCov_cons_toLoadRect]
    rfl
  isplitl [HS2]
  · iexists _; isplitr; · ipureintro; exact harg8.read_unread _
    iexact HS2
  iexists _; isplitr; · ipureintro; exact harg9.read_unread _
  iexact HS3

end Cert.KernelIdeal.Hand

end
-- ==== Proof.K0Body.lean ====
/-
  Region 0's proof data and body obligation, at the contents `V` the region finds.

  After point n the four scratch buffers hold the carried state `st0 V c n`: the running row maximum, the running row
  sum and the query tile's two halves. Point t stores into the third window the scores of its key block against the
  halves of the state it starts from (`in0`), and, at a tile's last key block, into the fourth window the maximum
  plus the logarithm of the sum of the state it ends in. The body obligation is the three case runs, chosen by
  t mod 16.
-/
import proofs.«167355_j84250078478576_2_alg».proof.Proof.K0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## The carried state point by point, at a point of the grid -/

theorem st0_at (c : Dev nD) (t : Fin cfg0.N) : st0 V c t.val t.isLt = step0 (iblk0 V c 1 t) (in0 V c t.val t.isLt) :=
  st0_eq V c t.val t.isLt
/-- A tile's first key block starts from the fresh state. -/
theorem in0_first (c : Dev nD) (t : Fin cfg0.N) (h : t.val % 16 = 0) : in0 V c t.val t.isLt = init0 (iblk0 V c 0 t) := if_pos h
/-- Every other key block starts from what the point before left. -/
theorem in0_next (c : Dev nD) (t : Fin cfg0.N) (h : ¬t.val % 16 = 0) :
    in0 V c t.val t.isLt = st0 V c (t.val - 1) (Nat.lt_of_le_of_lt (Nat.sub_le _ _) t.isLt) := if_neg h

/-! ## The input windows -/

/-- Input window 0's current staging buffer holds its block at every point, fetched there or not: unfetched, its block
    index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: unfetched, its block
    index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The invariant -/

/-- The core's other scoped buffers (the second kernel's staging buffers and scratch), each at some contents. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_scratch0), ((c : Thread nD τ).loc cc1_scratch0) ↦{fullShare} f))

/-- The class invariant with the four scratch buffers as memrefs owned at some contents. -/
theorem PhiA0_eq (c : Dev nD) :
    (Pipeline.ΦA spec0 c : sProp 𝕄)
      = iprop(iprop((∃ d, owns (c : Thread nD τ) scM0_0 fullShare d)
      ∗ (∃ d, owns (c : Thread nD τ) scM0_1 fullShare d)
      ∗ (∃ d, owns (c : Thread nD τ) scM0_2 fullShare d)
      ∗ (∃ d, owns (c : Thread nD τ) scM0_3 fullShare d)
      ∗ rest0 c) ∗ (∃ r, prngReg c r)) := by
  unfold Pipeline.ΦA rest0; rw [scopedRest0_eq]; simp only [scM0_0, scM0_1, scM0_2, scM0_3, owns_whole]; try rfl

/-- The region invariant before position `n`: before the first point the class's (every scratch buffer at anything);
    afterwards the four scratch buffers at the components of the state the point before left, the other scoped
    buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare (st0 V c n hn).1
      ∗ owns (c : Thread nD τ) scM0_1 fullShare (st0 V c n hn).2.1
      ∗ owns (c : Thread nD τ) scM0_2 fullShare (st0 V c n hn).2.2.1
      ∗ owns (c : Thread nD τ) scM0_3 fullShare (st0 V c n hn).2.2.2
      ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (st0 V c n hn).1
      ∗ owns (c : Thread nD τ) scM0_1 fullShare (st0 V c n hn).2.1
      ∗ owns (c : Thread nD τ) scM0_2 fullShare (st0 V c n hn).2.2.1
      ∗ owns (c : Thread nD τ) scM0_3 fullShare (st0 V c n hn).2.2.2
      ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare (st0 V c (n - 1) (by omega)).1
      ∗ owns (c : Thread nD τ) scM0_1 fullShare (st0 V c (n - 1) (by omega)).2.1
      ∗ owns (c : Thread nD τ) scM0_2 fullShare (st0 V c (n - 1) (by omega)).2.2.1
      ∗ owns (c : Thread nD τ) scM0_3 fullShare (st0 V c (n - 1) (by omega)).2.2.2
      ∗ rest0 c) ∗ (∃ r, prngReg c r)) := by
  cases n with
  | zero => exact absurd rfl hz
  | succ n => rfl

/-! ## The proof data -/

/-- The proof data of pipeline 0 on core `c`: the arrays as the region finds them; after the body at point `t` each
    input's buffer at its block, the third window's at the key block's scores against the halves of the state the
    point starts from, the fourth window's at the maximum plus the logarithm of the sum of the state the point ends
    in (consulted only at a tile's last key block); the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => scores0 (iblk0 V c 1 t) (in0 V c t.val t.isLt)
    | ⟨3, _⟩ => k0_pay3 (st0 V c t.val t.isLt).1 (st0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = scores0 (iblk0 V c 1 t) (in0 V c t.val t.isLt) := by dsimp only [dat0]
theorem after0_3 (c : Dev nD) (t : Fin cfg0.N) :
    (dat0 V c).after 3 t = k0_pay3 (st0 V c t.val t.isLt).1 (st0 V c t.val t.isLt).2.1 := by dsimp only [dat0]

theorem hq0 (c : Dev nD) (w : Fin cfg0.W) : (dat0 V c).q w = fullShare := rfl
theorem howed0 (c : Dev nD) (t : Fin (cfg0.N + 1)) : (dat0 V c).owed t = 0 := rfl
theorem hrec0 (c : Dev nD) (t : Fin (cfg0.N + 1)) : (dat0 V c).recorded t = Set.univ := rfl

theorem PhiS_castSucc (c : Dev nD) (t : Fin cfg0.N) :
    (dat0 V c).Φ t.castSucc = PhiS V c t.val (Nat.le_of_lt t.isLt) := by
  dsimp only [dat0]; simp only [Fin.coe_castSucc]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- Before any point the invariant gives every scratch buffer at some contents: the state's name is forgotten. -/
theorem PhiS_weak (c : Dev nD) (n : ℕ) (h : n ≤ cfg0.N) :
    PhiS V c n h ⊢ (iprop(iprop((∃ d, owns (c : Thread nD τ) scM0_0 fullShare d)
      ∗ (∃ d, owns (c : Thread nD τ) scM0_1 fullShare d)
      ∗ (∃ d, owns (c : Thread nD τ) scM0_2 fullShare d)
      ∗ (∃ d, owns (c : Thread nD τ) scM0_3 fullShare d)
      ∗ rest0 c) ∗ (∃ r, prngReg c r)) : sProp 𝕄) := by
  by_cases hz : n = 0
  · rw [PhiS_zero V c n h hz, PhiA0_eq]
  · rw [PhiS_pos V c n h hz]
    iintro ⟨⟨HS0, HS1, HS2, HS3, Hr⟩, Hg⟩
    isplitl [HS0 HS1 HS2 HS3 Hr]
    · isplitl [HS0]; · iexists _; iexact HS0
      isplitl [HS1]; · iexists _; iexact HS1
      isplitl [HS2]; · iexists _; iexact HS2
      isplitl [HS3]; · iexists _; iexact HS3
      iexact Hr
    iexact Hg

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' memrefs hold their blocks; t mod 16 says which case the point is in. At a
    tile's first key block the scratch buffers may hold anything and the state restarts; elsewhere they hold the state
    the point before left, which is the state this point starts from. Either way the run leaves them at this point's
    state, the third window at this point's scores, and the fourth window untouched except at a tile's last key block,
    where it receives the maximum plus the logarithm of the sum. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [PhiS_castSucc V c t]
  by_cases h0 : t.val % 16 = 0
  · -- a tile's first key block
    have h1 : ¬t.val % 16 = 15 := by omega
    rw [Dat.leavesExact_idle (dat0 V c) 3 t (idleAt0_3 t (fun h => h1 ((hcond0_1 t).mp h))) (noFlush0_3 t (fun h => h1 ((hcond0_1 t).mp h)))]
    rw [st0_at V c t, in0_first V c t h0]
    iintro ⟨HΦ, Ho, ⟨%d0, H0⟩, ⟨%d1, H1⟩, ⟨%d2, H2⟩, ⟨%d3, H3⟩⟩
    ihave HΦ' := (PhiS_weak V c t.val _) $$ HΦ
    icases HΦ' with ⟨⟨HS0, HS1, HS2, HS3, Hr⟩, Hg⟩
    iapply (run0_A c (grid0.coords t) _ _ _ _ _ _ _ _ _ _ _ _ _ _ _ _ ((hcond0_0 t).mpr h0) (fun h => h1 ((hcond0_1 t).mp h)) (iblk0 V c 0 t) (iblk0 V c 1 t) _ Set.univ _)
    isplitl [H0]; · iexact H0
    isplitl [H1]; · iexact H1
    isplitl [H2]; · iexists _; iexact H2
    isplitl [H3]; · iexact H3
    isplitl [HS0]; · iexact HS0
    isplitl [HS1]; · iexact HS1
    isplitl [HS2]; · iexact HS2
    isplitl [HS3]; · iexact HS3
    iintro ⟨H0, H1, H2, H3, HS0, HS1, HS2, HS3⟩
    isplitl [HS0 HS1 HS2 HS3 Hr Hg]
    · isplitl [HS0 HS1 HS2 HS3 Hr]
      · isplitl [HS0]; · iexact HS0
        isplitl [HS1]; · iexact HS1
        isplitl [HS2]; · iexact HS2
        isplitl [HS3]; · iexact HS3
        iexact Hr
      iexact Hg
    isplitl [Ho]; · iexact Ho
    isplitl [H0]; · iexact H0
    isplitl [H1]; · iexact H1
    isplitl [H2]; · iexact H2
    iexists _; iexact H3
  · have hz : t.val ≠ 0 := fun e => h0 (by rw [e])
    rw [PhiS_pos V c _ _ hz]
    by_cases h1 : t.val % 16 = 15
    · -- a tile's last key block
      rw [show (dat0 V c).leavesExact 3 t = owns (c : Thread nD τ) (ms0_3 t) fullShare ((dat0 V c).after 3 t) from by
        unfold Dat.leavesExact; rw [liveAt0_3 t ((hcond0_1 t).mpr h1)], after0_3]
      rw [st0_at V c t, in0_next V c t h0]
      iintro ⟨⟨⟨HS0, HS1, HS2, HS3, Hr⟩, Hg⟩, Ho, ⟨%d0, H0⟩, ⟨%d1, H1⟩, ⟨%d2, H2⟩, ⟨%d3, H3⟩⟩
      iapply (run0_C c (grid0.coords t) _ _ _ _ _ _ _ _ _ _ _ _ _ _ _ _ (fun h => h0 ((hcond0_0 t).mp h)) ((hcond0_1 t).mpr h1) (iblk0 V c 0 t) (iblk0 V c 1 t) (st0 V c (t.val - 1) (Nat.lt_of_le_of_lt (Nat.sub_le _ _) t.isLt)) Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      isplitl [HS2]; · iexact HS2
      isplitl [HS3]; · iexact HS3
      iintro ⟨H0, H1, H2, H3, HS0, HS1, HS2, HS3⟩
      isplitl [HS0 HS1 HS2 HS3 Hr Hg]
      · isplitl [HS0 HS1 HS2 HS3 Hr]
        · isplitl [HS0]; · iexact HS0
          isplitl [HS1]; · iexact HS1
          isplitl [HS2]; · iexact HS2
          isplitl [HS3]; · iexact HS3
          iexact Hr
        iexact Hg
      isplitl [Ho]; · iexact Ho
      isplitl [H0]; · iexact H0
      isplitl [H1]; · iexact H1
      isplitl [H2]; · iexact H2
      iexact H3
    · -- a middle key block
      rw [Dat.leavesExact_idle (dat0 V c) 3 t (idleAt0_3 t (fun h => h1 ((hcond0_1 t).mp h))) (noFlush0_3 t (fun h => h1 ((hcond0_1 t).mp h)))]
      rw [st0_at V c t, in0_next V c t h0]
      iintro ⟨⟨⟨HS0, HS1, HS2, HS3, Hr⟩, Hg⟩, Ho, ⟨%d0, H0⟩, ⟨%d1, H1⟩, ⟨%d2, H2⟩, ⟨%d3, H3⟩⟩
      iapply (run0_B c (grid0.coords t) _ _ _ _ _ _ _ _ _ _ _ _ _ _ _ _ (fun h => h0 ((hcond0_0 t).mp h)) (fun h => h1 ((hcond0_1 t).mp h)) (iblk0 V c 0 t) (iblk0 V c 1 t) (st0 V c (t.val - 1) (Nat.lt_of_le_of_lt (Nat.sub_le _ _) t.isLt)) _ Set.univ _)
      isplitl [H0]; · iexact H0
      isplitl [H1]; · iexact H1
      isplitl [H2]; · iexists _; iexact H2
      isplitl [H3]; · iexact H3
      isplitl [HS0]; · iexact HS0
      isplitl [HS1]; · iexact HS1
      isplitl [HS2]; · iexact HS2
      isplitl [HS3]; · iexact HS3
      iintro ⟨H0, H1, H2, H3, HS0, HS1, HS2, HS3⟩
      isplitl [HS0 HS1 HS2 HS3 Hr Hg]
      · isplitl [HS0 HS1 HS2 HS3 Hr]
        · isplitl [HS0]; · iexact HS0
          isplitl [HS1]; · iexact HS1
          isplitl [HS2]; · iexact HS2
          isplitl [HS3]; · iexact HS3
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the class's back: the state's name is forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl, PhiA0_eq]
  exact PhiS_weak V c _ _

end Cert.KernelIdeal.Hand

end
-- ==== Proof.K0Kit.lean ====
/-
  The score kernel's kit: its proof data at any contents the region finds, with the facts the whole run asks of
  it, bundled.
-/
import proofs.«167355_j84250078478576_2_alg».proof.Proof.K0Body
import proofs.«167355_j84250078478576_2_alg».proof.Proof.KitsV

noncomputable section

namespace Cert.KernelIdeal.Hand

open Cert.KernelIdeal Cert.KernelIdeal.Gen
open Idealize.ShloMosaic Idealize.ShloMosaic.TcCoe Idealize.SL.Sem

variable {F : FTy → Type} [FloatOps F]

/-- The score kernel's kit, with what its two output windows hold after a point. -/
def kit0V : Kit0V F where
  dat := dat0
  hA := A_eq0
  hq := hq0
  howed := howed0
  hrec := hrec0
  hbody := body_obligation0
  hin := hin0
  hout := hout0
  after2 := after0_2
  after3 := after0_3

end Cert.KernelIdeal.Hand

end
-- ==== Proof.K1Runs.lean ====
/-
  Region 1 (normalise and context): the body's two conditionals in closed form over the 8×8 grid, where its
  windows are live, the shape of the region invariant, and the body run once per case.

  The grid point t = 8·i + j handles query tile i and key/value block j. The body computes
  p = exp(s − lse) for the score block s and the tile's log-sum-exp column, stores p as the attention block,
  and adds p·v to an accumulator that is cleared when j = 0 and copied to the context block when j = 7.
-/
import proofs.«167355_j84250078478576_2_alg».proof.Proof.KDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body (the accumulator is cleared): the point's second coordinate is 0. -/
abbrev cond1_0 (i : grid1.Coords) : Prop := (Scalar.cmpi .ne (Scalar.extui (Scalar.cmpi .eq (BitVec.ofNat 32 (i 1).val) 0#32)) 0#32) = 1#1
/-- It holds exactly at the points t with t % 8 = 0: decided over the 64 points of the grid. -/
theorem hcond1_0 : ∀ t : Fin cfg1.N, cond1_0 (grid1.coords t) ↔ t.val % 8 = 0 :=
  (by decide +kernel : ∀ t : Fin grid1.N, cond1_0 (grid1.coords t) ↔ t.val % 8 = 0)
/-- The second conditional of the body (the accumulator is copied to the context block): the second coordinate is 7. -/
abbrev cond1_1 (i : grid1.Coords) : Prop := k1_cond2 i = 1#1
/-- It holds exactly at the points t with t % 8 = 7. -/
theorem hcond1_1 : ∀ t : Fin cfg1.N, cond1_1 (grid1.coords t) ↔ t.val % 8 = 7 :=
  (by decide +kernel : ∀ t : Fin grid1.N, cond1_1 (grid1.coords t) ↔ t.val % 8 = 7)

/-- Both offsets of a whole-buffer access are zero. -/
theorem hz : (![0, 0] : Fin 2 → Nat) = fun _ => 0 := funext fun a => by fin_cases a <;> rfl

/-! ## Where the windows are live

The three inputs and the attention output are stored or read at every point. The context output (window 3) is
stored only where the second coordinate is 7; elsewhere it is idle and not written back. -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_4 : ∀ t : Fin cfg1.N, cfg1.idle 4 (grid1.coords t) = false := by decide +kernel
/-- Where the second coordinate is not 7 the context window is idle, -/
theorem idleAt1_3 : ∀ t : Fin cfg1.N, ¬cond1_1 (grid1.coords t) → cfg1.idle 3 (grid1.coords t) = true := by decide +kernel
/-- and its block is not written back there; -/
theorem noFlush1_3 : ∀ t : Fin cfg1.N, ¬cond1_1 (grid1.coords t) → (cfg1.win 3).flush t = false := by decide +kernel
/-- where it is 7 the window is live. -/
theorem liveAt1_3 : ∀ t : Fin cfg1.N, cond1_1 (grid1.coords t) → cfg1.idle 3 (grid1.coords t) = false := by decide +kernel

/-! ## The region invariant's shape -/

/-- The accumulator: the kernel's one scratch operand, a whole buffer. -/
abbrev scM1 : Memref sig .tc .vmem S1024x1024 .f32 := Memref.whole cc1_scratch0

/-- Re-bracketing a separating conjunction, as an equation. -/
theorem sepA (P Q R : sProp 𝕄) : iprop((P ∗ Q) ∗ R) = iprop(P ∗ Q ∗ R) :=
  BI.equiv_iff.mp ⟨Idealize.SL.BI.sep_assoc, Idealize.SL.BI.sep_assoc'⟩

/-- The core's scoped buffers that are neither a staging buffer of this region nor its accumulator (the other
    region's staging buffers and scratch), each at some contents: the body never touches them. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- The class invariant with the accumulator singled out: the other scoped buffers, the accumulator at some
    contents, the generator register at some state. -/
theorem PhiA1_eq (c : Dev nD) :
    (Pipeline.ΦA spec1 c : sProp 𝕄)
      = iprop(rest1 c ∗ (∃ d, owns (c : Thread nD τ) scM1 fullShare d) ∗ (∃ r, prngReg c r)) := by
  unfold Pipeline.ΦA rest1; rw [scopedRest1_eq]; simp only [scM1, owns_whole, sepA]
  rfl

/-! ## The body, case by case -/

set_option maxHeartbeats 1000000 in
/-- The body at a point whose second coordinate is 0 (and not 7). On whole buffers — the three inputs holding
    x0 (scores), x1 (the log-sum-exp column), x2 (the value block), the context buffer holding xi3, the attention
    buffer and the accumulator holding anything — it leaves the inputs and the context buffer as they were, the
    attention buffer at exp(x0 − x1) and the accumulator at 0 + exp(x0 − x1)·x2: the accumulator is cleared first,
    so what it held does not matter. Every store is of a whole buffer, so each buffer reads back its last payload. -/
theorem run1_first (c : Dev nD) (i : grid1.Coords)
    (arg2 : Memref sig .tc .vmem S1024x1024 .f32) (harg2 : arg2.IsWhole) (arg3 : Memref sig .tc .vmem S1024x1 .f32) (harg3 : arg3.IsWhole)
    (arg4 : Memref sig .tc .vmem S1024x1024 .bf16) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x1024 .f32) (harg7 : arg7.IsWhole)
    (hc0 : cond1_0 i) (hc1 : ¬cond1_1 i)
    (x0 : Vec F S1024x1024 .f32) (x1 : Vec F S1024x1 .f32) (x2 : Vec F S1024x1024 .bf16) (xi3 : Vec F S1024x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay2 x0 x1)
            ∗ owns (c : Thread nD τ) arg7 fullShare (k1_pay3 x0 x1 k1_pay1 x2)) -∗ K ⟨⟩))
      ⊢ wp frame (wpE (defs₀ (F := F)) Variants.none c none) E (cc1__norm_ctx_kernel i arg2 harg2 arg3 harg3 arg4 harg4 arg5 harg5 arg6 harg6 arg7 harg7) K := by
  simp only [cc1__norm_ctx_kernel_eq_skeleton]; unfold cc1__norm_ctx_kernel_skel
  unfold owns
  iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; exact hf3
    iexact H3
  isplitl [H4]
  · iexists _; isplitr
    swap; · iexact H4
    ipureintro
    try sl_unfold_words
    rw [View.read_writes_eq_canon _ _ _ (fun y => ⟨_, List.mem_cons_self .., View.mem_set_unit_zero hz inb_S1024x1024_S1024x1024_0_0 y⟩), View.canon_cons_unit_zero (S := S1024x1024) hz]
    simp only [View.readAt_eq_ld, View.ld_unit_zero (S := S1024x1024) hz, View.ld_unit_zero (S := S1024x1) hz]
  iexists _; isplitr
  swap; · iexact HS
  · ipureintro
    try sl_unfold_words
    rw [View.read_writes_eq_canon _ _ _ (fun y => ⟨_, List.mem_cons_self .., View.mem_set_unit_zero hz inb_S1024x1024_S1024x1024_0_0 y⟩), View.canon_cons_unit_zero (S := S1024x1024) hz]
    rw [View.readCov_unit_zero (S := S1024x1024) _ hz]
    simp only [View.readAt_eq_ld, View.ld_unit_zero (S := S1024x1024) hz, View.ld_unit_zero (S := S1024x1) hz]

set_option maxHeartbeats 1000000 in
/-- The body at a point whose second coordinate is neither 0 nor 7: the accumulator, holding xs, is not cleared
    and ends at xs + exp(x0 − x1)·x2; the context buffer is left as it was. -/
theorem run1_mid (c : Dev nD) (i : grid1.Coords)
    (arg2 : Memref sig .tc .vmem S1024x1024 .f32) (harg2 : arg2.IsWhole) (arg3 : Memref sig .tc .vmem S1024x1 .f32) (harg3 : arg3.IsWhole)
    (arg4 : Memref sig .tc .vmem S1024x1024 .bf16) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x1024 .f32) (harg7 : arg7.IsWhole)
    (hc0 : ¬cond1_0 i) (hc1 : ¬cond1_1 i)
    (x0 : Vec F S1024x1024 .f32) (x1 : Vec F S1024x1 .f32) (x2 : Vec F S1024x1024 .bf16) (xi3 : Vec F S1024x1024 .f32) (xs : Vec F S1024x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay2 x0 x1)
            ∗ owns (c : Thread nD τ) arg7 fullShare (k1_pay3 x0 x1 xs x2)) -∗ K ⟨⟩))
      ⊢ wp frame (wpE (defs₀ (F := F)) Variants.none c none) E (cc1__norm_ctx_kernel i arg2 harg2 arg3 harg3 arg4 harg4 arg5 harg5 arg6 harg6 arg7 harg7) K := by
  simp only [cc1__norm_ctx_kernel_eq_skeleton]; unfold cc1__norm_ctx_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; exact hf3
    iexact H3
  isplitl [H4]
  · iexists _; isplitr
    swap; · iexact H4
    ipureintro
    try sl_unfold_words
    rw [View.read_writes_eq_canon _ _ _ (fun y => ⟨_, List.mem_cons_self .., View.mem_set_unit_zero hz inb_S1024x1024_S1024x1024_0_0 y⟩), View.canon_cons_unit_zero (S := S1024x1024) hz]
    simp only [View.readAt_eq_ld, View.ld_unit_zero (S := S1024x1024) hz, View.ld_unit_zero (S := S1024x1) hz]
  iexists _; isplitr
  swap; · iexact HS
  · ipureintro
    try sl_unfold_words
    rw [View.read_writes_eq_canon _ _ _ (fun y => ⟨_, List.mem_cons_self .., View.mem_set_unit_zero hz inb_S1024x1024_S1024x1024_0_0 y⟩), View.canon_cons_unit_zero (S := S1024x1024) hz]
    simp only [View.readAt_eq_ld, View.ld_unit_zero (S := S1024x1024) hz, View.ld_unit_zero (S := S1024x1) hz]

set_option maxHeartbeats 1000000 in
/-- The body at a point whose second coordinate is 7 (and not 0): the accumulator, holding xs, ends at
    xs + exp(x0 − x1)·x2, and that value is then read back and stored over the whole context buffer, whatever
    that held. -/
theorem run1_last (c : Dev nD) (i : grid1.Coords)
    (arg2 : Memref sig .tc .vmem S1024x1024 .f32) (harg2 : arg2.IsWhole) (arg3 : Memref sig .tc .vmem S1024x1 .f32) (harg3 : arg3.IsWhole)
    (arg4 : Memref sig .tc .vmem S1024x1024 .bf16) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x1024 .f32) (harg7 : arg7.IsWhole)
    (hc0 : ¬cond1_0 i) (hc1 : cond1_1 i)
    (x0 : Vec F S1024x1024 .f32) (x1 : Vec F S1024x1 .f32) (x2 : Vec F S1024x1024 .bf16) (xs : Vec F S1024x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 x0 x1 xs x2) ∗ owns (c : Thread nD τ) arg6 fullShare (k1_pay2 x0 x1)
            ∗ owns (c : Thread nD τ) arg7 fullShare (k1_pay3 x0 x1 xs x2)) -∗ K ⟨⟩))
      ⊢ wp frame (wpE (defs₀ (F := F)) Variants.none c none) E (cc1__norm_ctx_kernel i arg2 harg2 arg3 harg3 arg4 harg4 arg5 harg5 arg6 harg6 arg7 harg7) K := by
  simp only [cc1__norm_ctx_kernel_eq_skeleton]; unfold cc1__norm_ctx_kernel_skel
  unfold owns
  iintro ⟨⟨%f0, %hf0, H0⟩, ⟨%f1, %hf1, H1⟩, ⟨%f2, %hf2, H2⟩, ⟨%d3, %f3, -, H3⟩, ⟨%d4, %f4, -, H4⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try sl_unfold_words
    rw [View.read_writes_eq_canon _ _ _ (fun y => ⟨_, List.mem_cons_self .., View.mem_set_unit_zero hz inb_S1024x1024_S1024x1024_0_0 y⟩), View.canon_cons_unit_zero (S := S1024x1024) hz]
    rw [View.readCov_unit_zero (S := S1024x1024) _ hz]
    simp only [View.readAt_eq_ld, View.ld_unit_zero (S := S1024x1024) hz, View.ld_unit_zero (S := S1024x1) hz]
  isplitl [H4]
  · iexists _; isplitr
    swap; · iexact H4
    ipureintro
    try sl_unfold_words
    rw [View.read_writes_eq_canon _ _ _ (fun y => ⟨_, List.mem_cons_self .., View.mem_set_unit_zero hz inb_S1024x1024_S1024x1024_0_0 y⟩), View.canon_cons_unit_zero (S := S1024x1024) hz]
    simp only [View.readAt_eq_ld, View.ld_unit_zero (S := S1024x1024) hz, View.ld_unit_zero (S := S1024x1) hz]
  iexists _; isplitr
  swap; · iexact HS
  · ipureintro
    try sl_unfold_words
    rw [View.read_writes_eq_canon _ _ _ (fun y => ⟨_, List.mem_cons_self .., View.mem_set_unit_zero hz inb_S1024x1024_S1024x1024_0_0 y⟩), View.canon_cons_unit_zero (S := S1024x1024) hz]
    simp only [View.readAt_eq_ld, View.ld_unit_zero (S := S1024x1024) hz, View.ld_unit_zero (S := S1024x1) hz]

end Cert.KernelIdeal.Hand

end
-- ==== Proof.K1Body.lean ====
/-
  Region 1 (normalise and context): the proof data of its pipeline at the buffers the region finds, and the
  body obligation.

  After the body at point t the three inputs' buffers hold their blocks, the attention buffer holds
  exp(s − lse) of the score block and the log-sum-exp column, and the accumulator holds the running sum of
  exp(s − lse)·v over the key/value blocks of the query tile so far; where the tile's last block is folded in
  (t % 8 = 7) the context buffer holds that sum too. The invariant between points owns the accumulator at
  that running sum.
-/
import proofs.«167355_j84250078478576_2_alg».proof.Proof.K1Runs
import proofs.«167355_j84250078478576_2_alg».proof.Proof.KitsV

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## What the body finds in each input's buffer

An input's staging buffer holds its block at every point, fetched there or not: where it is not fetched the
block index has not moved since the point before. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The invariant between points -/

/-- Before the first point: the class invariant (every scoped buffer that is no staging buffer at some contents,
    the generator register at some state). After point n: the same with the accumulator at its value after
    point n. -/
def Phi1 (c : Dev nD) : (n : ℕ) → n ≤ cfg1.N → sProp 𝕄
  | 0, _ => Pipeline.ΦA spec1 c
  | n + 1, hn => iprop(rest1 c ∗ owns (c : Thread nD τ) scM1 fullShare (st1 V c n hn) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(rest1 c ∗ owns (c : Thread nD τ) scM1 fullShare (st1 V c n hn) ∗ (∃ r, prngReg c r)) := rfl

theorem Phi1_pos (c : Dev nD) (n : ℕ) (h : n ≤ cfg1.N) (hz : n ≠ 0) :
    Phi1 V c n h = iprop(rest1 c ∗ owns (c : Thread nD τ) scM1 fullShare (st1 V c (n - 1) (by omega)) ∗ (∃ r, prngReg c r)) := by
  cases n with
  | zero => exact absurd rfl hz
  | succ n => rfl

/-! ## The proof data -/

/-- The pipeline's proof data on core c: the arrays as the region finds them; after the body at point t the
    inputs' buffers at their blocks, the context buffer at the accumulator's value (consulted only where
    t % 8 = 7: elsewhere the window is idle), the attention buffer at exp(s − lse); the invariant above; full
    shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => st1 V c t.val t.isLt
    | ⟨4, _⟩ => k1_pay2 (iblk1 V c 0 t) (iblk1 V c 1 t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = st1 V c t.val t.isLt := by dsimp only [dat1]
theorem after1_4 (c : Dev nD) (t : Fin cfg1.N) : (dat1 V c).after 4 t = k1_pay2 (iblk1 V c 0 t) (iblk1 V c 1 t) := by dsimp only [dat1]

theorem hq1 (c : Dev nD) (w : Fin cfg1.W) : (dat1 V c).q w = fullShare := rfl
theorem howed1 (c : Dev nD) (t : Fin (cfg1.N + 1)) : (dat1 V c).owed t = 0 := rfl
theorem hrec1 (c : Dev nD) (t : Fin (cfg1.N + 1)) : (dat1 V c).recorded t = Set.univ := rfl

/-- The invariant at a point's start, restated at the point's number. -/
theorem Phi1_castSucc (c : Dev nD) (t : Fin cfg1.N) :
    (dat1 V c).Φ t.castSucc = Phi1 V c t.val (Nat.le_of_lt t.isLt) := by
  dsimp only [dat1]; simp only [Fin.coe_castSucc]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The accumulator after point t, from what the point starts from. -/
theorem st1_at (c : Dev nD) (t : Fin cfg1.N) :
    st1 V c t.val t.isLt = k1_pay3 (iblk1 V c 0 t) (iblk1 V c 1 t) (in1 V c t.val t.isLt) (iblk1 V c 2 t) :=
  st1_eq V c t.val t.isLt

/-! ## The body obligation -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; t % 8 says which case the point is in. Where
    t % 8 = 0 the accumulator is cleared, so it may hold anything (the class invariant at the very first point,
    the previous tile's sum later); elsewhere the invariant hands it over at the running sum so far. The context
    window is idle except where t % 8 = 7, and there it receives the finished sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
        unfold Dat.leavesExact; rw [liveAt1_0 t], after1_0]
  rw [show (dat1 V c).leavesExact 1 t = owns (c : Thread nD τ) (st1_1 t) fullShare ((dat1 V c).after 1 t) from by
        unfold Dat.leavesExact; rw [liveAt1_1 t], after1_1]
  rw [show (dat1 V c).leavesExact 2 t = owns (c : Thread nD τ) (st1_2 t) fullShare ((dat1 V c).after 2 t) from by
        unfold Dat.leavesExact; rw [liveAt1_2 t], after1_2]
  rw [show (dat1 V c).leavesExact 4 t = owns (c : Thread nD τ) (st1_4 t) fullShare ((dat1 V c).after 4 t) from by
        unfold Dat.leavesExact; rw [liveAt1_4 t], after1_4]
  rw [Phi1_castSucc V c t]
  have hN : t.val < 64 := lt_of_lt_of_eq t.isLt (show cfg1.N = 64 from N_1)
  by_cases h0 : t.val % 8 = 0
  · by_cases h1 : t.val % 8 = 7
    · exfalso; omega
    · rw [Dat.leavesExact_idle (dat1 V c) 3 t (idleAt1_3 t (fun h => h1 ((hcond1_1 t).mp h))) (noFlush1_3 t (fun h => h1 ((hcond1_1 t).mp h)))]
      rw [st1_at V c t, show in1 V c t.val t.isLt = k1_pay1 from if_pos h0]
      by_cases hz : t.val = 0
      · rw [Phi1_zero V c _ _ hz, PhiA1_eq]
        iintro ⟨⟨HR, HS, Hg⟩, Ho, ⟨%d0, H0⟩, ⟨%d1, H1⟩, ⟨%d2, H2⟩, ⟨%d3, H3⟩, ⟨%d4, H4⟩⟩
        iapply (run1_first c (grid1.coords t) _ _ _ _ _ _ _ _ _ _ _ _ ((hcond1_0 t).mpr h0) (fun h => h1 ((hcond1_1 t).mp h)) (iblk1 V c 0 t) (iblk1 V c 1 t) (iblk1 V c 2 t) ((dat1 V c).before 3 t d3) Set.univ _)
        isplitl [H0]; · iexact H0
        isplitl [H1]; · iexact H1
        isplitl [H2]; · iexact H2
        isplitl [H3]; · iexact H3
        isplitl [H4]; · iexists _; iexact H4
        isplitl [HS]; · iexact HS
        iintro ⟨H0, H1, H2, H3, H4, HS⟩
        isplitl [HR HS Hg]
        · isplitl [HR]; · iexact HR
          isplitl [HS]; · iexact HS
          iexact Hg
        isplitl [Ho]; · iexact Ho
        isplitl [H0]; · iexact H0
        isplitl [H1]; · iexact H1
        isplitl [H2]; · iexact H2
        isplitl [H3]; · iexists d3; iexact H3
        iexact H4
      · rw [Phi1_pos V c _ _ hz]
        iintro ⟨⟨HR, HS, Hg⟩, Ho, ⟨%d0, H0⟩, ⟨%d1, H1⟩, ⟨%d2, H2⟩, ⟨%d3, H3⟩, ⟨%d4, H4⟩⟩
        iapply (run1_first c (grid1.coords t) _ _ _ _ _ _ _ _ _ _ _ _ ((hcond1_0 t).mpr h0) (fun h => h1 ((hcond1_1 t).mp h)) (iblk1 V c 0 t) (iblk1 V c 1 t) (iblk1 V c 2 t) ((dat1 V c).before 3 t d3) Set.univ _)
        isplitl [H0]; · iexact H0
        isplitl [H1]; · iexact H1
        isplitl [H2]; · iexact H2
        isplitl [H3]; · iexact H3
        isplitl [H4]; · iexists _; iexact H4
        isplitl [HS]; · iexists _; iexact HS
        iintro ⟨H0, H1, H2, H3, H4, HS⟩
        isplitl [HR HS Hg]
        · isplitl [HR]; · iexact HR
          isplitl [HS]; · iexact HS
          iexact Hg
        isplitl [Ho]; · iexact Ho
        isplitl [H0]; · iexact H0
        isplitl [H1]; · iexact H1
        isplitl [H2]; · iexact H2
        isplitl [H3]; · iexists d3; iexact H3
        iexact H4
  · have hz : t.val ≠ 0 := fun e => h0 (by rw [e])
    rw [Phi1_pos V c _ _ hz]
    by_cases h1 : t.val % 8 = 7
    · rw [show (dat1 V c).leavesExact 3 t = owns (c : Thread nD τ) (st1_3 t) fullShare ((dat1 V c).after 3 t) from by
        unfold Dat.leavesExact; rw [liveAt1_3 t ((hcond1_1 t).mpr h1)], after1_3]
      rw [st1_at V c t, show in1 V c t.val t.isLt = st1 V c (t.val - 1) (Nat.lt_of_le_of_lt (Nat.sub_le _ _) t.isLt) from if_neg h0]
      iintro ⟨⟨HR, HS, Hg⟩, Ho, ⟨%d0, H0⟩, ⟨%d1, H1⟩, ⟨%d2, H2⟩, ⟨%d3, H3⟩, ⟨%d4, H4⟩⟩
      iapply (run1_last c (grid1.coords t) _ _ _ _ _ _ _ _ _ _ _ _ (fun h => h0 ((hcond1_0 t).mp h)) ((hcond1_1 t).mpr h1) (iblk1 V c 0 t) (iblk1 V c 1 t) (iblk1 V c 2 t) (st1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, H3, H4, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 3 t (idleAt1_3 t (fun h => h1 ((hcond1_1 t).mp h))) (noFlush1_3 t (fun h => h1 ((hcond1_1 t).mp h)))]
      rw [st1_at V c t, show in1 V c t.val t.isLt = st1 V c (t.val - 1) (Nat.lt_of_le_of_lt (Nat.sub_le _ _) t.isLt) from if_neg h0]
      iintro ⟨⟨HR, HS, Hg⟩, Ho, ⟨%d0, H0⟩, ⟨%d1, H1⟩, ⟨%d2, H2⟩, ⟨%d3, H3⟩, ⟨%d4, H4⟩⟩
      iapply (run1_mid c (grid1.coords t) _ _ _ _ _ _ _ _ _ _ _ _ (fun h => h0 ((hcond1_0 t).mp h)) (fun h => h1 ((hcond1_1 t).mp h)) (iblk1 V c 0 t) (iblk1 V c 1 t) (iblk1 V c 2 t) ((dat1 V c).before 3 t d3) (st1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexists d3; iexact H3
      iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- After any point the invariant gives the class invariant back: the accumulator's value is forgotten. -/
theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨HR, HS, Hg⟩
  isplitl [HR]; · iexact HR
  isplitl [HS]; · iexists _; iexact HS
  iexact Hg

/-- The same after the last point. -/
theorem hout1 (c : Dev nD) : (dat1 V c).Φ (Fin.last cfg1.N) ⊢ Pipeline.ΦA spec1 c :=
  Phi1_out V c _ (by rw [Fin.val_last]; have : cfg1.N = 64 := N_1; omega)

/-- Region 1's kit: the proof data, what the run asks of it, and what its two output windows hold after the body. -/
def kit1V : Kit1V F where
  dat := fun V c => dat1 V c
  hA := fun V c w => A_eq1 V c w
  hq := fun V c w => hq1 V c w
  howed := fun V c t => howed1 V c t
  hrec := fun V c t => hrec1 V c t
  hbody := fun V c => body_obligation1 V c
  hin := fun V c => hin1 V c
  hout := fun V c => hout1 V c
  after3 := fun V c t => after1_3 V c t
  after4 := fun V c t => after1_4 V c t

end Cert.KernelIdeal.Hand

end
-- ==== Proof.KDefsB.lean ====
/-
  The two kernels' per-point data, as functions of the buffers a region finds.

  Region 0 visits the grid point t = 16·i + j (query tile i, key block j). Its carried state is the running
  row maximum m, the running sum l, and the two bf16 halves of the query tile; at j = 0 the state restarts
  from (−∞, 0, split of the query tile), and every point folds one key block in. Region 1 visits
  t = 8·i + j and carries the context accumulator, restarted from 0 at j = 0.
-/
import proofs.«167355_j84250078478576_2_alg».proof.Proof.Gen.Kernel.Launch
import proofs.«167355_j84250078478576_2_alg».proof.Proof.Gen.Kernel.Skeleton
import proofs.«167355_j84250078478576_2_alg».proof.Proof.Gen.Kernel.Points

noncomputable section

namespace Cert.Kernel.Hand

open Cert.Kernel Cert.Kernel.Gen
open Idealize.ShloMosaic Idealize.ShloMosaic.TcCoe Idealize.SL.Sem

variable {F : FTy → Type} [FloatOps F]

/-- The buffers of every core as a region finds them. -/
abbrev Entry (F : FTy → Type) : Type := (c : Dev nD) → (b : Ref sig .tc) → Buf (Elt F) ((c : Thread nD τ).loc b)

variable (V : Entry F)

/-- Region 0: window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 1: window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Region 0's carried state: running maximum, running sum, and the two halves of the query tile. -/
abbrev St0 (F : FTy → Type) : Type := Vec F S1024x1 .f32 × Vec F S1024x1 .f32 × Vec F S1024x1024 .bf16 × Vec F S1024x1024 .bf16

/-- The state a query tile starts from: maximum −∞, sum 0, the tile split in two. -/
def init0 (x0 : Vec F S1024x1024 .f32) : St0 F := (k0_pay4, k0_pay5, k0_pay7 x0, k0_pay8 x0)

/-- One key block folded into the state. -/
def step0 (x1 : Vec F S512x1024 .f32) (s : St0 F) : St0 F :=
  (k0_pay2 (k0_pay10 x1 s.2.2.1 s.2.2.1 s.2.2.2 s.1), k0_pay1 (k0_pay11 x1 s.2.2.1 s.2.2.1 s.2.2.2 s.1 s.1 s.2.1), s.2.2.1, s.2.2.2)

/-- The raw scores of a key block against the state's query halves. -/
def scores0 (x1 : Vec F S512x1024 .f32) (s : St0 F) : Vec F S1024x512 .f32 := k0_pay9 x1 s.2.2.1 s.2.2.1 s.2.2.2

/-- Region 0's carried state after point `n`. -/
def st0 (c : Dev nD) : (n : ℕ) → n < cfg0.N → St0 F
  | 0, hn => step0 (iblk0 V c 1 ⟨0, hn⟩) (init0 (iblk0 V c 0 ⟨0, hn⟩))
  | n + 1, hn => step0 (iblk0 V c 1 ⟨n + 1, hn⟩)
      (if (n + 1) % 16 = 0 then init0 (iblk0 V c 0 ⟨n + 1, hn⟩) else st0 c n (Nat.lt_of_succ_lt hn))

/-- The state point `n` starts from: a fresh one at a tile's first key block, else what the point before left. -/
def in0 (c : Dev nD) (n : ℕ) (hn : n < cfg0.N) : St0 F :=
  if n % 16 = 0 then init0 (iblk0 V c 0 ⟨n, hn⟩) else st0 V c (n - 1) (Nat.lt_of_le_of_lt (Nat.sub_le _ _) hn)

theorem st0_eq (c : Dev nD) (n : ℕ) (hn : n < cfg0.N) : st0 V c n hn = step0 (iblk0 V c 1 ⟨n, hn⟩) (in0 V c n hn) := by
  cases n with
  | zero => rfl
  | succ n => rfl

/-- Region 1's accumulator after point `n`. -/
def st1 (c : Dev nD) : (n : ℕ) → n < cfg1.N → Vec F S1024x1024 .f32
  | 0, hn => k1_pay3 (iblk1 V c 0 ⟨0, hn⟩) (iblk1 V c 1 ⟨0, hn⟩) k1_pay1 (iblk1 V c 2 ⟨0, hn⟩)
  | n + 1, hn => k1_pay3 (iblk1 V c 0 ⟨n + 1, hn⟩) (iblk1 V c 1 ⟨n + 1, hn⟩)
      (if (n + 1) % 8 = 0 then k1_pay1 else st1 c n (Nat.lt_of_succ_lt hn)) (iblk1 V c 2 ⟨n + 1, hn⟩)

/-- The accumulator point `n` starts from. -/
def in1 (c : Dev nD) (n : ℕ) (hn : n < cfg1.N) : Vec F S1024x1024 .f32 :=
  if n % 8 = 0 then k1_pay1 else st1 V c (n - 1) (Nat.lt_of_le_of_lt (Nat.sub_le _ _) hn)

theorem st1_eq (c : Dev nD) (n : ℕ) (hn : n < cfg1.N) :
    st1 V c n hn = k1_pay3 (iblk1 V c 0 ⟨n, hn⟩) (iblk1 V c 1 ⟨n, hn⟩) (in1 V c n hn) (iblk1 V c 2 ⟨n, hn⟩) := by
  cases n with
  | zero => rfl
  | succ n => rfl

end Cert.Kernel.Hand

end
-- ==== Proof.K0RunsB.lean ====
/-
  Region 0's kernel body, run once per control case.

  The body at grid point t = 16·i + j branches twice on j: at j = 0 it restarts the carried state (row maximum −∞,
  row sum 0, the query tile split in two), and at j = 15 it stores the log-sum-exp m + log l into the fourth window.
  In between it folds one key block into the state and stores the block's raw scores. Here: the two conditions in
  closed form over the grid, where the fourth window is idle and not written back, and the body's triple in each of
  the three cases that occur — first key block, a middle one, the last — with every buffer's final contents written
  over the payloads of the printed program.
-/
import proofs.«167355_j84250078478576_2_alg».proof.Proof.KDefsB
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, decided over the grid -/

/-- The first branch is taken when the key-block coordinate is 0. -/
abbrev cond0_0 (i : grid0.Coords) : Prop := (Scalar.cmpi .ne (Scalar.extui (Scalar.cmpi .eq (BitVec.ofNat 32 (i 1).val) 0#32)) 0#32) = 1#1
/-- That is at the points t with t mod 16 = 0. -/
theorem hcond0_0 : ∀ t : Fin cfg0.N, cond0_0 (grid0.coords t) ↔ t.val % 16 = 0 :=
  (by decide +kernel : ∀ t : Fin grid0.N, cond0_0 (grid0.coords t) ↔ t.val % 16 = 0)

/-- The second branch is taken when the key-block coordinate is 15. -/
abbrev cond0_1 (i : grid0.Coords) : Prop := k0_cond2 i = 1#1
/-- That is at the points t with t mod 16 = 15. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last key block nothing is stored into the fourth window, -/
theorem idleAt0_3 : ∀ t : Fin cfg0.N, ¬cond0_1 (grid0.coords t) → cfg0.idle 3 (grid0.coords t) = true := by decide +kernel
/-- and its block is not written back there. -/
theorem noFlush0_3 : ∀ t : Fin cfg0.N, ¬cond0_1 (grid0.coords t) → (cfg0.win 3).flush t = false := by decide +kernel
/-- At the last key block it is stored into. -/
theorem liveAt0_3 : ∀ t : Fin cfg0.N, cond0_1 (grid0.coords t) → cfg0.idle 3 (grid0.coords t) = false := by decide +kernel

/-! ## The memrefs the body is called with -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
/-- The four scratch operands: the running maximum, the running sum, and the query tile's two halves. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1024 .bf16 := Memref.whole cc0_scratch2
abbrev scM0_3 : Memref sig .tc .vmem S1024x1024 .bf16 := Memref.whole cc0_scratch3

/-- The offsets of a whole-buffer access are zero on both axes. -/
theorem hz2 : (![0, 0] : Fin 2 → ℕ) = fun _ => 0 := by funext a; fin_cases a <;> rfl

/-! ## A whole-buffer store read back -/

/-- What a buffer reads after a list of stores whose last one is of the whole buffer: that store's value. -/
theorem read_wholeStore {Val : EltTy → Type} [∀ e, Nonempty (Val e)] {sig' : RefSig} {κ : Kind} {sp : Space} {S : Shape} {e : EltTy}
    (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons.mpr (Or.inl rfl), View.mem_set_unit_zero h inb y⟩)).trans
    (View.canon_cons_unit_zero h inb w L)

/-! ## The body's triple, case by case -/

set_option maxHeartbeats 1000000 in
/-- FIRST KEY BLOCK (the key-block coordinate is 0). Whatever the four scratch buffers hold, the body restarts the
    state from the query tile `x0`, folds the key block `x1` in, stores the block's scores, and leaves the fourth
    window as it found it. -/
theorem run0_A (c : Dev nD) (i : grid0.Coords)
    (arg2 : Memref sig .tc .vmem S1024x1024 .f32) (harg2 : arg2.IsWhole) (arg3 : Memref sig .tc .vmem S512x1024 .f32) (harg3 : arg3.IsWhole)
    (arg4 : Memref sig .tc .vmem S1024x512 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1024 .bf16) (harg8 : arg8.IsWhole) (arg9 : Memref sig .tc .vmem S1024x1024 .bf16) (harg9 : arg9.IsWhole)
    (hc0 : cond0_0 i) (hc1 : ¬cond0_1 i)
    (x0 : Vec F S1024x1024 .f32) (x1 : Vec F S512x1024 .f32) (xi3 : Vec F S1024x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xi3
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1
            ∗ owns (c : Thread nD τ) arg4 fullShare (scores0 x1 (init0 x0))
            ∗ owns (c : Thread nD τ) arg5 fullShare xi3
            ∗ owns (c : Thread nD τ) arg6 fullShare (step0 x1 (init0 x0)).1
            ∗ owns (c : Thread nD τ) arg7 fullShare (step0 x1 (init0 x0)).2.1
            ∗ owns (c : Thread nD τ) arg8 fullShare (step0 x1 (init0 x0)).2.2.1
            ∗ owns (c : Thread nD τ) arg9 fullShare (step0 x1 (init0 x0)).2.2.2) -∗ K ⟨⟩))
      ⊢ wp frame (wpE (defs₀ (F := F)) Variants.none c none) E (cc0__scores_lse_kernel i arg2 harg2 arg3 harg3 arg4 harg4 arg5 harg5 arg6 harg6 arg7 harg7 arg8 harg8 arg9 harg9) K := by
  simp only [cc0__scores_lse_kernel_eq_skeleton]; unfold cc0__scores_lse_kernel_skel
  simp only [k0_part1_eq_skeleton]; unfold k0_part1_skel
  unfold owns
  iintro ⟨⟨%f0, %hf0, H0⟩, ⟨%f1, %hf1, H1⟩, ⟨%d2, %f2, -, H2⟩, ⟨%f3, %hf3, H3⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (read_wholeStore (S := S1024x512) _ _ hz2 _ _ _).trans ?_
    sl_unfold_run_names
    simp only [View.readAt_eq_ld, harg2.read_unread, harg3.read_unread, harg6.read_unread, harg7.read_unread, harg8.read_unread, harg9.read_unread, View.ld_unit_zero (S := S1024x1024) hz2, View.ld_unit_zero (S := S512x1024) hz2, View.ld_unit_zero (S := S1024x1) hz2, View.readCov_cons_toLoadRect]
    rfl
  isplitl [H3]
  · iexists _; isplitr; · ipureintro; exact harg5.read_unread _
    iexact H3
  isplitl [HS0]
  · iexists _; isplitr
    swap; · iexact HS0
    ipureintro
    refine (read_wholeStore (S := S1024x1) _ _ hz2 _ _ _).trans ?_
    sl_unfold_run_names
    simp only [View.readAt_eq_ld, harg2.read_unread, harg3.read_unread, harg6.read_unread, harg7.read_unread, harg8.read_unread, harg9.read_unread, View.ld_unit_zero (S := S1024x1024) hz2, View.ld_unit_zero (S := S512x1024) hz2, View.ld_unit_zero (S := S1024x1) hz2, View.readCov_cons_toLoadRect]
    rfl
  isplitl [HS1]
  · iexists _; isplitr
    swap; · iexact HS1
    ipureintro
    refine (read_wholeStore (S := S1024x1) _ _ hz2 _ _ _).trans ?_
    sl_unfold_run_names
    simp only [View.readAt_eq_ld, harg2.read_unread, harg3.read_unread, harg6.read_unread, harg7.read_unread, harg8.read_unread, harg9.read_unread, View.ld_unit_zero (S := S1024x1024) hz2, View.ld_unit_zero (S := S512x1024) hz2, View.ld_unit_zero (S := S1024x1) hz2, View.readCov_cons_toLoadRect]
    rfl
  isplitl [HS2]
  · iexists _; isplitr
    swap; · iexact HS2
    ipureintro
    refine (read_wholeStore (S := S1024x1024) _ _ hz2 _ _ _).trans ?_
    sl_unfold_run_names
    simp only [View.readAt_eq_ld, harg2.read_unread, harg3.read_unread, harg6.read_unread, harg7.read_unread, harg8.read_unread, harg9.read_unread, View.ld_unit_zero (S := S1024x1024) hz2, View.ld_unit_zero (S := S512x1024) hz2, View.ld_unit_zero (S := S1024x1) hz2, View.readCov_cons_toLoadRect]
    rfl
  iexists _; isplitr
  swap; · iexact HS3
  ipureintro
  refine (read_wholeStore (S := S1024x1024) _ _ hz2 _ _ _).trans ?_
  sl_unfold_run_names
  simp only [View.readAt_eq_ld, harg2.read_unread, harg3.read_unread, harg6.read_unread, harg7.read_unread, harg8.read_unread, harg9.read_unread, View.ld_unit_zero (S := S1024x1024) hz2, View.ld_unit_zero (S := S512x1024) hz2, View.ld_unit_zero (S := S1024x1) hz2, View.readCov_cons_toLoadRect]
  rfl

set_option maxHeartbeats 1000000 in
/-- A MIDDLE KEY BLOCK (the key-block coordinate is neither 0 nor 15). From the state `s` the four scratch buffers
    carry, the body folds the key block `x1` in, stores the block's scores against `s`'s query halves, keeps the halves,
    and leaves the fourth window as it found it. -/
theorem run0_B (c : Dev nD) (i : grid0.Coords)
    (arg2 : Memref sig .tc .vmem S1024x1024 .f32) (harg2 : arg2.IsWhole) (arg3 : Memref sig .tc .vmem S512x1024 .f32) (harg3 : arg3.IsWhole)
    (arg4 : Memref sig .tc .vmem S1024x512 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1024 .bf16) (harg8 : arg8.IsWhole) (arg9 : Memref sig .tc .vmem S1024x1024 .bf16) (harg9 : arg9.IsWhole)
    (hc0 : ¬cond0_0 i) (hc1 : ¬cond0_1 i)
    (x0 : Vec F S1024x1024 .f32) (x1 : Vec F S512x1024 .f32) (s : St0 F) (xi3 : Vec F S1024x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xi3
        ∗ owns (c : Thread nD τ) arg6 fullShare s.1 ∗ owns (c : Thread nD τ) arg7 fullShare s.2.1
        ∗ owns (c : Thread nD τ) arg8 fullShare s.2.2.1 ∗ owns (c : Thread nD τ) arg9 fullShare s.2.2.2
        ∗ (iprop(owns (c : Thread nD τ) arg2 fullShare x0 ∗ owns (c : Thread nD τ) arg3 fullShare x1
            ∗ owns (c : Thread nD τ) arg4 fullShare (scores0 x1 s)
            ∗ owns (c : Thread nD τ) arg5 fullShare xi3
            ∗ owns (c : Thread nD τ) arg6 fullShare (step0 x1 s).1
            ∗ owns (c : Thread nD τ) arg7 fullShare (step0 x1 s).2.1
            ∗ owns (c : Thread nD τ) arg8 fullShare (step0 x1 s).2.2.1
            ∗ owns (c : Thread nD τ) arg9 fullShare (step0 x1 s).2.2.2) -∗ K ⟨⟩))
      ⊢ wp frame (wpE (defs₀ (F := F)) Variants.none c none) E (cc0__scores_lse_kernel i arg2 harg2 arg3 harg3 arg4 harg4 arg5 harg5 arg6 harg6 arg7 harg7 arg8 harg8 arg9 harg9) K := by
  simp only [cc0__scores_lse_kernel_eq_skeleton]; unfold cc0__scores_lse_kernel_skel
  simp only [k0_part1_eq_skeleton]; unfold k0_part1_skel
  unfold owns
  iintro ⟨⟨%f0, %hf0, H0⟩, ⟨%f1, %hf1, H1⟩, ⟨%d2, %f2, -, H2⟩, ⟨%f3, %hf3, H3⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg5.eq_unread hf3
  obtain rfl := harg6.eq_unread hfs0; obtain rfl := harg7.eq_unread hfs1; obtain rfl := harg8.eq_unread hfs2; obtain rfl := harg9.eq_unread hfs3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (read_wholeStore (S := S1024x512) _ _ hz2 _ _ _).trans ?_
    sl_unfold_run_names
    simp only [View.readAt_eq_ld, harg2.read_unread, harg3.read_unread, harg6.read_unread, harg7.read_unread, harg8.read_unread, harg9.read_unread, View.ld_unit_zero (S := S1024x1024) hz2, View.ld_unit_zero (S := S512x1024) hz2, View.ld_unit_zero (S := S1024x1) hz2, View.readCov_cons_toLoadRect]
    rfl
  isplitl [H3]
  · iexists _; isplitr; · ipureintro; exact harg5.read_unread _
    iexact H3
  isplitl [HS0]
  · iexists _; isplitr
    swap; · iexact HS0
    ipureintro
    refine (read_wholeStore (S := S1024x1) _ _ hz2 _ _ _).trans ?_
    sl_unfold_run_names
    simp only [View.readAt_eq_ld, harg2.read_unread, harg3.read_unread, harg6.read_unread, harg7.read_unread, harg8.read_unread, harg9.read_unread, View.ld_unit_zero (S := S1024x1024) hz2, View.ld_unit_zero (S := S512x1024) hz2, View.ld_unit_zero (S := S1024x1) hz2, View.readCov_cons_toLoadRect]
    rfl
  isplitl [HS1]
  · iexists _; isplitr
    swap; · iexact HS1
    ipureintro
    refine (read_wholeStore (S := S1024x1) _ _ hz2 _ _ _).trans ?_
    sl_unfold_run_names
    simp only [View.readAt_eq_ld, harg2.read_unread, harg3.read_unread, harg6.read_unread, harg7.read_unread, harg8.read_unread, harg9.read_unread, View.ld_unit_zero (S := S1024x1024) hz2, View.ld_unit_zero (S := S512x1024) hz2, View.ld_unit_zero (S := S1024x1) hz2, View.readCov_cons_toLoadRect]
    rfl
  isplitl [HS2]
  · iexists _; isplitr; · ipureintro; exact harg8.read_unread _
    iexact HS2
  iexists _; isplitr; · ipureintro; exact harg9.read_unread _
  iexact HS3

set_option maxHeartbeats 1000000 in
/-- THE LAST KEY BLOCK (the key-block coordinate is 15). As at a middle block, and then the fourth window receives
    the new maximum plus the logarithm of the new sum. -/
theorem run0_C (c : Dev nD) (i : grid0.Coords)
    (arg2 : Memref sig .tc .vmem S1024x1024 .f32) (harg2 : arg2.IsWhole) (arg3 : Memref sig .tc .vmem S512x1024 .f32) (harg3 : arg3.IsWhole)
    (arg4 : Memref sig .tc .vmem S1024x512 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1024 .bf16) (harg8 : arg8.IsWhole) (arg9 : Memref sig .tc .vmem S1024x1024 .bf16) (harg9 : arg9.IsWhole)
    (hc0 : ¬cond0_0 i) (hc1 : cond0_1 i)
    (x0 : Vec F S1024x1024 .f32) (x1 : Vec F S512x1024 .f32) (s : St0 F) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (∃ d, owns (c : Thread nD τ) arg5 fullShare d)
        ∗ owns (c : Thread nD τ) arg6 fullShare s.1 ∗ owns (c : Thread nD τ) arg7 fullShare s.2.1
        ∗ owns (c : Thread nD τ) arg8 fullShare s.2.2.1 ∗ owns (c : Thread nD τ) arg9 fullShare s.2.2.2
        ∗ (iprop(owns (c : Thread nD τ) arg2 fullShare x0 ∗ owns (c : Thread nD τ) arg3 fullShare x1
            ∗ owns (c : Thread nD τ) arg4 fullShare (scores0 x1 s)
            ∗ owns (c : Thread nD τ) arg5 fullShare (k0_pay3 (step0 x1 s).1 (step0 x1 s).2.1)
            ∗ owns (c : Thread nD τ) arg6 fullShare (step0 x1 s).1
            ∗ owns (c : Thread nD τ) arg7 fullShare (step0 x1 s).2.1
            ∗ owns (c : Thread nD τ) arg8 fullShare (step0 x1 s).2.2.1
            ∗ owns (c : Thread nD τ) arg9 fullShare (step0 x1 s).2.2.2) -∗ K ⟨⟩))
      ⊢ wp frame (wpE (defs₀ (F := F)) Variants.none c none) E (cc0__scores_lse_kernel i arg2 harg2 arg3 harg3 arg4 harg4 arg5 harg5 arg6 harg6 arg7 harg7 arg8 harg8 arg9 harg9) K := by
  simp only [cc0__scores_lse_kernel_eq_skeleton]; unfold cc0__scores_lse_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1
  obtain rfl := harg6.eq_unread hfs0; obtain rfl := harg7.eq_unread hfs1; obtain rfl := harg8.eq_unread hfs2; obtain rfl := harg9.eq_unread hfs3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (read_wholeStore (S := S1024x512) _ _ hz2 _ _ _).trans ?_
    sl_unfold_run_names
    simp only [View.readAt_eq_ld, harg2.read_unread, harg3.read_unread, harg6.read_unread, harg7.read_unread, harg8.read_unread, harg9.read_unread, View.ld_unit_zero (S := S1024x1024) hz2, View.ld_unit_zero (S := S512x1024) hz2, View.ld_unit_zero (S := S1024x1) hz2, View.readCov_cons_toLoadRect]
    rfl
  isplitl [H3]
  · iexists _; isplitr
    swap; · iexact H3
    ipureintro
    refine (read_wholeStore (S := S1024x1) _ _ hz2 _ _ _).trans ?_
    sl_unfold_run_names
    simp only [View.readAt_eq_ld, harg2.read_unread, harg3.read_unread, harg6.read_unread, harg7.read_unread, harg8.read_unread, harg9.read_unread, View.ld_unit_zero (S := S1024x1024) hz2, View.ld_unit_zero (S := S512x1024) hz2, View.ld_unit_zero (S := S1024x1) hz2, View.readCov_cons_toLoadRect]
    rfl
  isplitl [HS0]
  · iexists _; isplitr
    swap; · iexact HS0
    ipureintro
    refine (read_wholeStore (S := S1024x1) _ _ hz2 _ _ _).trans ?_
    sl_unfold_run_names
    simp only [View.readAt_eq_ld, harg2.read_unread, harg3.read_unread, harg6.read_unread, harg7.read_unread, harg8.read_unread, harg9.read_unread, View.ld_unit_zero (S := S1024x1024) hz2, View.ld_unit_zero (S := S512x1024) hz2, View.ld_unit_zero (S := S1024x1) hz2, View.readCov_cons_toLoadRect]
    rfl
  isplitl [HS1]
  · iexists _; isplitr
    swap; · iexact HS1
    ipureintro
    refine (read_wholeStore (S := S1024x1) _ _ hz2 _ _ _).trans ?_
    sl_unfold_run_names
    simp only [View.readAt_eq_ld, harg2.read_unread, harg3.read_unread, harg6.read_unread, harg7.read_unread, harg8.read_unread, harg9.read_unread, View.ld_unit_zero (S := S1024x1024) hz2, View.ld_unit_zero (S := S512x1024) hz2, View.ld_unit_zero (S := S1024x1) hz2, View.readCov_cons_toLoadRect]
    rfl
  isplitl [HS2]
  · iexists _; isplitr; · ipureintro; exact harg8.read_unread _
    iexact HS2
  iexists _; isplitr; · ipureintro; exact harg9.read_unread _
  iexact HS3

end Cert.Kernel.Hand

end
-- ==== Proof.K0BodyB.lean ====
/-
  Region 0's proof data and body obligation, at the contents `V` the region finds.

  After point n the four scratch buffers hold the carried state `st0 V c n`: the running row maximum, the running row
  sum and the query tile's two halves. Point t stores into the third window the scores of its key block against the
  halves of the state it starts from (`in0`), and, at a tile's last key block, into the fourth window the maximum
  plus the logarithm of the sum of the state it ends in. The body obligation is the three case runs, chosen by
  t mod 16.
-/
import proofs.«167355_j84250078478576_2_alg».proof.Proof.K0RunsB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## The carried state point by point, at a point of the grid -/

theorem st0_at (c : Dev nD) (t : Fin cfg0.N) : st0 V c t.val t.isLt = step0 (iblk0 V c 1 t) (in0 V c t.val t.isLt) :=
  st0_eq V c t.val t.isLt
/-- A tile's first key block starts from the fresh state. -/
theorem in0_first (c : Dev nD) (t : Fin cfg0.N) (h : t.val % 16 = 0) : in0 V c t.val t.isLt = init0 (iblk0 V c 0 t) := if_pos h
/-- Every other key block starts from what the point before left. -/
theorem in0_next (c : Dev nD) (t : Fin cfg0.N) (h : ¬t.val % 16 = 0) :
    in0 V c t.val t.isLt = st0 V c (t.val - 1) (Nat.lt_of_le_of_lt (Nat.sub_le _ _) t.isLt) := if_neg h

/-! ## The input windows -/

/-- Input window 0's current staging buffer holds its block at every point, fetched there or not: unfetched, its block
    index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: unfetched, its block
    index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The invariant -/

/-- The core's other scoped buffers (the second kernel's staging buffers and scratch), each at some contents. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_scratch0), ((c : Thread nD τ).loc cc1_scratch0) ↦{fullShare} f))

/-- The class invariant with the four scratch buffers as memrefs owned at some contents. -/
theorem PhiA0_eq (c : Dev nD) :
    (Pipeline.ΦA spec0 c : sProp 𝕄)
      = iprop(iprop((∃ d, owns (c : Thread nD τ) scM0_0 fullShare d)
      ∗ (∃ d, owns (c : Thread nD τ) scM0_1 fullShare d)
      ∗ (∃ d, owns (c : Thread nD τ) scM0_2 fullShare d)
      ∗ (∃ d, owns (c : Thread nD τ) scM0_3 fullShare d)
      ∗ rest0 c) ∗ (∃ r, prngReg c r)) := by
  unfold Pipeline.ΦA rest0; rw [scopedRest0_eq]; simp only [scM0_0, scM0_1, scM0_2, scM0_3, owns_whole]; try rfl

/-- The region invariant before position `n`: before the first point the class's (every scratch buffer at anything);
    afterwards the four scratch buffers at the components of the state the point before left, the other scoped
    buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare (st0 V c n hn).1
      ∗ owns (c : Thread nD τ) scM0_1 fullShare (st0 V c n hn).2.1
      ∗ owns (c : Thread nD τ) scM0_2 fullShare (st0 V c n hn).2.2.1
      ∗ owns (c : Thread nD τ) scM0_3 fullShare (st0 V c n hn).2.2.2
      ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (st0 V c n hn).1
      ∗ owns (c : Thread nD τ) scM0_1 fullShare (st0 V c n hn).2.1
      ∗ owns (c : Thread nD τ) scM0_2 fullShare (st0 V c n hn).2.2.1
      ∗ owns (c : Thread nD τ) scM0_3 fullShare (st0 V c n hn).2.2.2
      ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare (st0 V c (n - 1) (by omega)).1
      ∗ owns (c : Thread nD τ) scM0_1 fullShare (st0 V c (n - 1) (by omega)).2.1
      ∗ owns (c : Thread nD τ) scM0_2 fullShare (st0 V c (n - 1) (by omega)).2.2.1
      ∗ owns (c : Thread nD τ) scM0_3 fullShare (st0 V c (n - 1) (by omega)).2.2.2
      ∗ rest0 c) ∗ (∃ r, prngReg c r)) := by
  cases n with
  | zero => exact absurd rfl hz
  | succ n => rfl

/-! ## The proof data -/

/-- The proof data of pipeline 0 on core `c`: the arrays as the region finds them; after the body at point `t` each
    input's buffer at its block, the third window's at the key block's scores against the halves of the state the
    point starts from, the fourth window's at the maximum plus the logarithm of the sum of the state the point ends
    in (consulted only at a tile's last key block); the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => scores0 (iblk0 V c 1 t) (in0 V c t.val t.isLt)
    | ⟨3, _⟩ => k0_pay3 (st0 V c t.val t.isLt).1 (st0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = scores0 (iblk0 V c 1 t) (in0 V c t.val t.isLt) := by dsimp only [dat0]
theorem after0_3 (c : Dev nD) (t : Fin cfg0.N) :
    (dat0 V c).after 3 t = k0_pay3 (st0 V c t.val t.isLt).1 (st0 V c t.val t.isLt).2.1 := by dsimp only [dat0]

theorem hq0 (c : Dev nD) (w : Fin cfg0.W) : (dat0 V c).q w = fullShare := rfl
theorem howed0 (c : Dev nD) (t : Fin (cfg0.N + 1)) : (dat0 V c).owed t = 0 := rfl
theorem hrec0 (c : Dev nD) (t : Fin (cfg0.N + 1)) : (dat0 V c).recorded t = Set.univ := rfl

theorem PhiS_castSucc (c : Dev nD) (t : Fin cfg0.N) :
    (dat0 V c).Φ t.castSucc = PhiS V c t.val (Nat.le_of_lt t.isLt) := by
  dsimp only [dat0]; simp only [Fin.coe_castSucc]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- Before any point the invariant gives every scratch buffer at some contents: the state's name is forgotten. -/
theorem PhiS_weak (c : Dev nD) (n : ℕ) (h : n ≤ cfg0.N) :
    PhiS V c n h ⊢ (iprop(iprop((∃ d, owns (c : Thread nD τ) scM0_0 fullShare d)
      ∗ (∃ d, owns (c : Thread nD τ) scM0_1 fullShare d)
      ∗ (∃ d, owns (c : Thread nD τ) scM0_2 fullShare d)
      ∗ (∃ d, owns (c : Thread nD τ) scM0_3 fullShare d)
      ∗ rest0 c) ∗ (∃ r, prngReg c r)) : sProp 𝕄) := by
  by_cases hz : n = 0
  · rw [PhiS_zero V c n h hz, PhiA0_eq]
  · rw [PhiS_pos V c n h hz]
    iintro ⟨⟨HS0, HS1, HS2, HS3, Hr⟩, Hg⟩
    isplitl [HS0 HS1 HS2 HS3 Hr]
    · isplitl [HS0]; · iexists _; iexact HS0
      isplitl [HS1]; · iexists _; iexact HS1
      isplitl [HS2]; · iexists _; iexact HS2
      isplitl [HS3]; · iexists _; iexact HS3
      iexact Hr
    iexact Hg

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' memrefs hold their blocks; t mod 16 says which case the point is in. At a
    tile's first key block the scratch buffers may hold anything and the state restarts; elsewhere they hold the state
    the point before left, which is the state this point starts from. Either way the run leaves them at this point's
    state, the third window at this point's scores, and the fourth window untouched except at a tile's last key block,
    where it receives the maximum plus the logarithm of the sum. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [PhiS_castSucc V c t]
  by_cases h0 : t.val % 16 = 0
  · -- a tile's first key block
    have h1 : ¬t.val % 16 = 15 := by omega
    rw [Dat.leavesExact_idle (dat0 V c) 3 t (idleAt0_3 t (fun h => h1 ((hcond0_1 t).mp h))) (noFlush0_3 t (fun h => h1 ((hcond0_1 t).mp h)))]
    rw [st0_at V c t, in0_first V c t h0]
    iintro ⟨HΦ, Ho, ⟨%d0, H0⟩, ⟨%d1, H1⟩, ⟨%d2, H2⟩, ⟨%d3, H3⟩⟩
    ihave HΦ' := (PhiS_weak V c t.val _) $$ HΦ
    icases HΦ' with ⟨⟨HS0, HS1, HS2, HS3, Hr⟩, Hg⟩
    iapply (run0_A c (grid0.coords t) _ _ _ _ _ _ _ _ _ _ _ _ _ _ _ _ ((hcond0_0 t).mpr h0) (fun h => h1 ((hcond0_1 t).mp h)) (iblk0 V c 0 t) (iblk0 V c 1 t) _ Set.univ _)
    isplitl [H0]; · iexact H0
    isplitl [H1]; · iexact H1
    isplitl [H2]; · iexists _; iexact H2
    isplitl [H3]; · iexact H3
    isplitl [HS0]; · iexact HS0
    isplitl [HS1]; · iexact HS1
    isplitl [HS2]; · iexact HS2
    isplitl [HS3]; · iexact HS3
    iintro ⟨H0, H1, H2, H3, HS0, HS1, HS2, HS3⟩
    isplitl [HS0 HS1 HS2 HS3 Hr Hg]
    · isplitl [HS0 HS1 HS2 HS3 Hr]
      · isplitl [HS0]; · iexact HS0
        isplitl [HS1]; · iexact HS1
        isplitl [HS2]; · iexact HS2
        isplitl [HS3]; · iexact HS3
        iexact Hr
      iexact Hg
    isplitl [Ho]; · iexact Ho
    isplitl [H0]; · iexact H0
    isplitl [H1]; · iexact H1
    isplitl [H2]; · iexact H2
    iexists _; iexact H3
  · have hz : t.val ≠ 0 := fun e => h0 (by rw [e])
    rw [PhiS_pos V c _ _ hz]
    by_cases h1 : t.val % 16 = 15
    · -- a tile's last key block
      rw [show (dat0 V c).leavesExact 3 t = owns (c : Thread nD τ) (ms0_3 t) fullShare ((dat0 V c).after 3 t) from by
        unfold Dat.leavesExact; rw [liveAt0_3 t ((hcond0_1 t).mpr h1)], after0_3]
      rw [st0_at V c t, in0_next V c t h0]
      iintro ⟨⟨⟨HS0, HS1, HS2, HS3, Hr⟩, Hg⟩, Ho, ⟨%d0, H0⟩, ⟨%d1, H1⟩, ⟨%d2, H2⟩, ⟨%d3, H3⟩⟩
      iapply (run0_C c (grid0.coords t) _ _ _ _ _ _ _ _ _ _ _ _ _ _ _ _ (fun h => h0 ((hcond0_0 t).mp h)) ((hcond0_1 t).mpr h1) (iblk0 V c 0 t) (iblk0 V c 1 t) (st0 V c (t.val - 1) (Nat.lt_of_le_of_lt (Nat.sub_le _ _) t.isLt)) Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      isplitl [HS2]; · iexact HS2
      isplitl [HS3]; · iexact HS3
      iintro ⟨H0, H1, H2, H3, HS0, HS1, HS2, HS3⟩
      isplitl [HS0 HS1 HS2 HS3 Hr Hg]
      · isplitl [HS0 HS1 HS2 HS3 Hr]
        · isplitl [HS0]; · iexact HS0
          isplitl [HS1]; · iexact HS1
          isplitl [HS2]; · iexact HS2
          isplitl [HS3]; · iexact HS3
          iexact Hr
        iexact Hg
      isplitl [Ho]; · iexact Ho
      isplitl [H0]; · iexact H0
      isplitl [H1]; · iexact H1
      isplitl [H2]; · iexact H2
      iexact H3
    · -- a middle key block
      rw [Dat.leavesExact_idle (dat0 V c) 3 t (idleAt0_3 t (fun h => h1 ((hcond0_1 t).mp h))) (noFlush0_3 t (fun h => h1 ((hcond0_1 t).mp h)))]
      rw [st0_at V c t, in0_next V c t h0]
      iintro ⟨⟨⟨HS0, HS1, HS2, HS3, Hr⟩, Hg⟩, Ho, ⟨%d0, H0⟩, ⟨%d1, H1⟩, ⟨%d2, H2⟩, ⟨%d3, H3⟩⟩
      iapply (run0_B c (grid0.coords t) _ _ _ _ _ _ _ _ _ _ _ _ _ _ _ _ (fun h => h0 ((hcond0_0 t).mp h)) (fun h => h1 ((hcond0_1 t).mp h)) (iblk0 V c 0 t) (iblk0 V c 1 t) (st0 V c (t.val - 1) (Nat.lt_of_le_of_lt (Nat.sub_le _ _) t.isLt)) _ Set.univ _)
      isplitl [H0]; · iexact H0
      isplitl [H1]; · iexact H1
      isplitl [H2]; · iexists _; iexact H2
      isplitl [H3]; · iexact H3
      isplitl [HS0]; · iexact HS0
      isplitl [HS1]; · iexact HS1
      isplitl [HS2]; · iexact HS2
      isplitl [HS3]; · iexact HS3
      iintro ⟨H0, H1, H2, H3, HS0, HS1, HS2, HS3⟩
      isplitl [HS0 HS1 HS2 HS3 Hr Hg]
      · isplitl [HS0 HS1 HS2 HS3 Hr]
        · isplitl [HS0]; · iexact HS0
          isplitl [HS1]; · iexact HS1
          isplitl [HS2]; · iexact HS2
          isplitl [HS3]; · iexact HS3
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the class's back: the state's name is forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl, PhiA0_eq]
  exact PhiS_weak V c _ _

end Cert.Kernel.Hand

end
-- ==== Proof.RegionsRunB.lean ====
/-
  The whole run of the two-kernel attention program, given each kernel's per-point behaviour.

  @main is: a host cast of v, the score kernel (region 0), a host copy of the raw scores into the attention
  buffer, the normalising kernel (region 1). Given, for each kernel, proof data whose arrays are the buffers as
  the region finds them, the body's behaviour at every grid point, and an invariant that starts from and returns
  to "every scoped buffer at some contents", every weakly fair execution terminates and every unscoped buffer
  ends at the contents `W4`: the launch memory, then the cast, then region 0's arrays at what its write-backs
  leave, then the copy, then region 1's arrays at what its write-backs leave.
-/
import proofs.«167355_j84250078478576_2_alg».proof.Proof.Gen.Kernel.Launch
import proofs.«167355_j84250078478576_2_alg».proof.Proof.Gen.Kernel.Skeleton
import proofs.«167355_j84250078478576_2_alg».proof.Proof.Gen.Kernel.Points
import proofs.«167355_j84250078478576_2_alg».proof.Proof.KDefsB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the run needs of the score kernel: proof data at any entry contents `V` whose arrays are `V`'s, full
    shares, nothing owed, the body's behaviour at every point, and an invariant that starts from and returns to
    "every scoped buffer at some contents, the generator register at some state". -/
structure Kit0 (F : FTy → Type) [FloatOps F] where
  dat : (V : Entry F) → (c : Dev nD) → Dat τ (Elt F) Unit ℕ (UR sig nD τ) ℕ cfg0 c
  hA : ∀ (V : Entry F) c w, (dat V c).A w = V c (Pipeline.arrRef spec0 w)
  hq : ∀ (V : Entry F) c w, (dat V c).q w = fullShare
  howed : ∀ (V : Entry F) c t, (dat V c).owed t = 0
  hrec : ∀ (V : Entry F) c t, (dat V c).recorded t = Set.univ
  hbody : ∀ (V : Entry F) c, BodyObligation (dat V c) (defs₀ (F := F)) Variants.none () Set.univ
  hin : ∀ (V : Entry F) c, (Pipeline.ΦA spec0 c : sProp (MT nD τ sig Unit (Elt F) ℕ (UR sig nD τ) ℕ)) ⊢ (dat V c).Φ 0
  hout : ∀ (V : Entry F) c, (dat V c).Φ (Fin.last cfg0.N) ⊢ (Pipeline.ΦA spec0 c : sProp (MT nD τ sig Unit (Elt F) ℕ (UR sig nD τ) ℕ))

/-- The same for the normalising kernel. -/
structure Kit1 (F : FTy → Type) [FloatOps F] where
  dat : (V : Entry F) → (c : Dev nD) → Dat τ (Elt F) Unit ℕ (UR sig nD τ) ℕ cfg1 c
  hA : ∀ (V : Entry F) c w, (dat V c).A w = V c (Pipeline.arrRef spec1 w)
  hq : ∀ (V : Entry F) c w, (dat V c).q w = fullShare
  howed : ∀ (V : Entry F) c t, (dat V c).owed t = 0
  hrec : ∀ (V : Entry F) c t, (dat V c).recorded t = Set.univ
  hbody : ∀ (V : Entry F) c, BodyObligation (dat V c) (defs₀ (F := F)) Variants.none () Set.univ
  hin : ∀ (V : Entry F) c, (Pipeline.ΦA spec1 c : sProp (MT nD τ sig Unit (Elt F) ℕ (UR sig nD τ) ℕ)) ⊢ (dat V c).Φ 0
  hout : ∀ (V : Entry F) c, (dat V c).Φ (Fin.last cfg1.N) ⊢ (Pipeline.ΦA spec1 c : sProp (MT nD τ sig Unit (Elt F) ℕ (UR sig nD τ) ℕ))

section Run

variable (m : (ℓ : Loc nD τ sig) → Buf (Elt F) ℓ) (ρ : Dev nD → PrngReg) (K0 : Kit0 F) (K1 : Kit1 F)

/-! ## The buffer contents at each boundary of @main -/

/-- Core `c`'s buffers at launch. -/
abbrev W0 : Dev nD → Valuation τ sig (Elt F) := fun c b => (s₀ m ρ).mem ((c : Dev nD), b)
/-- After the cast of v (region 0's entry). -/
abbrev W1 : Dev nD → Valuation τ sig (Elt F) := fun c => StableHlo.after hostOps0 (W0 m ρ c)
abbrev V1 : Entry F := fun c b => W1 m ρ c b
/-- After region 0: its arrays at what the pipeline leaves, every other buffer as entered. -/
def W2 (c : Dev nD) : Valuation τ sig (Elt F) :=
  Pipeline.withArrays spec0 c (W1 m ρ c) fun w => (K0.dat (V1 m ρ) c).arrAt w cfg0.N
theorem W2_arr (c : Dev nD) (w : Fin cfg0.W) :
    W2 m ρ K0 c (Proc.devRef .tc (Pipeline.arrRef spec0 w)) = (K0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ K0 c (Proc.devRef .tc b) = W1 m ρ c (Proc.devRef .tc b) := by
  unfold W2; exact Pipeline.withArrays_of_ne spec0 c _ _ b hb
abbrev V2 : Entry F := fun c b => W2 m ρ K0 c b
theorem hF0 (c : Dev nD) (w : Fin cfg0.W) : (K0.dat (V1 m ρ) c).arrAt w cfg0.N = V2 m ρ K0 c (Pipeline.arrRef spec0 w) :=
  (W2_arr m ρ K0 c w).symm
theorem hrest0 (c : Dev nD) : ∀ b, b ∉ Finset.univ.image (Pipeline.arrRef spec0) → V2 m ρ K0 c b = V1 m ρ c b :=
  fun b hb => W2_of_ne m ρ K0 c b fun w e => hb (Finset.mem_image.mpr ⟨w, Finset.mem_univ _, e⟩)

/-- After the copy of the raw scores (region 1's entry). -/
abbrev W3 : Dev nD → Valuation τ sig (Elt F) := fun c => StableHlo.after hostOps1 (W2 m ρ K0 c)
abbrev V3 : Entry F := fun c b => W3 m ρ K0 c b
/-- After region 1. -/
def W4 (c : Dev nD) : Valuation τ sig (Elt F) :=
  Pipeline.withArrays spec1 c (W3 m ρ K0 c) fun w => (K1.dat (V3 m ρ K0) c).arrAt w cfg1.N
theorem W4_arr (c : Dev nD) (w : Fin cfg1.W) :
    W4 m ρ K0 K1 c (Proc.devRef .tc (Pipeline.arrRef spec1 w)) = (K1.dat (V3 m ρ K0) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ K0 K1 c (Proc.devRef .tc b) = W3 m ρ K0 c (Proc.devRef .tc b) := by
  unfold W4; exact Pipeline.withArrays_of_ne spec1 c _ _ b hb
abbrev V4 : Entry F := fun c b => W4 m ρ K0 K1 c b
theorem hF1 (c : Dev nD) (w : Fin cfg1.W) : (K1.dat (V3 m ρ K0) c).arrAt w cfg1.N = V4 m ρ K0 K1 c (Pipeline.arrRef spec1 w) :=
  (W4_arr m ρ K0 K1 c w).symm
theorem hrest1 (c : Dev nD) : ∀ b, b ∉ Finset.univ.image (Pipeline.arrRef spec1) → V4 m ρ K0 K1 c b = V3 m ρ K0 c b :=
  fun b hb => W4_of_ne m ρ K0 K1 c b fun w e => hb (Finset.mem_image.mpr ⟨w, Finset.mem_univ _, e⟩)

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => K0.dat (V1 m ρ) c
  | ⟨1, _⟩ => fun c => K1.dat (V3 m ρ K0) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ K0 K1 c) ∗ ∃ r, prngReg c r)

/-! ## The regions as segments -/

set_option backward.isDefEq.respectTransparency.types false in
/-- Region 0 (the score kernel): entered from every unscoped buffer at `W1`, left at `W2`. -/
def reg0 : Pipeline.RegionSeg (pcfgs (F := F)) adm (pdats m ρ K0 K1) () defs₀ 𝒱₀ L lv 0 where
  win := launch0.win.to₀
  block_pos := launch0.block_pos
  stage_whole := launch0.stage_whole
  K := PEmpty
  osem k := k.elim
  ho := Pipeline.OwnSemFacts.none _
  hbody c := (K0.hbody (V1 m ρ) c).loose
  hwaits := Pipeline.hwaits_of_owed_zero _ _ _ _ L lv 0 fun c t => K0.howed (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ K0 c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ K0 K1) launch0.win launch0.arr_whole c
      ((pdats m ρ K0 K1 0 c).share_full fun w => K0.hq (V1 m ρ) c w) (V1 m ρ c) fun w => K0.hA (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ K0 K1 0 c).owed 0 = 0 from K0.howed (V1 m ρ) c 0]
      icases HO with ⟨%W, HO⟩; iexists W; isplitr
      · ipureintro; exact fun x _ => Or.inl (by rw [show (pdats m ρ K0 K1 0 c).recorded 0 = Set.univ from K0.hrec (V1 m ρ) c 0]; exact Set.mem_univ x)
      iexact HO
    isplitl [Hp]; · iexact Hp
    iexact Hrest
  hin c := by
    rw [show (pdats m ρ K0 K1 0 c).Φ 0 = (K0.dat (V1 m ρ) c).Φ 0 from rfl]
    have h1 := K0.hin (V1 m ρ) c
    iintro ⟨Hp, -, Hr⟩
    iapply h1
    iapply (show (iprop(Pipeline.scopedRest spec0 c ∗ ∃ r, prngReg c r) : sProp 𝕄) ⊢ Pipeline.ΦA spec0 c from by unfold Pipeline.ΦA; exact .rfl)
    isplitl [Hr]; · iexact Hr
    iexact Hp
  hout c := by
    rw [Pipeline.ownSems0_none, show (pdats m ρ K0 K1 0 c).Φ (Fin.last (Pipeline.pin (pcfgs (F := F)) adm 0).N) = (K0.dat (V1 m ρ) c).Φ (Fin.last cfg0.N) from rfl]
    have h2 := K0.hout (V1 m ρ) c
    have h3 : (Pipeline.ΦA spec0 c : sProp 𝕄) ⊢ iprop(Pipeline.scopedRest spec0 c ∗ ∃ r, prngReg c r) := by unfold Pipeline.ΦA; exact .rfl
    iintro H
    ihave H2 := h2 $$ H
    ihave H3 := h3 $$ H2
    icases H3 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ K0 K1) ((pdats m ρ K0 K1 0 c).share_full fun w => K0.hq (V1 m ρ) c w)
      (V1 m ρ c) (V2 m ρ K0 c) ((pdats m ρ K0 K1 0 c).arrAt · cfg0.N) (hF0 m ρ K0 c) (hrest0 m ρ K0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ K0 K1 0 c).owed (Fin.last (Pipeline.pin (pcfgs (F := F)) adm 0).N) = 0 from K0.howed (V1 m ρ) c _]
    icases HO with ⟨%W, -, HO⟩; iexists W; iexact HO

set_option backward.isDefEq.respectTransparency.types false in
/-- Region 1 (the normalising kernel): entered from every unscoped buffer at `W3`, left at `W4`. -/
def reg1 : Pipeline.RegionSeg (pcfgs (F := F)) adm (pdats m ρ K0 K1) () defs₀ 𝒱₀ L lv 1 where
  win := launch1.win.to₀
  block_pos := launch1.block_pos
  stage_whole := launch1.stage_whole
  K := PEmpty
  osem k := k.elim
  ho := Pipeline.OwnSemFacts.none _
  hbody c := (K1.hbody (V3 m ρ K0) c).loose
  hwaits := Pipeline.hwaits_of_owed_zero _ _ _ _ L lv 1 fun c t => K1.howed (V3 m ρ K0) c t
  pre c := iprop(StableHlo.held (c : Thread nD τ) (Pipeline.ucRefs τ sig) (W3 m ρ K0 c) ∗ R c)
  post c := iprop(Tₙ m ρ K0 K1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ K0 c)
  hentry c := by
    rw [Pipeline.ownSems0_none]
    have hsplit := Pipeline.arrays_of_unscopedBufs (p := 1) (pcfgs (F := F)) adm (pdats m ρ K0 K1) launch1.win launch1.arr_whole c
      ((pdats m ρ K0 K1 1 c).share_full fun w => K1.hq (V3 m ρ K0) c w) (V3 m ρ K0 c) fun w => K1.hA (V3 m ρ K0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ K0 K1 1 c).owed 0 = 0 from K1.howed (V3 m ρ K0) c 0]
      icases HO with ⟨%W, HO⟩; iexists W; isplitr
      · ipureintro; exact fun x _ => Or.inl (by rw [show (pdats m ρ K0 K1 1 c).recorded 0 = Set.univ from K1.hrec (V3 m ρ K0) c 0]; exact Set.mem_univ x)
      iexact HO
    isplitl [Hp]; · iexact Hp
    iexact Hrest
  hin c := by
    rw [show (pdats m ρ K0 K1 1 c).Φ 0 = (K1.dat (V3 m ρ K0) c).Φ 0 from rfl]
    have h1 := K1.hin (V3 m ρ K0) c
    iintro ⟨Hp, -, Hr⟩
    iapply h1
    iapply (show (iprop(Pipeline.scopedRest spec1 c ∗ ∃ r, prngReg c r) : sProp 𝕄) ⊢ Pipeline.ΦA spec1 c from by unfold Pipeline.ΦA; exact .rfl)
    isplitl [Hr]; · iexact Hr
    iexact Hp
  hout c := by
    rw [Pipeline.ownSems0_none, show (pdats m ρ K0 K1 1 c).Φ (Fin.last (Pipeline.pin (pcfgs (F := F)) adm 1).N) = (K1.dat (V3 m ρ K0) c).Φ (Fin.last cfg1.N) from rfl]
    have h2 := K1.hout (V3 m ρ K0) c
    have h3 : (Pipeline.ΦA spec1 c : sProp 𝕄) ⊢ iprop(Pipeline.scopedRest spec1 c ∗ ∃ r, prngReg c r) := by unfold Pipeline.ΦA; exact .rfl
    iintro H
    ihave H2 := h2 $$ H
    ihave H3 := h3 $$ H2
    icases H3 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ K0 K1) ((pdats m ρ K0 K1 1 c).share_full fun w => K1.hq (V3 m ρ K0) c w)
      (V3 m ρ K0 c) (V4 m ρ K0 K1 c) ((pdats m ρ K0 K1 1 c).arrAt · cfg1.N) (hF1 m ρ K0 K1 c) (hrest1 m ρ K0 K1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m ρ K0 K1 1 c).owed (Fin.last (Pipeline.pin (pcfgs (F := F)) adm 1).N) = 0 from K1.howed (V3 m ρ K0) c _]
    icases HO with ⟨%W, -, HO⟩; iexists W; iexact HO

/-! ## @main as segments, and the launch -/

abbrev segs : List (Pipeline.Seg (pcfgs (F := F)) adm (pdats m ρ K0 K1) () defs₀ 𝒱₀ L lv) :=
  [ .host (hseg hostOps0 hostOps0_sub hostOps0_fresh (W0 m ρ)),
    .region (reg0 m ρ K0 K1),
    .host (hseg hostOps1 hostOps1_sub hostOps1_fresh (W2 m ρ K0)),
    .region (reg1 m ρ K0 K1) ]

theorem main_run (c : Dev nD) : main (F := F) c = Pipeline.Seg.run (segs m ρ K0 K1) :=
  (main_chain c).trans (by chain_rfl)

set_option backward.isDefEq.respectTransparency.types false in
/-- THE RUN: from any memory with zero counters every weakly fair execution of @main terminates, nothing faulting,
    with every unscoped buffer of every core at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ K0 K1 c b) :=
  Pipeline.θ_run_regions_kit (pcfgs (F := F)) adm (pdats m ρ K0 K1) () cellOf_inj emb₁ defs₀ 𝒱₀ L lv m ρ main
    (segs m ρ K0 K1)
    (fun c Q => by rw [main_run m ρ K0 K1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ K0 K1)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ K0 K1 c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ K0 K1 c) s')
      isplitl [Hh] <;> iassumption)
    (hQ := fun s h => h)

end Run

end Cert.Kernel.Hand

end
-- ==== Proof.K0KitB.lean ====
/-
  The score kernel's kit: its proof data at any contents the region finds, with the facts the whole run asks of
  it, bundled.
-/
import proofs.«167355_j84250078478576_2_alg».proof.Proof.K0BodyB
import proofs.«167355_j84250078478576_2_alg».proof.Proof.RegionsRunB

noncomputable section

namespace Cert.Kernel.Hand

open Cert.Kernel Cert.Kernel.Gen
open Idealize.ShloMosaic Idealize.ShloMosaic.TcCoe Idealize.SL.Sem

variable {F : FTy → Type} [FloatOps F]

/-- The score kernel's kit. -/
def kit0 : Kit0 F where
  dat := dat0
  hA := A_eq0
  hq := hq0
  howed := howed0
  hrec := hrec0
  hbody := body_obligation0
  hin := hin0
  hout := hout0

end Cert.Kernel.Hand

end
-- ==== Proof.K1RunsB.lean ====
/-
  Region 1 (normalise and context): the body's two conditionals in closed form over the 8×8 grid, where its
  windows are live, the shape of the region invariant, and the body run once per case.

  The grid point t = 8·i + j handles query tile i and key/value block j. The body computes
  p = exp(s − lse) for the score block s and the tile's log-sum-exp column, stores p as the attention block,
  and adds p·v to an accumulator that is cleared when j = 0 and copied to the context block when j = 7.
-/
import proofs.«167355_j84250078478576_2_alg».proof.Proof.KDefsB
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body (the accumulator is cleared): the point's second coordinate is 0. -/
abbrev cond1_0 (i : grid1.Coords) : Prop := (Scalar.cmpi .ne (Scalar.extui (Scalar.cmpi .eq (BitVec.ofNat 32 (i 1).val) 0#32)) 0#32) = 1#1
/-- It holds exactly at the points t with t % 8 = 0: decided over the 64 points of the grid. -/
theorem hcond1_0 : ∀ t : Fin cfg1.N, cond1_0 (grid1.coords t) ↔ t.val % 8 = 0 :=
  (by decide +kernel : ∀ t : Fin grid1.N, cond1_0 (grid1.coords t) ↔ t.val % 8 = 0)
/-- The second conditional of the body (the accumulator is copied to the context block): the second coordinate is 7. -/
abbrev cond1_1 (i : grid1.Coords) : Prop := k1_cond2 i = 1#1
/-- It holds exactly at the points t with t % 8 = 7. -/
theorem hcond1_1 : ∀ t : Fin cfg1.N, cond1_1 (grid1.coords t) ↔ t.val % 8 = 7 :=
  (by decide +kernel : ∀ t : Fin grid1.N, cond1_1 (grid1.coords t) ↔ t.val % 8 = 7)

/-- Both offsets of a whole-buffer access are zero. -/
theorem hz : (![0, 0] : Fin 2 → Nat) = fun _ => 0 := funext fun a => by fin_cases a <;> rfl

/-! ## Where the windows are live

The three inputs and the attention output are stored or read at every point. The context output (window 3) is
stored only where the second coordinate is 7; elsewhere it is idle and not written back. -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_4 : ∀ t : Fin cfg1.N, cfg1.idle 4 (grid1.coords t) = false := by decide +kernel
/-- Where the second coordinate is not 7 the context window is idle, -/
theorem idleAt1_3 : ∀ t : Fin cfg1.N, ¬cond1_1 (grid1.coords t) → cfg1.idle 3 (grid1.coords t) = true := by decide +kernel
/-- and its block is not written back there; -/
theorem noFlush1_3 : ∀ t : Fin cfg1.N, ¬cond1_1 (grid1.coords t) → (cfg1.win 3).flush t = false := by decide +kernel
/-- where it is 7 the window is live. -/
theorem liveAt1_3 : ∀ t : Fin cfg1.N, cond1_1 (grid1.coords t) → cfg1.idle 3 (grid1.coords t) = false := by decide +kernel

/-! ## The region invariant's shape -/

/-- The accumulator: the kernel's one scratch operand, a whole buffer. -/
abbrev scM1 : Memref sig .tc .vmem S1024x1024 .f32 := Memref.whole cc1_scratch0

/-- Re-bracketing a separating conjunction, as an equation. -/
theorem sepA (P Q R : sProp 𝕄) : iprop((P ∗ Q) ∗ R) = iprop(P ∗ Q ∗ R) :=
  BI.equiv_iff.mp ⟨Idealize.SL.BI.sep_assoc, Idealize.SL.BI.sep_assoc'⟩

/-- The core's scoped buffers that are neither a staging buffer of this region nor its accumulator (the other
    region's staging buffers and scratch), each at some contents: the body never touches them. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- The class invariant with the accumulator singled out: the other scoped buffers, the accumulator at some
    contents, the generator register at some state. -/
theorem PhiA1_eq (c : Dev nD) :
    (Pipeline.ΦA spec1 c : sProp 𝕄)
      = iprop(rest1 c ∗ (∃ d, owns (c : Thread nD τ) scM1 fullShare d) ∗ (∃ r, prngReg c r)) := by
  unfold Pipeline.ΦA rest1; rw [scopedRest1_eq]; simp only [scM1, owns_whole, sepA]
  rfl

/-! ## The body, case by case -/

set_option maxHeartbeats 1000000 in
/-- The body at a point whose second coordinate is 0 (and not 7). On whole buffers — the three inputs holding
    x0 (scores), x1 (the log-sum-exp column), x2 (the value block), the context buffer holding xi3, the attention
    buffer and the accumulator holding anything — it leaves the inputs and the context buffer as they were, the
    attention buffer at exp(x0 − x1) and the accumulator at 0 + exp(x0 − x1)·x2: the accumulator is cleared first,
    so what it held does not matter. Every store is of a whole buffer, so each buffer reads back its last payload. -/
theorem run1_first (c : Dev nD) (i : grid1.Coords)
    (arg2 : Memref sig .tc .vmem S1024x1024 .f32) (harg2 : arg2.IsWhole) (arg3 : Memref sig .tc .vmem S1024x1 .f32) (harg3 : arg3.IsWhole)
    (arg4 : Memref sig .tc .vmem S1024x1024 .bf16) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x1024 .f32) (harg7 : arg7.IsWhole)
    (hc0 : cond1_0 i) (hc1 : ¬cond1_1 i)
    (x0 : Vec F S1024x1024 .f32) (x1 : Vec F S1024x1 .f32) (x2 : Vec F S1024x1024 .bf16) (xi3 : Vec F S1024x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay2 x0 x1)
            ∗ owns (c : Thread nD τ) arg7 fullShare (k1_pay3 x0 x1 k1_pay1 x2)) -∗ K ⟨⟩))
      ⊢ wp frame (wpE (defs₀ (F := F)) Variants.none c none) E (cc1__norm_ctx_kernel i arg2 harg2 arg3 harg3 arg4 harg4 arg5 harg5 arg6 harg6 arg7 harg7) K := by
  simp only [cc1__norm_ctx_kernel_eq_skeleton]; unfold cc1__norm_ctx_kernel_skel
  unfold owns
  iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; exact hf3
    iexact H3
  isplitl [H4]
  · iexists _; isplitr
    swap; · iexact H4
    ipureintro
    try sl_unfold_words
    rw [View.read_writes_eq_canon _ _ _ (fun y => ⟨_, List.mem_cons_self .., View.mem_set_unit_zero hz inb_S1024x1024_S1024x1024_0_0 y⟩), View.canon_cons_unit_zero (S := S1024x1024) hz]
    simp only [View.readAt_eq_ld, View.ld_unit_zero (S := S1024x1024) hz, View.ld_unit_zero (S := S1024x1) hz]
  iexists _; isplitr
  swap; · iexact HS
  · ipureintro
    try sl_unfold_words
    rw [View.read_writes_eq_canon _ _ _ (fun y => ⟨_, List.mem_cons_self .., View.mem_set_unit_zero hz inb_S1024x1024_S1024x1024_0_0 y⟩), View.canon_cons_unit_zero (S := S1024x1024) hz]
    rw [View.readCov_unit_zero (S := S1024x1024) _ hz]
    simp only [View.readAt_eq_ld, View.ld_unit_zero (S := S1024x1024) hz, View.ld_unit_zero (S := S1024x1) hz]

set_option maxHeartbeats 1000000 in
/-- The body at a point whose second coordinate is neither 0 nor 7: the accumulator, holding xs, is not cleared
    and ends at xs + exp(x0 − x1)·x2; the context buffer is left as it was. -/
theorem run1_mid (c : Dev nD) (i : grid1.Coords)
    (arg2 : Memref sig .tc .vmem S1024x1024 .f32) (harg2 : arg2.IsWhole) (arg3 : Memref sig .tc .vmem S1024x1 .f32) (harg3 : arg3.IsWhole)
    (arg4 : Memref sig .tc .vmem S1024x1024 .bf16) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x1024 .f32) (harg7 : arg7.IsWhole)
    (hc0 : ¬cond1_0 i) (hc1 : ¬cond1_1 i)
    (x0 : Vec F S1024x1024 .f32) (x1 : Vec F S1024x1 .f32) (x2 : Vec F S1024x1024 .bf16) (xi3 : Vec F S1024x1024 .f32) (xs : Vec F S1024x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay2 x0 x1)
            ∗ owns (c : Thread nD τ) arg7 fullShare (k1_pay3 x0 x1 xs x2)) -∗ K ⟨⟩))
      ⊢ wp frame (wpE (defs₀ (F := F)) Variants.none c none) E (cc1__norm_ctx_kernel i arg2 harg2 arg3 harg3 arg4 harg4 arg5 harg5 arg6 harg6 arg7 harg7) K := by
  simp only [cc1__norm_ctx_kernel_eq_skeleton]; unfold cc1__norm_ctx_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; exact hf3
    iexact H3
  isplitl [H4]
  · iexists _; isplitr
    swap; · iexact H4
    ipureintro
    try sl_unfold_words
    rw [View.read_writes_eq_canon _ _ _ (fun y => ⟨_, List.mem_cons_self .., View.mem_set_unit_zero hz inb_S1024x1024_S1024x1024_0_0 y⟩), View.canon_cons_unit_zero (S := S1024x1024) hz]
    simp only [View.readAt_eq_ld, View.ld_unit_zero (S := S1024x1024) hz, View.ld_unit_zero (S := S1024x1) hz]
  iexists _; isplitr
  swap; · iexact HS
  · ipureintro
    try sl_unfold_words
    rw [View.read_writes_eq_canon _ _ _ (fun y => ⟨_, List.mem_cons_self .., View.mem_set_unit_zero hz inb_S1024x1024_S1024x1024_0_0 y⟩), View.canon_cons_unit_zero (S := S1024x1024) hz]
    simp only [View.readAt_eq_ld, View.ld_unit_zero (S := S1024x1024) hz, View.ld_unit_zero (S := S1024x1) hz]

set_option maxHeartbeats 1000000 in
/-- The body at a point whose second coordinate is 7 (and not 0): the accumulator, holding xs, ends at
    xs + exp(x0 − x1)·x2, and that value is then read back and stored over the whole context buffer, whatever
    that held. -/
theorem run1_last (c : Dev nD) (i : grid1.Coords)
    (arg2 : Memref sig .tc .vmem S1024x1024 .f32) (harg2 : arg2.IsWhole) (arg3 : Memref sig .tc .vmem S1024x1 .f32) (harg3 : arg3.IsWhole)
    (arg4 : Memref sig .tc .vmem S1024x1024 .bf16) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1024x1024 .f32) (harg7 : arg7.IsWhole)
    (hc0 : ¬cond1_0 i) (hc1 : cond1_1 i)
    (x0 : Vec F S1024x1024 .f32) (x1 : Vec F S1024x1 .f32) (x2 : Vec F S1024x1024 .bf16) (xs : Vec F S1024x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 x0 x1 xs x2) ∗ owns (c : Thread nD τ) arg6 fullShare (k1_pay2 x0 x1)
            ∗ owns (c : Thread nD τ) arg7 fullShare (k1_pay3 x0 x1 xs x2)) -∗ K ⟨⟩))
      ⊢ wp frame (wpE (defs₀ (F := F)) Variants.none c none) E (cc1__norm_ctx_kernel i arg2 harg2 arg3 harg3 arg4 harg4 arg5 harg5 arg6 harg6 arg7 harg7) K := by
  simp only [cc1__norm_ctx_kernel_eq_skeleton]; unfold cc1__norm_ctx_kernel_skel
  unfold owns
  iintro ⟨⟨%f0, %hf0, H0⟩, ⟨%f1, %hf1, H1⟩, ⟨%f2, %hf2, H2⟩, ⟨%d3, %f3, -, H3⟩, ⟨%d4, %f4, -, H4⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try sl_unfold_words
    rw [View.read_writes_eq_canon _ _ _ (fun y => ⟨_, List.mem_cons_self .., View.mem_set_unit_zero hz inb_S1024x1024_S1024x1024_0_0 y⟩), View.canon_cons_unit_zero (S := S1024x1024) hz]
    rw [View.readCov_unit_zero (S := S1024x1024) _ hz]
    simp only [View.readAt_eq_ld, View.ld_unit_zero (S := S1024x1024) hz, View.ld_unit_zero (S := S1024x1) hz]
  isplitl [H4]
  · iexists _; isplitr
    swap; · iexact H4
    ipureintro
    try sl_unfold_words
    rw [View.read_writes_eq_canon _ _ _ (fun y => ⟨_, List.mem_cons_self .., View.mem_set_unit_zero hz inb_S1024x1024_S1024x1024_0_0 y⟩), View.canon_cons_unit_zero (S := S1024x1024) hz]
    simp only [View.readAt_eq_ld, View.ld_unit_zero (S := S1024x1024) hz, View.ld_unit_zero (S := S1024x1) hz]
  iexists _; isplitr
  swap; · iexact HS
  · ipureintro
    try sl_unfold_words
    rw [View.read_writes_eq_canon _ _ _ (fun y => ⟨_, List.mem_cons_self .., View.mem_set_unit_zero hz inb_S1024x1024_S1024x1024_0_0 y⟩), View.canon_cons_unit_zero (S := S1024x1024) hz]
    simp only [View.readAt_eq_ld, View.ld_unit_zero (S := S1024x1024) hz, View.ld_unit_zero (S := S1024x1) hz]

end Cert.Kernel.Hand

end
-- ==== Proof.K1BodyB.lean ====
/-
  Region 1 (normalise and context): the proof data of its pipeline at the buffers the region finds, and the
  body obligation.

  After the body at point t the three inputs' buffers hold their blocks, the attention buffer holds
  exp(s − lse) of the score block and the log-sum-exp column, and the accumulator holds the running sum of
  exp(s − lse)·v over the key/value blocks of the query tile so far; where the tile's last block is folded in
  (t % 8 = 7) the context buffer holds that sum too. The invariant between points owns the accumulator at
  that running sum.
-/
import proofs.«167355_j84250078478576_2_alg».proof.Proof.K1RunsB
import proofs.«167355_j84250078478576_2_alg».proof.Proof.RegionsRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## What the body finds in each input's buffer

An input's staging buffer holds its block at every point, fetched there or not: where it is not fetched the
block index has not moved since the point before. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The invariant between points -/

/-- Before the first point: the class invariant (every scoped buffer that is no staging buffer at some contents,
    the generator register at some state). After point n: the same with the accumulator at its value after
    point n. -/
def Phi1 (c : Dev nD) : (n : ℕ) → n ≤ cfg1.N → sProp 𝕄
  | 0, _ => Pipeline.ΦA spec1 c
  | n + 1, hn => iprop(rest1 c ∗ owns (c : Thread nD τ) scM1 fullShare (st1 V c n hn) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(rest1 c ∗ owns (c : Thread nD τ) scM1 fullShare (st1 V c n hn) ∗ (∃ r, prngReg c r)) := rfl

theorem Phi1_pos (c : Dev nD) (n : ℕ) (h : n ≤ cfg1.N) (hz : n ≠ 0) :
    Phi1 V c n h = iprop(rest1 c ∗ owns (c : Thread nD τ) scM1 fullShare (st1 V c (n - 1) (by omega)) ∗ (∃ r, prngReg c r)) := by
  cases n with
  | zero => exact absurd rfl hz
  | succ n => rfl

/-! ## The proof data -/

/-- The pipeline's proof data on core c: the arrays as the region finds them; after the body at point t the
    inputs' buffers at their blocks, the context buffer at the accumulator's value (consulted only where
    t % 8 = 7: elsewhere the window is idle), the attention buffer at exp(s − lse); the invariant above; full
    shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => st1 V c t.val t.isLt
    | ⟨4, _⟩ => k1_pay2 (iblk1 V c 0 t) (iblk1 V c 1 t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = st1 V c t.val t.isLt := by dsimp only [dat1]
theorem after1_4 (c : Dev nD) (t : Fin cfg1.N) : (dat1 V c).after 4 t = k1_pay2 (iblk1 V c 0 t) (iblk1 V c 1 t) := by dsimp only [dat1]

theorem hq1 (c : Dev nD) (w : Fin cfg1.W) : (dat1 V c).q w = fullShare := rfl
theorem howed1 (c : Dev nD) (t : Fin (cfg1.N + 1)) : (dat1 V c).owed t = 0 := rfl
theorem hrec1 (c : Dev nD) (t : Fin (cfg1.N + 1)) : (dat1 V c).recorded t = Set.univ := rfl

/-- The invariant at a point's start, restated at the point's number. -/
theorem Phi1_castSucc (c : Dev nD) (t : Fin cfg1.N) :
    (dat1 V c).Φ t.castSucc = Phi1 V c t.val (Nat.le_of_lt t.isLt) := by
  dsimp only [dat1]; simp only [Fin.coe_castSucc]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The accumulator after point t, from what the point starts from. -/
theorem st1_at (c : Dev nD) (t : Fin cfg1.N) :
    st1 V c t.val t.isLt = k1_pay3 (iblk1 V c 0 t) (iblk1 V c 1 t) (in1 V c t.val t.isLt) (iblk1 V c 2 t) :=
  st1_eq V c t.val t.isLt

/-! ## The body obligation -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; t % 8 says which case the point is in. Where
    t % 8 = 0 the accumulator is cleared, so it may hold anything (the class invariant at the very first point,
    the previous tile's sum later); elsewhere the invariant hands it over at the running sum so far. The context
    window is idle except where t % 8 = 7, and there it receives the finished sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
        unfold Dat.leavesExact; rw [liveAt1_0 t], after1_0]
  rw [show (dat1 V c).leavesExact 1 t = owns (c : Thread nD τ) (st1_1 t) fullShare ((dat1 V c).after 1 t) from by
        unfold Dat.leavesExact; rw [liveAt1_1 t], after1_1]
  rw [show (dat1 V c).leavesExact 2 t = owns (c : Thread nD τ) (st1_2 t) fullShare ((dat1 V c).after 2 t) from by
        unfold Dat.leavesExact; rw [liveAt1_2 t], after1_2]
  rw [show (dat1 V c).leavesExact 4 t = owns (c : Thread nD τ) (st1_4 t) fullShare ((dat1 V c).after 4 t) from by
        unfold Dat.leavesExact; rw [liveAt1_4 t], after1_4]
  rw [Phi1_castSucc V c t]
  have hN : t.val < 64 := lt_of_lt_of_eq t.isLt (show cfg1.N = 64 from N_1)
  by_cases h0 : t.val % 8 = 0
  · by_cases h1 : t.val % 8 = 7
    · exfalso; omega
    · rw [Dat.leavesExact_idle (dat1 V c) 3 t (idleAt1_3 t (fun h => h1 ((hcond1_1 t).mp h))) (noFlush1_3 t (fun h => h1 ((hcond1_1 t).mp h)))]
      rw [st1_at V c t, show in1 V c t.val t.isLt = k1_pay1 from if_pos h0]
      by_cases hz : t.val = 0
      · rw [Phi1_zero V c _ _ hz, PhiA1_eq]
        iintro ⟨⟨HR, HS, Hg⟩, Ho, ⟨%d0, H0⟩, ⟨%d1, H1⟩, ⟨%d2, H2⟩, ⟨%d3, H3⟩, ⟨%d4, H4⟩⟩
        iapply (run1_first c (grid1.coords t) _ _ _ _ _ _ _ _ _ _ _ _ ((hcond1_0 t).mpr h0) (fun h => h1 ((hcond1_1 t).mp h)) (iblk1 V c 0 t) (iblk1 V c 1 t) (iblk1 V c 2 t) ((dat1 V c).before 3 t d3) Set.univ _)
        isplitl [H0]; · iexact H0
        isplitl [H1]; · iexact H1
        isplitl [H2]; · iexact H2
        isplitl [H3]; · iexact H3
        isplitl [H4]; · iexists _; iexact H4
        isplitl [HS]; · iexact HS
        iintro ⟨H0, H1, H2, H3, H4, HS⟩
        isplitl [HR HS Hg]
        · isplitl [HR]; · iexact HR
          isplitl [HS]; · iexact HS
          iexact Hg
        isplitl [Ho]; · iexact Ho
        isplitl [H0]; · iexact H0
        isplitl [H1]; · iexact H1
        isplitl [H2]; · iexact H2
        isplitl [H3]; · iexists d3; iexact H3
        iexact H4
      · rw [Phi1_pos V c _ _ hz]
        iintro ⟨⟨HR, HS, Hg⟩, Ho, ⟨%d0, H0⟩, ⟨%d1, H1⟩, ⟨%d2, H2⟩, ⟨%d3, H3⟩, ⟨%d4, H4⟩⟩
        iapply (run1_first c (grid1.coords t) _ _ _ _ _ _ _ _ _ _ _ _ ((hcond1_0 t).mpr h0) (fun h => h1 ((hcond1_1 t).mp h)) (iblk1 V c 0 t) (iblk1 V c 1 t) (iblk1 V c 2 t) ((dat1 V c).before 3 t d3) Set.univ _)
        isplitl [H0]; · iexact H0
        isplitl [H1]; · iexact H1
        isplitl [H2]; · iexact H2
        isplitl [H3]; · iexact H3
        isplitl [H4]; · iexists _; iexact H4
        isplitl [HS]; · iexists _; iexact HS
        iintro ⟨H0, H1, H2, H3, H4, HS⟩
        isplitl [HR HS Hg]
        · isplitl [HR]; · iexact HR
          isplitl [HS]; · iexact HS
          iexact Hg
        isplitl [Ho]; · iexact Ho
        isplitl [H0]; · iexact H0
        isplitl [H1]; · iexact H1
        isplitl [H2]; · iexact H2
        isplitl [H3]; · iexists d3; iexact H3
        iexact H4
  · have hz : t.val ≠ 0 := fun e => h0 (by rw [e])
    rw [Phi1_pos V c _ _ hz]
    by_cases h1 : t.val % 8 = 7
    · rw [show (dat1 V c).leavesExact 3 t = owns (c : Thread nD τ) (st1_3 t) fullShare ((dat1 V c).after 3 t) from by
        unfold Dat.leavesExact; rw [liveAt1_3 t ((hcond1_1 t).mpr h1)], after1_3]
      rw [st1_at V c t, show in1 V c t.val t.isLt = st1 V c (t.val - 1) (Nat.lt_of_le_of_lt (Nat.sub_le _ _) t.isLt) from if_neg h0]
      iintro ⟨⟨HR, HS, Hg⟩, Ho, ⟨%d0, H0⟩, ⟨%d1, H1⟩, ⟨%d2, H2⟩, ⟨%d3, H3⟩, ⟨%d4, H4⟩⟩
      iapply (run1_last c (grid1.coords t) _ _ _ _ _ _ _ _ _ _ _ _ (fun h => h0 ((hcond1_0 t).mp h)) ((hcond1_1 t).mpr h1) (iblk1 V c 0 t) (iblk1 V c 1 t) (iblk1 V c 2 t) (st1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, H3, H4, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 3 t (idleAt1_3 t (fun h => h1 ((hcond1_1 t).mp h))) (noFlush1_3 t (fun h => h1 ((hcond1_1 t).mp h)))]
      rw [st1_at V c t, show in1 V c t.val t.isLt = st1 V c (t.val - 1) (Nat.lt_of_le_of_lt (Nat.sub_le _ _) t.isLt) from if_neg h0]
      iintro ⟨⟨HR, HS, Hg⟩, Ho, ⟨%d0, H0⟩, ⟨%d1, H1⟩, ⟨%d2, H2⟩, ⟨%d3, H3⟩, ⟨%d4, H4⟩⟩
      iapply (run1_mid c (grid1.coords t) _ _ _ _ _ _ _ _ _ _ _ _ (fun h => h0 ((hcond1_0 t).mp h)) (fun h => h1 ((hcond1_1 t).mp h)) (iblk1 V c 0 t) (iblk1 V c 1 t) (iblk1 V c 2 t) ((dat1 V c).before 3 t d3) (st1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexists d3; iexact H3
      iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- After any point the invariant gives the class invariant back: the accumulator's value is forgotten. -/
theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨HR, HS, Hg⟩
  isplitl [HR]; · iexact HR
  isplitl [HS]; · iexists _; iexact HS
  iexact Hg

/-- The same after the last point. -/
theorem hout1 (c : Dev nD) : (dat1 V c).Φ (Fin.last cfg1.N) ⊢ Pipeline.ΦA spec1 c :=
  Phi1_out V c _ (by rw [Fin.val_last]; have : cfg1.N = 64 := N_1; omega)

/-- Region 1's kit: the proof data and what the run asks of it. -/
def kit1 : Kit1 F where
  dat := fun V c => dat1 V c
  hA := fun V c w => A_eq1 V c w
  hq := fun V c w => hq1 V c w
  howed := fun V c t => howed1 V c t
  hrec := fun V c t => hrec1 V c t
  hbody := fun V c => body_obligation1 V c
  hin := fun V c => hin1 V c
  hout := fun V c => hout1 V c

end Cert.Kernel.Hand

end
-- ==== Proof.ValEntryB.lean ====
/-
  The buffers at the boundaries of @main, read back to the launch memory and to what each kernel's write-backs leave.

  No host operation and no region writes an argument, so the arguments end as launched. The score kernel finds q and
  k as launched; the normalising kernel finds the raw scores and the row statistics as the score kernel's write-backs
  left them, and v cast to bf16. The two results are what the normalising kernel's write-backs leave.
-/
import proofs.«167355_j84250078478576_2_alg».proof.Proof.RegionsRunB
import proofs.«167355_j84250078478576_2_alg».proof.Proof.Gen.Kernel.Regions
import Idealize.ShloMosaic.Lib.StableHlo.Run

set_option maxRecDepth 16384

noncomputable section

namespace Cert.Kernel.Hand

open Cert.Kernel Cert.Kernel.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg) (K0 : Kit0 F) (K1 : Kit1 F)

/-! ## Through the host stretches -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

theorem W3_of (c : Dev nD) (r : Ref sig .tc) (h : r ∉ hostOps1_W) : W3 m ρ K0 c (Proc.devRef .tc r) = W2 m ρ K0 c (Proc.devRef .tc r) :=
  StableHlo.after_of_writes_sub hostOps1 _ hostOps1_writes h

/-! ## What the score kernel finds -/

theorem V1_arg0 (c : Dev nD) : V1 m ρ c main_arg0 = m ((c : Thread nD τ).loc main_arg0) := W1_of m ρ c main_arg0 (by decide)
theorem V1_arg1 (c : Dev nD) : V1 m ρ c main_arg1 = m ((c : Thread nD τ).loc main_arg1) := W1_of m ρ c main_arg1 (by decide)
theorem V1_arg2 (c : Dev nD) : V1 m ρ c main_arg2 = m ((c : Thread nD τ).loc main_arg2) := W1_of m ρ c main_arg2 (by decide)
/-- The cast of v. -/
theorem V1_v0 (c : Dev nD) : V1 m ρ c main_v0 = truncf .bf16 (m ((c : Thread nD τ).loc main_arg2)) Facts₀.bitsLt_bf16_f32 := by
  show StableHlo.after hostOps0 (W0 m ρ c) (Proc.devRef .tc main_v0) = _
  after_results

/-! ## What the normalising kernel finds -/

/-- The raw scores, as the score kernel's write-backs left them. -/
theorem V3_scores (c : Dev nD) : V3 m ρ K0 c main_v1_0 = (K0.dat (V1 m ρ) c).arrAt 2 cfg0.N :=
  (W3_of m ρ K0 c main_v1_0 (by decide)).trans (W2_arr m ρ K0 c 2)
/-- The row statistics. -/
theorem V3_lse (c : Dev nD) : V3 m ρ K0 c main_v1_1 = (K0.dat (V1 m ρ) c).arrAt 3 cfg0.N :=
  (W3_of m ρ K0 c main_v1_1 (by decide)).trans (W2_arr m ρ K0 c 3)
/-- The cast of v, untouched by the score kernel. -/
theorem V3_v0 (c : Dev nD) : V3 m ρ K0 c main_v0 = truncf .bf16 (m ((c : Thread nD τ).loc main_arg2)) Facts₀.bitsLt_bf16_f32 :=
  (W3_of m ρ K0 c main_v0 (by decide)).trans ((W2_of_ne m ρ K0 c main_v0 (by decide)).trans (V1_v0 m ρ c))

/-! ## The end -/

theorem W4_ctx (c : Dev nD) : W4 m ρ K0 K1 c (Proc.devRef .tc main_v2_0) = (K1.dat (V3 m ρ K0) c).arrAt 3 cfg1.N := W4_arr m ρ K0 K1 c 3
theorem W4_attn (c : Dev nD) : W4 m ρ K0 K1 c (Proc.devRef .tc main_v2_1) = (K1.dat (V3 m ρ K0) c).arrAt 4 cfg1.N := W4_arr m ρ K0 K1 c 4

theorem W4_arg0 (c : Dev nD) : W4 m ρ K0 K1 c (Proc.devRef .tc main_arg0) = m ((c : Thread nD τ).loc main_arg0) :=
  calc W4 m ρ K0 K1 c (Proc.devRef .tc main_arg0)
    _ = W3 m ρ K0 c (Proc.devRef .tc main_arg0) := W4_of_ne m ρ K0 K1 c main_arg0 (by decide)
    _ = W2 m ρ K0 c (Proc.devRef .tc main_arg0) := W3_of m ρ K0 c main_arg0 (by decide)
    _ = W1 m ρ c (Proc.devRef .tc main_arg0) := (W2_arr m ρ K0 c 0).trans (((K0.dat (V1 m ρ) c).arrAt_in 0 rfl _).trans (K0.hA (V1 m ρ) c 0))
    _ = m ((c : Thread nD τ).loc main_arg0) := V1_arg0 m ρ c

theorem W4_arg1 (c : Dev nD) : W4 m ρ K0 K1 c (Proc.devRef .tc main_arg1) = m ((c : Thread nD τ).loc main_arg1) :=
  calc W4 m ρ K0 K1 c (Proc.devRef .tc main_arg1)
    _ = W3 m ρ K0 c (Proc.devRef .tc main_arg1) := W4_of_ne m ρ K0 K1 c main_arg1 (by decide)
    _ = W2 m ρ K0 c (Proc.devRef .tc main_arg1) := W3_of m ρ K0 c main_arg1 (by decide)
    _ = W1 m ρ c (Proc.devRef .tc main_arg1) := (W2_arr m ρ K0 c 1).trans (((K0.dat (V1 m ρ) c).arrAt_in 1 rfl _).trans (K0.hA (V1 m ρ) c 1))
    _ = m ((c : Thread nD τ).loc main_arg1) := V1_arg1 m ρ c

theorem W4_arg2 (c : Dev nD) : W4 m ρ K0 K1 c (Proc.devRef .tc main_arg2) = m ((c : Thread nD τ).loc main_arg2) :=
  calc W4 m ρ K0 K1 c (Proc.devRef .tc main_arg2)
    _ = W3 m ρ K0 c (Proc.devRef .tc main_arg2) := W4_of_ne m ρ K0 K1 c main_arg2 (by decide)
    _ = W2 m ρ K0 c (Proc.devRef .tc main_arg2) := W3_of m ρ K0 c main_arg2 (by decide)
    _ = W1 m ρ c (Proc.devRef .tc main_arg2) := W2_of_ne m ρ K0 c main_arg2 (by decide)
    _ = m ((c : Thread nD τ).loc main_arg2) := V1_arg2 m ρ c

/-- THE RUN, READ: the two results at what the normalising kernel's write-backs leave, the arguments as launched. -/
theorem run_read : θ_run defs (onTc (τ := τ) (main (F := F))) ⟨m, fun _ => 0, ρ⟩ (fun r => ∀ c : Dev nD,
      r.2.mem ((c.tc : Thread nD τ).loc main_v2_0) = (K1.dat (V3 m ρ K0) c).arrAt 3 cfg1.N
      ∧ r.2.mem ((c.tc : Thread nD τ).loc main_v2_1) = (K1.dat (V3 m ρ K0) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v2_0 (by decide))).trans (W4_ctx m ρ K0 K1 c),
     (h c _ (mem_uc main_v2_1 (by decide))).trans (W4_attn m ρ K0 K1 c),
     (h c _ (mem_uc main_arg0 (by decide))).trans (W4_arg0 m ρ K0 K1 c),
     (h c _ (mem_uc main_arg1 (by decide))).trans (W4_arg1 m ρ K0 K1 c),
     (h c _ (mem_uc main_arg2 (by decide))).trans (W4_arg2 m ρ K0 K1 c)⟩)
    (run_all m ρ K0 K1)

end Cert.Kernel.Hand

end
-- ==== Proof.LibLastAxisMax.lean ====
/-
  The host's one-operand reduce with a maximum body over the LAST axis, read at an index given by coordinates, over
  arbitrary extents and at the ideal values:
  • of an `[a, b, n]` array at `(p, q)`, and
  • of an `[a, n]` matrix at `p`:
  the fold of `max` along that axis from the initial value. (The middle-axis form is in LibColumnReads; the kernel-side
  row maximum in LibRowReads.)
-/
import Idealize.ShloMosaic.Lib.ValueIdx
import Idealize.ShloMosaic.PureOps.Ideal.Laws

namespace Cert.LibLastAxisMax

open Idealize.ShloMosaic Idealize.ShloMosaic.ValueIdx

/-- Position `(p, q)` of an `[a, b, n]` array with last coordinate `k` put back is `(p, q, k)`. -/
theorem lift_last3 {a b n : ℕ} (h : (⟨3, ![a, b, n]⟩ : Shape).Reduces [2] (⟨2, ![a, b]⟩ : Shape)) (p : Fin a) (q : Fin b)
    (k : Fin n) : h.lift (ix2 p q) k = ix3 p q k := by
  funext c; apply Fin.ext
  fin_cases c <;> rfl

/-- Row `p` of an `[a, n]` matrix with column `k` put back is `(p, k)`. -/
theorem lift_last2 {a n : ℕ} (h : (⟨2, ![a, n]⟩ : Shape).Reduces [1] (⟨1, ![a]⟩ : Shape)) (p : Fin a) (k : Fin n) :
    h.lift (ix1 p) k = ix2 p k := by
  funext c; apply Fin.ext
  fin_cases c <;> rfl

/-- The host's reduce with a maximum body over the last axis of an `[a, b, n]` array, at `(p, q)`, is the fold of
    `max` over that axis from the initial value. -/
theorem hostLastMax3_apply {φ : FTy} {a b n : ℕ} {u : Shape} (x : FVec Ideal ⟨3, ![a, b, n]⟩ φ) (init : FVec Ideal u φ)
    (h' : (⟨3, ![a, b, n]⟩ : Shape).ReducesTo [2] (⟨2, ![a, b]⟩ : Shape))
    (h : (⟨3, ![a, b, n]⟩ : Shape).Reduces [2] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p q k)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_last3 h p q k))

/-- The host's reduce with a maximum body over the last axis of an `[a, n]` matrix, at `p`, is the fold of `max`
    along row `p` from the initial value. -/
theorem hostLastMax2_apply {φ : FTy} {a n : ℕ} {u : Shape} (x : FVec Ideal ⟨2, ![a, n]⟩ φ) (init : FVec Ideal u φ)
    (h' : (⟨2, ![a, n]⟩ : Shape).ReducesTo [1] (⟨1, ![a]⟩ : Shape))
    (h : (⟨2, ![a, n]⟩ : Shape).Reduces [1] (⟨1, ![a]⟩ : Shape)) (hu : 0 < u.numel) (p : Fin a) :
    Host.reduce (FloatOps.maximumf (F := Ideal) (φ := φ)) x init h' hu (ix1 p)
      = (Finset.univ : Finset (Fin n)).fold max (init (Shape.Idx.first hu)) (fun k => x (ix2 p k)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_last2 h p k))

end Cert.LibLastAxisMax
-- ==== Proof.RefValue.lean ====
/-
  The reference's two results are the attention specification.

  Under finite arguments every stage of the reference is an array of real numbers: the scores are the inner
  products q[r, ·] · k[j, ·]; the reduction by max from −∞ along a row is the row's largest score; the
  exponentials are exp (score − largest); their sum along the row, from 0, is the softmax denominator, which is
  at least 1 and so not zero; the quotient is the attention weight; and the last contraction is the weighted
  sum of the value rows.
-/
import proofs.«167355_j84250078478576_2_alg».proof.Defs
import proofs.«167355_j84250078478576_2_alg».proof.Proof.Gen.ReferenceIdeal.Read
import proofs.«167355_j84250078478576_2_alg».proof.Proof.Gen.Pre_finite_inputs
import proofs.«167355_j84250078478576_2_alg».proof.Proof.AttnSpec
import proofs.«167355_j84250078478576_2_alg».proof.Proof.LibOnlineSoftmax
import proofs.«167355_j84250078478576_2_alg».proof.Proof.LibLastAxisMax

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.Attn Cert.LibOnlineSoftmax

/-- An [8192, 1024] argument array of extended reals. -/
abbrev Arg : Type := (⟨S8192x1024, .f32⟩ : BufTy).Contents (Elt Ideal)

/-- The word 0xFF800000 denotes −∞. -/
theorem ofBits_neg_inf : Ideal.ofBits .f32 0xFF800000#32 = ⊥ := by simp [Ideal.ofBits, Ideal.ieee]

/-- The softmax denominator is positive: the largest score contributes exp 0 = 1. -/
theorem rowSum_pos (q k : Fin 8192 → Fin 1024 → ℝ) (r : Fin 8192) : 0 < rowSum q k r :=
  lt_of_lt_of_le one_pos (one_le_sum_exp Finset.univ Finset.univ_nonempty (score q k r))

/-- The scores: entry (p, c) of the first contraction is the inner product of query row p and key row c. -/
theorem scores_eq (a0 a1 : Arg) (h0 : Finite (s := S8192x1024) a0) (h1 : Finite (s := S8192x1024) a1)
    (p c : Fin 8192) :
    Read.val_main_v1 (F := Ideal) a0 a1 (ix2 p c) = ((score (re a0) (re a1) p c : ℝ) : EReal) := by
  rw [Read.val_main_v1_apply]
  unfold score
  rw [← coe_sum]
  refine Finset.sum_congr rfl fun k _ => ?_
  rw [Read.val_main_v0_apply,
    show Read.lidx_main_v1 (ix2 p c) k = ix2 p k from
      funext fun a => Fin.ext (by match a with | ⟨0, _⟩ => rfl | ⟨1, _⟩ => rfl),
    show Read.idx_main_v0 (Read.ridx_main_v1 (ix2 p c) k) = ix2 c k from
      funext fun a => Fin.ext (by match a with | ⟨0, _⟩ => rfl | ⟨1, _⟩ => rfl),
    h0.eq_re, h1.eq_re, EReal.coe_mul]

/-- The reduction by max from −∞ along row p is the row's largest score. -/
theorem rowmax_eq (a0 a1 : Arg) (h0 : Finite (s := S8192x1024) a0) (h1 : Finite (s := S8192x1024) a1)
    (p : Fin 8192) :
    Read.val_main_v2 (F := Ideal) a0 a1 (ix1 p) = ((rowMax (re a0) (re a1) p : ℝ) : EReal) := by
  have hR : S8192x8192.Reduces [1] S8192 := by decide
  have e : (fun k : Fin 8192 => Read.val_main_v1 (F := Ideal) a0 a1 (ix2 p k))
      = fun k => ((score (re a0) (re a1) p k : ℝ) : EReal) :=
    funext fun k => scores_eq a0 a1 h0 h1 p k
  unfold Read.val_main_v2
  rw [Cert.LibLastAxisMax.hostLastMax2_apply _ _ _ hR _ p, Read.val_main_cst_apply, Ideal.ofBits_def, ofBits_neg_inf, e,
    fold_max_coe Finset.univ Finset.univ_nonempty]
  rfl

/-- The row's largest score laid along the row: the maximum with −∞ changes nothing. -/
theorem bmax_eq (a0 a1 : Arg) (h0 : Finite (s := S8192x1024) a0) (h1 : Finite (s := S8192x1024) a1)
    (p c : Fin 8192) :
    Read.val_main_v6 (F := Ideal) a0 a1 (ix2 p c) = ((rowMax (re a0) (re a1) p : ℝ) : EReal) := by
  rw [Read.val_main_v6_apply, Read.val_main_v5_apply, Read.val_main_v4_apply, Read.val_main_v3_apply,
    Read.val_main_cst_0_apply,
    show Read.idx_main_v5 (Read.idx_main_v6 (ix2 p c)) = ix1 p from
      funext fun a => Fin.ext (by match a with | ⟨0, _⟩ => rfl),
    rowmax_eq a0 a1 h0 h1 p, Ideal.ofBits_def, ofBits_neg_inf, Ideal.maximumf_def]
  exact max_eq_right bot_le

/-- The shifted exponentials. -/
theorem exps_eq (a0 a1 : Arg) (h0 : Finite (s := S8192x1024) a0) (h1 : Finite (s := S8192x1024) a1)
    (p c : Fin 8192) :
    Read.val_main_v8 (F := Ideal) a0 a1 (ix2 p c)
      = ((Real.exp (score (re a0) (re a1) p c - rowMax (re a0) (re a1) p) : ℝ) : EReal) := by
  rw [Read.val_main_v8_apply, Read.val_main_v7_apply, scores_eq a0 a1 h0 h1, bmax_eq a0 a1 h0 h1, Ideal.subf_def,
    Ideal.hostUnary_exp_def, ← EReal.coe_sub, Ideal.exp_coe]

/-- The sum of the shifted exponentials along row p, from 0, is the softmax denominator. -/
theorem rowsum_eq (a0 a1 : Arg) (h0 : Finite (s := S8192x1024) a0) (h1 : Finite (s := S8192x1024) a1)
    (p : Fin 8192) :
    Read.val_main_v9 (F := Ideal) a0 a1 (ix1 p) = ((rowSum (re a0) (re a1) p : ℝ) : EReal) := by
  rw [Read.val_main_v9_apply, Read.val_main_cst_1_apply, Ideal.ofBits_def, Ideal.ofBits_zero_f32, zero_add]
  unfold rowSum
  rw [← coe_sum]
  refine Finset.sum_congr rfl fun k _ => ?_
  rw [show Read.idx_main_v9 (ix1 p) k = ix2 p k from
      funext fun a => Fin.ext (by match a with | ⟨0, _⟩ => rfl | ⟨1, _⟩ => rfl),
    exps_eq a0 a1 h0 h1 p k]

/-- The denominator laid along the row. -/
theorem bsum_eq (a0 a1 : Arg) (h0 : Finite (s := S8192x1024) a0) (h1 : Finite (s := S8192x1024) a1)
    (p c : Fin 8192) :
    Read.val_main_v11 (F := Ideal) a0 a1 (ix2 p c) = ((rowSum (re a0) (re a1) p : ℝ) : EReal) := by
  rw [Read.val_main_v11_apply, Read.val_main_v10_apply,
    show Read.idx_main_v10 (Read.idx_main_v11 (ix2 p c)) = ix1 p from
      funext fun a => Fin.ext (by match a with | ⟨0, _⟩ => rfl),
    rowsum_eq a0 a1 h0 h1 p]

/-- The reference's attention weight at (p, c). -/
theorem attn_at (a0 a1 : Arg) (h0 : Finite (s := S8192x1024) a0) (h1 : Finite (s := S8192x1024) a1)
    (p c : Fin 8192) :
    Read.val_main_v12 (F := Ideal) a0 a1 (ix2 p c) = ((attn (re a0) (re a1) p c : ℝ) : EReal) := by
  rw [Read.val_main_v12_apply, exps_eq a0 a1 h0 h1, bsum_eq a0 a1 h0 h1, Ideal.hostDivf_def,
    div_coe_coe _ _ (rowSum_pos (re a0) (re a1) p).ne']
  rfl

/-- The reference's attention matrix is the specification's. -/
theorem attn_eq (a0 a1 : Arg) (h0 : Finite (s := S8192x1024) a0) (h1 : Finite (s := S8192x1024) a1) :
    Read.val_main_v12 (F := Ideal) a0 a1 = attnArr a0 a1 := by
  funext i
  obtain ⟨p, c, rfl⟩ : ∃ (p : Fin 8192) (c : Fin 8192), i = ix2 p c := ⟨i 0, i 1, eq_ix2 i⟩
  rw [attn_at a0 a1 h0 h1 p c]
  rfl

/-- The reference's context is the specification's: the weighted sum of the value rows. -/
theorem ctx_eq (a0 a1 a2 : Arg) (h0 : Finite (s := S8192x1024) a0) (h1 : Finite (s := S8192x1024) a1)
    (h2 : Finite (s := S8192x1024) a2) :
    Read.val_main_v13 (F := Ideal) a0 a1 a2 = ctxArr a0 a1 a2 := by
  funext i
  obtain ⟨p, e, rfl⟩ : ∃ (p : Fin 8192) (e : Fin 1024), i = ix2 p e := ⟨i 0, i 1, eq_ix2 i⟩
  rw [Read.val_main_v13_apply]
  show ∑ k : Fin 8192, Read.val_main_v12 (F := Ideal) a0 a1 (Read.lidx_main_v13 (ix2 p e) k) * a2 (Read.ridx_main_v13 (ix2 p e) k)
    = ((∑ j : Fin 8192, attn (re a0) (re a1) p j * re a2 j e : ℝ) : EReal)
  rw [← coe_sum]
  refine Finset.sum_congr rfl fun k _ => ?_
  rw [show Read.lidx_main_v13 (ix2 p e) k = ix2 p k from
      funext fun a => Fin.ext (by match a with | ⟨0, _⟩ => rfl | ⟨1, _⟩ => rfl),
    show Read.ridx_main_v13 (ix2 p e) k = ix2 k e from
      funext fun a => Fin.ext (by match a with | ⟨0, _⟩ => rfl | ⟨1, _⟩ => rfl),
    attn_at a0 a1 h0 h1 p k, h2.eq_re, EReal.coe_mul]

/-- The reference's run, with its two results named by the specification: from a memory whose three arguments
    are finite on every device, every weakly fair execution terminates with the context and the attention matrix of
    the specification and the arguments unchanged. -/
theorem run_spec (m' : (ℓ : Loc nD τ sig) → Buf (Elt Ideal) ℓ) (ρ' : Dev nD → PrngReg)
    (h0 : ∀ c : Dev nD, Finite (s := S8192x1024) (m' ((c.tc : Thread nD τ).loc main_arg0)))
    (h1 : ∀ c : Dev nD, Finite (s := S8192x1024) (m' ((c.tc : Thread nD τ).loc main_arg1)))
    (h2 : ∀ c : Dev nD, Finite (s := S8192x1024) (m' ((c.tc : Thread nD τ).loc main_arg2))) :
    θ_run (defs (F := Ideal)) (onTc (τ := τ) (main (F := Ideal))) ⟨m', fun _ => 0, ρ'⟩ (fun r => ∀ c : Dev nD,
      r.2.mem ((c.tc : Thread nD τ).loc main_v13) = ctxArr (m' ((c.tc : Thread nD τ).loc main_arg0)) (m' ((c.tc : Thread nD τ).loc main_arg1)) (m' ((c.tc : Thread nD τ).loc main_arg2))
      ∧ r.2.mem ((c.tc : Thread nD τ).loc main_v12) = attnArr (m' ((c.tc : Thread nD τ).loc main_arg0)) (m' ((c.tc : Thread nD τ).loc main_arg1))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)) :=
  (θ_run (defs (F := Ideal)) _ _).mono
    (fun _ h c =>
      ⟨(h c).1.trans ((Read.val_main_v13_eq _ _ _).trans (ctx_eq _ _ _ (h0 c) (h1 c) (h2 c))),
        (h c).2.1.trans ((Read.val_main_v12_eq _ _).trans (attn_eq _ _ (h0 c) (h1 c))),
        (h c).2.2⟩)
    (Cert.ReferenceIdeal.Value.run (F := Ideal) m' ρ')

/-- The reference runs and leaves its arguments unchanged: its run with the two results dropped. -/
theorem frame_ri : Cert.frame_ReferenceIdeal :=
  fun m ρ _ => (θ_run Cert.ReferenceIdeal.defs _ _).mono (fun _ h c => (h c).2.2)
    (Cert.ReferenceIdeal.Value.run (F := Ideal) m ρ)

end Cert.ReferenceIdeal.RefValue

end
-- ==== Proof.FiniteInputs.lean ====
/-
  From the printed precondition to finiteness.

  The precondition is the conjunction, over the three argument arrays, of "every entry x has |x| < +∞", each
  written as a reduction by and, from 1, of the entrywise comparison. If the conjunction is 1 then every
  comparison is 1, so no entry is +∞ or −∞, that is, every entry is a real number.
-/
import proofs.«167355_j84250078478576_2_alg».proof.Pre_finite_inputs
import proofs.«167355_j84250078478576_2_alg».proof.Proof.AttnSpec
import Idealize.ShloMosaic.Lib.ReduceAll
import Idealize.ShloMosaic.PureOps.Ideal

noncomputable section

namespace Cert.FiniteInputs

open Idealize.ShloMosaic Cert.Pre_finite_inputs

/-- The word 0x7F800000 denotes +∞. -/
theorem ofBits_inf : Ideal.ofBits .f32 0x7F800000#32 = ⊤ := by simp [Ideal.ofBits, Ideal.ieee]

/-- An extended real whose absolute value max x (−x) is below +∞ is a real number. -/
theorem real_of_abs_lt_inf (x : EReal)
    (h : Ideal.cmp .olt (max x (-x)) (Ideal.ofBits .f32 0x7F800000#32) = 1#1) : ∃ y : ℝ, x = ((y : ℝ) : EReal) := by
  rw [ofBits_inf] at h
  induction x using EReal.rec with
  | bot => exact absurd h (by simp [Ideal.cmp])
  | coe y => exact ⟨y, rfl⟩
  | top => exact absurd h (by simp [Ideal.cmp])

/-- The scalar shape has one index. -/
instance : Subsingleton S_.Idx := ⟨fun a b => funext fun d => d.elim0⟩

variable [Facts]

/-- If the reduction by and of the entrywise test |a i| < +∞ is 1, every entry of a is a real number. -/
theorem finite_of_all (a : FVec Ideal S8192x1024 .f32) (j : S_.Idx)
    (e : Host.reduce IntOp.andi
        (cmpf .olt (Host.absf a) (broadcastInDim S8192x1024 ![] Facts.bcast_S_S8192x1024 (constant S_ .f32 0x7F800000#32)))
        (constantI S_ 1 1#1) Facts.reducesTo_S8192x1024_S_d0_1 Facts.h_S_ j = 1#1) :
    Cert.Attn.Finite (s := S8192x1024) a := by
  intro i
  have hi := Host.reduce_andi_all _ _ _ _ j e i
  exact real_of_abs_lt_inf (a i) hi

/-- The precondition being all ones makes each of the three argument arrays finite. -/
theorem finite_of_fn (a0 a1 a2 : (⟨2, ![8192, 1024]⟩ : Shape).Idx → EReal)
    (h : Cert.Pre_finite_inputs.fn (F := Ideal) a0 a1 a2 = fun _ => 1#1) :
    Cert.Attn.Finite a0 ∧ Cert.Attn.Finite a1 ∧ Cert.Attn.Finite a2 := by
  have h' := congrFun h (fun a => a.elim0)
  dsimp only [Cert.Pre_finite_inputs.fn] at h'
  obtain ⟨h01, h2⟩ := IntOp.andi_eq_one.1 h'
  obtain ⟨h0, h1⟩ := IntOp.andi_eq_one.1 h01
  exact ⟨finite_of_all a0 _ h0, finite_of_all a1 _ h1, finite_of_all a2 _ h2⟩

end Cert.FiniteInputs

end
-- ==== Proof.lean ====
/-
  Dense attention in two kernels equals softmax attention, over the extended reals.

  The program computes, for q, k, v of shape [8192, 1024], the scores s = q·kᵀ once (each operand split into a bf16
  high part and the bf16 of the remainder, three products summed), streaming a row maximum m and a sum l of
  exp(s − m) over 16 key blocks, and stores the raw scores and m + log l; a second kernel turns the stored scores into
  exp(s − (m + log l)), the attention weights, and accumulates their product with v over 8 key blocks. The reference
  is exp(s − max s) / Σ exp(s − max s) and its product with v.

  At the ideal values a change of float format is the identity, so on finite inputs the remainder parts vanish and
  the three products are q·kᵀ; the streamed pair ends at the row's maximum M and L = Σ_j exp(s_j − M) ≥ 1 (the
  streaming softmax law, proved over the reals); and exp(s − (M + log L)) = exp(s − M) / L. Both programs therefore
  end at one specification (AttnSpec.lean), the real softmax attention of the real parts of the arguments.

  The frames: each kernel is run point by point with its carried scratch named (the running statistics and the
  query halves; the context accumulator), the two pallas calls are chained through @main's host operations, and no
  step writes an argument. The two format round trips the idealization removed are the rule's statement.
-/
import proofs.«167355_j84250078478576_2_alg».proof.Defs
import proofs.«167355_j84250078478576_2_alg».proof.Proof.Gen.Kernel
import proofs.«167355_j84250078478576_2_alg».proof.Proof.Gen.KernelIdeal
import proofs.«167355_j84250078478576_2_alg».proof.Proof.Gen.ReferenceIdeal
import proofs.«167355_j84250078478576_2_alg».proof.Proof.Gen.Pre_finite_inputs
import proofs.«167355_j84250078478576_2_alg».proof.Proof.KernelRun
import proofs.«167355_j84250078478576_2_alg».proof.Proof.K0Kit
import proofs.«167355_j84250078478576_2_alg».proof.Proof.K1Body
import proofs.«167355_j84250078478576_2_alg».proof.Proof.K0KitB
import proofs.«167355_j84250078478576_2_alg».proof.Proof.K1BodyB
import proofs.«167355_j84250078478576_2_alg».proof.Proof.ValEntryB
import proofs.«167355_j84250078478576_2_alg».proof.Proof.RefValue
import proofs.«167355_j84250078478576_2_alg».proof.Proof.FiniteInputs

noncomputable section

namespace Cert.Proof

open Idealize.ShloMosaic Idealize.SL.Sem Cert.Attn

/-- The word-level program runs and leaves its arguments as launched. -/
theorem frame_k [Cert.Kernel.Facts] [Cert.Pre_finite_inputs.Facts] : Cert.frame_Kernel := fun m ρ _ =>
  (θ_run (Cert.Kernel.defs (F := Bits)) _ _).mono (fun _ h c => (h c).2.2)
    (Cert.Kernel.Hand.run_read m ρ Cert.Kernel.Hand.kit0 Cert.Kernel.Hand.kit1)

/-- So does the idealized one. -/
theorem frame_ki [Cert.KernelIdeal.Facts] [Cert.Pre_finite_inputs.Facts] : Cert.frame_KernelIdeal := fun m ρ _ =>
  (θ_run (Cert.KernelIdeal.defs (F := Ideal)) _ _).mono (fun _ h c => (h c).2.2)
    (Cert.KernelIdeal.Hand.run_read m ρ (Cert.KernelIdeal.Hand.kit0V (F := Ideal)).toKit0 (Cert.KernelIdeal.Hand.kit1V (F := Ideal)).toKit1)

/-- The two bf16 round trips the idealization removed, on the query tile and on the key block. -/
theorem preserves : Cert.preserves_Kernel_KernelIdeal :=
  ⟨IdealRules.truncf_extf.statement _ .f32 .bf16, IdealRules.truncf_extf.statement _ .f32 .bf16⟩

/-- Both idealized programs end at the real softmax attention of their (finite, agreeing) arguments. -/
theorem algebraic [Cert.KernelIdeal.Facts] [Cert.ReferenceIdeal.Facts] [Cert.Pre_finite_inputs.Facts] :
    Cert.algebraic_KernelIdeal_ReferenceIdeal := by
  intro m ρ m' ρ' hpre hagree
  have hf := fun c => Cert.FiniteInputs.finite_of_fn _ _ _ (hpre c)
  refine ⟨_, _, Cert.KernelIdeal.Hand.run_spec Cert.KernelIdeal.Hand.kit0V Cert.KernelIdeal.Hand.kit1V m ρ
    (fun c => (hf c).1) (fun c => (hf c).2.1) (fun c => (hf c).2.2), ?_⟩
  have hr := Cert.ReferenceIdeal.RefValue.run_spec m' ρ'
    (fun c => by rw [(hagree c).1]; exact (hf c).1) (fun c => by rw [(hagree c).2.1]; exact (hf c).2.1)
    (fun c => by rw [(hagree c).2.2]; exact (hf c).2.2)
  refine (θ_run (Cert.ReferenceIdeal.defs (F := Ideal)) _ _).mono (fun r h c => ?_) hr
  obtain ⟨e1, e2, e3⟩ := hagree c
  rw [← e1, ← e2, ← e3]
  exact h c

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, preserves, algebraic⟩

end Cert.Proof

end
